-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S8192x512 .f32) (main_arg1 : IVec S8192x8192 32) (main_arg2 : FVec F S512x256 .f32) (main_arg3 : FVec F S512x1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x1 .f32 := Host.absf main_arg3
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  main_v13
-- ==== Kernel.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S256x1 : Shape := ⟨2, ![256, 1]⟩
abbrev S1x256 : Shape := ⟨2, ![1, 256]⟩
abbrev S8192x256 : Shape := ⟨2, ![8192, 256]⟩
abbrev S8192x1 : Shape := ⟨2, ![8192, 1]⟩
abbrev S1x8192 : Shape := ⟨2, ![1, 8192]⟩
abbrev S1024x512 : Shape := ⟨2, ![1024, 512]⟩
abbrev S1024x256 : Shape := ⟨2, ![1024, 256]⟩
abbrev S1024x1 : Shape := ⟨2, ![1024, 1]⟩
abbrev S1x1024 : Shape := ⟨2, ![1, 1024]⟩
abbrev S1024 : Shape := ⟨1, ![1024]⟩
abbrev S1024x1024 : Shape := ⟨2, ![1024, 1024]⟩

abbrev nBuf : Space → Nat
  | .hbm => 12
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x256, .f32⟩
  | .hbm, ⟨3, _⟩ => ⟨S512x1, .f32⟩
  | .hbm, ⟨4, _⟩ => ⟨S256x1, .f32⟩
  | .hbm, ⟨5, _⟩ => ⟨S1x256, .f32⟩
  | .hbm, ⟨6, _⟩ => ⟨S256x1, .f32⟩
  | .hbm, ⟨7, _⟩ => ⟨S1x256, .f32⟩
  | .hbm, ⟨8, _⟩ => ⟨S8192x256, .bf16⟩
  | .hbm, ⟨9, _⟩ => ⟨S8192x1, .f32⟩
  | .hbm, ⟨10, _⟩ => ⟨S1x8192, .f32⟩
  | .hbm, ⟨11, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1x256, .f32⟩
  | .local _ .vmem, ⟨4, _⟩ => ⟨S1x256, .f32⟩
  | .local _ .vmem, ⟨5, _⟩ => ⟨S1024x256, .bf16⟩
  | .local _ .vmem, ⟨6, _⟩ => ⟨S1024x256, .bf16⟩
  | .local _ .vmem, ⟨7, _⟩ => ⟨S1024x1, .f32⟩
  | .local _ .vmem, ⟨8, _⟩ => ⟨S1024x1, .f32⟩
  | .local _ .vmem, ⟨9, _⟩ => ⟨S1x1024, .f32⟩
  | .local _ .vmem, ⟨10, _⟩ => ⟨S1x1024, .f32⟩
  | .local _ .vmem, ⟨11, _⟩ => ⟨S1024x256, .bf16⟩
  | .local _ .vmem, ⟨12, _⟩ => ⟨S1024x256, .bf16⟩
  | .local _ .vmem, ⟨13, _⟩ => ⟨S1024x1024, .i32⟩
  | .local _ .vmem, ⟨14, _⟩ => ⟨S1024x1024, .i32⟩
  | .local _ .vmem, ⟨15, _⟩ => ⟨S1024x1, .f32⟩
  | .local _ .vmem, ⟨16, _⟩ => ⟨S1024x1, .f32⟩
  | .local _ .vmem, ⟨17, _⟩ => ⟨S1x1024, .f32⟩
  | .local _ .vmem, ⟨18, _⟩ => ⟨S1x1024, .f32⟩
  | .local _ .vmem, ⟨19, _⟩ => ⟨S1024x256, .f32⟩
  | .local _ .vmem, ⟨20, _⟩ => ⟨S1024x256, .f32⟩
  | .local _ .vmem, ⟨21, _⟩ => ⟨S1024x1, .f32⟩
  | .local _ .vmem, ⟨22, _⟩ => ⟨S1024x1, .f32⟩
  | .local _ .vmem, ⟨23, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_28 : BitVec 32 := 0#32
  let v54 : BitVec 1 := Scalar.cmpi .ne v53 c0_i32_28
  v54

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S512x1_S256x1_0_0 : S512x1.Slices ![0, 0] S256x1
  transposes_S256x1_S1x256_1_0 : S256x1.Transposes [1, 0] S1x256
  slices_S512x1_S256x1_256_0 : S512x1.Slices ![256, 0] S256x1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  shapeCasts_S1024x1_S1024x1 : S1024x1.ShapeCasts S1024x1
  shapeCasts_S1024x256_S1024x256 : S1024x256.ShapeCasts S1024x256
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  broadcasts_S1024x1_S1024x256 : S1024x1.Broadcasts S1024x256
  dot_S1024x512_S512x256_S1024x256_1_0_0_1_n_n_wf : DotDims.WF S1024x512 S512x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x8192.size a
  hwx0_6 : ∀ i : grid0.Coords, EltTy.bits .f32 = 32 ∨ (Rect.block (s := S1x8192) S1x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .i32 = 32 ∨ (Rect.block (s := S8192x8192) S1024x1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_2) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S8192x256 : Shape := ⟨2, ![8192, 256]⟩
abbrev S256x1 : Shape := ⟨2, ![256, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x256, .f32⟩
  | .hbm, ⟨3, _⟩ => ⟨S512x1, .f32⟩
  | .hbm, ⟨4, _⟩ => ⟨S8192x256, .f32⟩
  | .hbm, ⟨5, _⟩ => ⟨S256x1, .f32⟩
  | .hbm, ⟨6, _⟩ => ⟨S8192x1, .f32⟩
  | .hbm, ⟨7, _⟩ => ⟨S256x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x8192, .f32⟩
  | .hbm, ⟨40, _⟩ => ⟨S8192x8192, .f32⟩
  | .hbm, ⟨41, _⟩ => ⟨S8192x256, .f32⟩
  | .hbm, ⟨42, _⟩ => ⟨S_, .f32⟩
  | .hbm, ⟨43, _⟩ => ⟨S8192x256, .f32⟩
  | .hbm, ⟨44, _⟩ => ⟨S8192x256, .i1⟩
  | .hbm, ⟨45, _⟩ => ⟨S_, .f32⟩
  | .hbm, ⟨46, _⟩ => ⟨S8192x256, .f32⟩
  | .hbm, ⟨47, _⟩ => ⟨S8192x256, .i1⟩
  | .hbm, ⟨48, _⟩ => ⟨S_, .f32⟩
  | .hbm, ⟨49, _⟩ => ⟨S_, .f32⟩
  | .hbm, ⟨50, _⟩ => ⟨S8192x256, .f32⟩
  | .hbm, ⟨51, _⟩ => ⟨S8192x256, .f32⟩
  | .hbm, ⟨52, _⟩ => ⟨S8192x256, .f32⟩
  | .hbm, ⟨53, _⟩ => ⟨S_, .f32⟩
  | .hbm, ⟨54, _⟩ => ⟨S8192x256, .f32⟩
  | .hbm, ⟨55, _⟩ => ⟨S8192x256, .f32⟩
  | .hbm, ⟨56, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_call1_v0 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call2_cst : Ref sig .tc := ⟨.hbm, 42, rfl⟩
abbrev main_call2_v0 : Ref sig .tc := ⟨.hbm, 43, rfl⟩
abbrev main_call2_v1 : Ref sig .tc := ⟨.hbm, 44, rfl⟩
abbrev main_call2_cst_0 : Ref sig .tc := ⟨.hbm, 45, rfl⟩
abbrev main_call2_v2 : Ref sig .tc := ⟨.hbm, 46, rfl⟩
abbrev main_call2_v3 : Ref sig .tc := ⟨.hbm, 47, rfl⟩
abbrev main_call2_cst_1 : Ref sig .tc := ⟨.hbm, 48, rfl⟩
abbrev main_call2_call0_v0 : Ref sig .tc := ⟨.hbm, 49, rfl⟩
abbrev main_call2_call0_v1 : Ref sig .tc := ⟨.hbm, 50, rfl⟩
abbrev main_call2_v4 : Ref sig .tc := ⟨.hbm, 51, rfl⟩
abbrev main_call2_v5 : Ref sig .tc := ⟨.hbm, 52, rfl⟩
abbrev main_call2_cst_2 : Ref sig .tc := ⟨.hbm, 53, rfl⟩
abbrev main_call2_v6 : Ref sig .tc := ⟨.hbm, 54, rfl⟩
abbrev main_call2_v7 : Ref sig .tc := ⟨.hbm, 55, rfl⟩
abbrev main_v25 : Ref sig .tc := ⟨.hbm, 56, rfl⟩

abbrev nD : Nat := 1
abbrev τ : Topo := Topo.v7x

variable {F : FTy → Type} [FloatOps F]

class Facts₀ : Prop where
  slices_S512x1_S256x1_0_0 : S512x1.Slices ![0, 0] S256x1
  slices_S512x1_S256x1_256_0 : S512x1.Slices ![256, 0] S256x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x256 : S_.BroadcastsInDim S8192x256 (![] : Fin 0 → Fin S8192x256.rank)
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Kernel.R0Body.lean ====
/-
  The projection kernel's half of the frame: at each of its 8 grid points the body reads a block of 1024 rows of the
  features, the whole weight matrix and the two halves of the attention vector, and writes the block's projected
  features (rounded to bfloat16), the block's query logits (a column) and its key logits (a row).  Nothing is carried
  from point to point: what the body leaves in each output buffer is a closed function of the input blocks.
-/
import proofs.«151817_j31731218382937_2_alg».proof.Proof.Gen.Kernel.Launch
import proofs.«151817_j31731218382937_2_alg».proof.Proof.Gen.Kernel.Skeleton
import proofs.«151817_j31731218382937_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every one is the whole buffer -/

/-- The offsets of every access, however spelt, are zero. -/
theorem hz0 : (![0, 0] : Fin 2 → Nat) = fun _ => 0 := by
  funext a; fin_cases a <;> rfl

abbrev r0_in0 : Rect S1024x512 := Rect.unit (s := S1024x512) ![0, 0] S1024x512.size inb_S1024x512_S1024x512_0_0
abbrev r0_in1 : Rect S512x256 := Rect.unit (s := S512x256) ![0, 0] S512x256.size inb_S512x256_S512x256_0_0
abbrev r0_in2 : Rect S1x256 := Rect.unit (s := S1x256) ![0, 0] S1x256.size inb_S1x256_S1x256_0_0
abbrev r0_out4 : Rect S1024x256 := Rect.unit (s := S1024x256) ![0, 0] S1024x256.size inb_S1024x256_S1024x256_0_0
abbrev r0_out5 : Rect S1024x1 := Rect.unit (s := S1024x1) ![0, 0] S1024x1.size inb_S1024x1_S1024x1_0_0
abbrev r0_out6 : Rect S1x1024 := Rect.unit (s := S1x1024) ![0, 0] S1x1024.size inb_S1x1024_S1x1024_0_0

/-! ## What the body leaves in each output window's buffer -/

/-- The projected features' buffer after the body, from the feature block and the weights. -/
def out0_4 (x0 : Vec F S1024x512 .f32) (x1 : Vec F S512x256 .f32) : Vec F S1024x256 .bf16 :=
  View.canon [⟨r0_out4, k0_pay2 (View.ld x0 r0_in0) (View.ld x1 r0_in1)⟩]

/-- The query logits' buffer after the body, from the feature block, the weights and the first half of the attention vector. -/
def out0_5 (x0 : Vec F S1024x512 .f32) (x1 : Vec F S512x256 .f32) (x2 : Vec F S1x256 .f32) : Vec F S1024x1 .f32 :=
  View.canon [⟨r0_out5, k0_pay3 (View.ld x0 r0_in0) (View.ld x1 r0_in1) (View.ld x2 r0_in2)⟩]

/-- The key logits' buffer after the body, from the feature block, the weights and the second half of the attention vector. -/
def out0_6 (x0 : Vec F S1024x512 .f32) (x1 : Vec F S512x256 .f32) (x3 : Vec F S1x256 .f32) : Vec F S1x1024 .f32 :=
  View.canon [⟨r0_out6, k0_pay4 (View.ld x0 r0_in0) (View.ld x1 r0_in1) (View.ld x3 r0_in2)⟩]

/-- One whole-buffer store of a payload over whole-buffer loads leaves the payload of the buffers' contents. -/
theorem out0_4_eq (x0 : Vec F S1024x512 .f32) (x1 : Vec F S512x256 .f32) : out0_4 x0 x1 = k0_pay2 x0 x1 := by
  unfold out0_4
  rw [View.canon_unit_zero hz0, View.ld_unit_zero hz0, View.ld_unit_zero hz0]

theorem out0_5_eq (x0 : Vec F S1024x512 .f32) (x1 : Vec F S512x256 .f32) (x2 : Vec F S1x256 .f32) :
    out0_5 x0 x1 x2 = k0_pay3 x0 x1 x2 := by
  unfold out0_5
  rw [View.canon_unit_zero hz0, View.ld_unit_zero hz0, View.ld_unit_zero hz0, View.ld_unit_zero hz0]

theorem out0_6_eq (x0 : Vec F S1024x512 .f32) (x1 : Vec F S512x256 .f32) (x3 : Vec F S1x256 .f32) :
    out0_6 x0 x1 x3 = k0_pay4 x0 x1 x3 := by
  unfold out0_6
  rw [View.canon_unit_zero hz0, View.ld_unit_zero hz0, View.ld_unit_zero hz0, View.ld_unit_zero hz0]

/-! ## What the body finds in each input window's buffer

An input window's current staging buffer holds its block at every point, fetched there or not, for any proof data
whose array is `V`'s and whose body leaves the block in place: unfetched, the block index has not moved. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## Each output's one store covers its buffer -/

theorem cover0_4 (p0 : Vec F S1024x256 .bf16) (y : S1024x256.Idx) :
    ∃ pc ∈ ([⟨r0_out4, p0⟩] : List (View.Piece (Elt F) S1024x256 .bf16)), y ∈ pc.1.set :=
  ⟨_, List.mem_singleton_self _, View.mem_set_unit_zero hz0 inb_S1024x256_S1024x256_0_0 y⟩

theorem cover0_5 (p0 : Vec F S1024x1 .f32) (y : S1024x1.Idx) :
    ∃ pc ∈ ([⟨r0_out5, p0⟩] : List (View.Piece (Elt F) S1024x1 .f32)), y ∈ pc.1.set :=
  ⟨_, List.mem_singleton_self _, View.mem_set_unit_zero hz0 inb_S1024x1_S1024x1_0_0 y⟩

theorem cover0_6 (p0 : Vec F S1x1024 .f32) (y : S1x1024.Idx) :
    ∃ pc ∈ ([⟨r0_out6, p0⟩] : List (View.Piece (Elt F) S1x1024 .f32)), y ∈ pc.1.set :=
  ⟨_, List.mem_singleton_self _, View.mem_set_unit_zero hz0 inb_S1x1024_S1x1024_0_0 y⟩

/-! ## The body's triple -/

set_option maxHeartbeats 4000000 in
/-- The kernel body on whole staging memrefs, the inputs' at read contents `xW` and the outputs' at anything, runs to
    the continuation holding the inputs' as they were and each output's at `out0_W` of the inputs'.  The body reads
    each output buffer before it overwrites it; what it reads there is never used. -/
theorem sound_kernel0 (c : Dev nD) (E : Set ℕ) (i : grid0.Coords)
    (arg1 : Memref sig .tc .vmem S1024x512 .f32) (harg1 : arg1.IsWhole)
    (arg2 : Memref sig .tc .vmem S512x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1024x256 .bf16) (harg5 : arg5.IsWhole)
    (arg6 : Memref sig .tc .vmem S1024x1 .f32) (harg6 : arg6.IsWhole)
    (arg7 : Memref sig .tc .vmem S1x1024 .f32) (harg7 : arg7.IsWhole)
    (x0 : Vec F S1024x512 .f32) (x1 : Vec F S512x256 .f32) (x2 : Vec F S1x256 .f32) (x3 : Vec F S1x256 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1)
            ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E
          (cc0__wh_kernel i arg1 harg1 arg2 harg2 arg3 harg3 arg4 harg4 arg5 harg5 arg6 harg6 arg7 harg7) K := by
  simp only [cc0__wh_kernel_eq_skeleton]; unfold cc0__wh_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the projection pipeline on core `c`: the arrays as the region finds them (`V`); after the body at
    point `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Kernel.R1State.lean ====
/-
  What the attention kernel's three carried buffers hold after each grid point, as pure functions of the
  blocks the point is handed.

  The grid is 8 row blocks by 8 key tiles, walked row block by row block.  At a point the body is handed a
  block of keys' projected features (1024 x 256), a block of the adjacency matrix (1024 x 1024), the row block's
  query logits (1024 x 1) and the tile's key logits (1 x 1024).  It keeps, per row of the block, a running maximum,
  a running sum of exponentials and a running weighted sum of features (1024 x 256).  At the first tile of a row
  block the three are reset (to minus infinity, zero, zero) before use; at every tile they are updated by one
  step; at the last tile the weighted sum divided by the sum of exponentials, passed through the exponential
  linear unit, is the output block.
-/
import proofs.«151817_j31731218382937_2_alg».proof.Proof.Gen.Kernel.Skeleton
import proofs.«151817_j31731218382937_2_alg».proof.Proof.Gen.Kernel.Points
import proofs.«151817_j31731218382937_2_alg».proof.Proof.Gen.Kernel.Launch
import Idealize.ShloMosaic.Lib.Pipeline.FrameBody

noncomputable section

namespace Cert.Kernel.Hand

open Idealize.ShloMosaic Idealize.ShloMosaic.TcCoe
open Idealize.SL Idealize.SL.Sem
open Cert.Kernel.Gen

variable {F : FTy → Type} [FloatOps F]

/-- The three carried buffers: running maximum, running sum, running weighted sum. -/
abbrev St1 (F : FTy → Type) [FloatOps F] : Type :=
  Vec F S1024x1 .f32 × Vec F S1024x1 .f32 × Vec F S1024x256 .f32

/-- What the reset at the first tile of a row block stores: minus infinity, zero, zero. -/
def init1 : St1 F := (k1_pay5 (F := F), k1_pay6 (F := F), k1_pay7 (F := F))

/-- One tile's update of the three carried buffers, from the blocks the point is handed (keys' features `x0`,
    adjacency `x1`, query logits `x2`, key logits `x3`) and what the buffers held (`s`). -/
def step1 (x0 : Vec F S1024x256 .bf16) (x1 : Vec F S1024x1024 .i32) (x2 : Vec F S1024x1 .f32) (x3 : Vec F S1x1024 .f32)
    (s : St1 F) : St1 F :=
  (k1_pay3 (k1_pay9 x2 x3 x1 s.1),
   k1_pay1 (k1_pay12 x2 x3 x1 s.1 s.1 s.2.1),
   k1_pay2 (k1_pay10 x2 x3 x1 s.1 s.1) (k1_pay11 x2 x3 x1 s.1) s.2.2 x0)

/-- The output block the last tile of a row block stores, from the carried buffers after that tile's update. -/
def out1 (s : St1 F) : Vec F S1024x256 .f32 := k1_pay4 s.2.2 s.2.1

section AtEntry

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried buffers after the body at position `n`: at the first tile of a row block (`n` a multiple of 8)
    one step from the reset values, otherwise one step from what the point before left. -/
def stateAt1 (c : Dev nD) : (n : ℕ) → n < cfg1.N → St1 F
  | 0, hn => step1 (iblk1 V c 0 ⟨0, hn⟩) (iblk1 V c 1 ⟨0, hn⟩) (iblk1 V c 2 ⟨0, hn⟩) (iblk1 V c 3 ⟨0, hn⟩) init1
  | n + 1, hn =>
    if (n + 1) % 8 = 0 then
      step1 (iblk1 V c 0 ⟨n + 1, hn⟩) (iblk1 V c 1 ⟨n + 1, hn⟩) (iblk1 V c 2 ⟨n + 1, hn⟩) (iblk1 V c 3 ⟨n + 1, hn⟩) init1
    else
      step1 (iblk1 V c 0 ⟨n + 1, hn⟩) (iblk1 V c 1 ⟨n + 1, hn⟩) (iblk1 V c 2 ⟨n + 1, hn⟩) (iblk1 V c 3 ⟨n + 1, hn⟩)
        (stateAt1 c n (Nat.lt_of_succ_lt hn))

/-- At the first tile of a row block: one step from the reset values. -/
theorem stateAt1_first (c : Dev nD) (t : Fin cfg1.N) (h : t.val % 8 = 0) :
    stateAt1 V c t.val t.isLt = step1 (iblk1 V c 0 t) (iblk1 V c 1 t) (iblk1 V c 2 t) (iblk1 V c 3 t) init1 := by
  obtain ⟨n, hn⟩ := t
  cases n with
  | zero => rfl
  | succ n => exact if_pos h

/-- At a later tile: one step from what the point before left. -/
theorem stateAt1_later (c : Dev nD) (t : Fin cfg1.N) (h : ¬ t.val % 8 = 0) :
    stateAt1 V c t.val t.isLt = step1 (iblk1 V c 0 t) (iblk1 V c 1 t) (iblk1 V c 2 t) (iblk1 V c 3 t)
      (stateAt1 V c (t.val - 1) (Nat.lt_of_le_of_lt (Nat.sub_le _ _) t.isLt)) := by
  obtain ⟨n, hn⟩ := t
  cases n with
  | zero => exact absurd (Nat.zero_mod _) h
  | succ n => exact if_neg h

end AtEntry

end Cert.Kernel.Hand

end
-- ==== Proof.Kernel.R1Runs.lean ====
/-
  What the three case-by-case runs of the attention kernel's body share: the two branch conditions of the body
  decided over the grid (first key tile of a row block; last key tile of a row block), where the output window is
  idle, the staging and carried buffers as memrefs, the region's invariant spelt buffer by buffer, the fact that
  an input window's staging buffer holds its block whether or not it was fetched at the point, and what a
  whole-buffer store leaves and a whole-buffer load reads.
-/
import proofs.«151817_j31731218382937_2_alg».proof.Proof.Kernel.R1State
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks in their staging buffers -/

/-- Input window 0 (a block of keys' features): its current staging buffer holds its block at every point, for any
    proof data whose array is the region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (a block of the adjacency matrix), likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the row block's query logits; fetched at the first key tile of a row block only: at the
    other tiles its block index has not moved), likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the key tile's key logits), likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The body's first condition: the key-tile coordinate is zero (the first key tile of a row block). -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The body's second condition: the key-tile coordinate is seven (the last key tile of a row block). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last key tile the output window is idle: nothing is stored into it, -/
theorem idleAt1_4 : ∀ t : Fin cfg1.N, ¬cond1_1 (grid1.coords t) → cfg1.idle 4 (grid1.coords t) = true := by decide +kernel
/-- and its block is not written back. -/
theorem noFlush1_4 : ∀ t : Fin cfg1.N, ¬cond1_1 (grid1.coords t) → (cfg1.win 4).flush t = false := by decide +kernel
/-- At the last key tile it is live. -/
theorem liveAt1_4 : ∀ t : Fin cfg1.N, cond1_1 (grid1.coords t) → cfg1.idle 4 (grid1.coords t) = false := by decide +kernel

/-! ## The memrefs the body is handed -/

/-- Each window's current staging memref at point `t`, and its wholeness. -/
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The three carried buffers: running maximum, running sum of exponentials, running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2

/-! ## The region's invariant, buffer by buffer -/

/-- The core's scoped buffers that are neither this region's staging buffers nor its carried buffers (the other
    region's staging buffers), each at some contents, beside `P`. -/
def other1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P)

/-- The invariant the launch hands the region: the other scoped buffers and the three carried buffers at some
    contents, and the generator register at some state. -/
theorem PhiA1_eq (c : Dev nD) :
    (Pipeline.ΦA spec1 c : sProp 𝕄)
      = iprop(other1 c iprop((∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [other1, scM1_0, scM1_1, scM1_2, owns_whole]; try rfl

/-! ## Whole-buffer stores and loads -/

section Whole
variable {Val : EltTy → Type} [∀ e, Nonempty (Val e)] {S : Shape} {e : EltTy}

/-- What a view reads after a store through the whole-shape rectangle made last: the store's payload, whatever the
    earlier stores and the prior contents. -/
theorem read_writes_whole_last {sig' : RefSig} {κ : Kind} {sp : Space} (v : View sig' κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-- A load through the whole-shape rectangle after such a store reads the payload. -/
theorem readCov_whole_last {sig' : RefSig} {κ : Kind} {sp : Space} (v : View sig' κ sp S e)
    {off : Fin S.rank → Nat} (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb w L, View.ld_unit_zero h inb]

end Whole

/-- The zero offsets of a two-axis buffer, as the body's loads and stores spell them. -/
theorem zeros2 : (![0, 0] : Fin 2 → Nat) = fun _ => 0 := by funext a; fin_cases a <;> rfl

end Cert.Kernel.Hand

end
-- ==== Proof.Kernel.R1RunA.lean ====
/-
  The attention kernel's body at the first key tile of a row block: it resets the three carried buffers (running
  maximum to minus infinity, running sum and running weighted sum to zero), then updates them by one step from the
  blocks it is handed; it stores nothing into the output block.
-/
import proofs.«151817_j31731218382937_2_alg».proof.Proof.Kernel.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Whole
variable {Val : EltTy → Type} {κ : Kind} {sp : Space} {S : Shape} {e : EltTy} {m : Memref sig κ sp S e}

/-- A load through the whole-shape rectangle of a whole buffer whose contents read `X` reads `X`. -/
theorem readAt_whole_unread (h : m.IsWhole) {off : Fin S.rank → Nat} (hz : off = fun _ => 0)
    (inb : ∀ a, off a + S.size a ≤ S.size a) (X : S.Idx → Val e) :
    View.readAt Val m.view (Rect.unit off S.size inb).toLoadRect (h.unread X) = X := by
  rw [View.readAt_eq_ld, h.read_unread, View.ld_unit_zero hz]

end Whole

set_option maxHeartbeats 4000000 in
/-- At a point where the key-tile coordinate is zero: on whole memrefs — the four inputs at their blocks, the
    output's staging buffer at contents `xi4` handed back untouched, the carried buffers at anything — the body runs
    to the continuation holding the inputs as they were and the carried buffers at one update step from the reset
    values. -/
theorem kernelRun1_A (c : Dev nD) (i : grid1.Coords) (arg2 : Memref sig .tc .vmem S1024x256 .bf16) (harg2 : arg2.IsWhole) (arg3 : Memref sig .tc .vmem S1024x1024 .i32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x1024 .i32) (x2 : Vec F S1024x1 .f32) (x3 : Vec F S1x1024 .f32) (xi4 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare (step1 x0 x1 x2 x3 init1).1 ∗ owns (c : Thread nD τ) arg8 fullShare (step1 x0 x1 x2 x3 init1).2.1 ∗ owns (c : Thread nD τ) arg9 fullShare (step1 x0 x1 x2 x3 init1).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  iapply Hk

  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    refine (read_writes_whole_last _ _ zeros2 _ _ _).trans ?_
    sl_unfold_run_names
    have hx0 : View.readAt (Elt F) arg2.view (Rect.unit ![0, 0] ![1024, 256] inb_S1024x256_S1024x256_0_0).toLoadRect (harg2.unread x0) = x0 := readAt_whole_unread harg2 zeros2 _ x0
    simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
    rfl
  isplitl [HS1]
  · iexists _; isplitr; swap; · iexact HS1
    ipureintro
    refine (read_writes_whole_last _ _ zeros2 _ _ _).trans ?_
    sl_unfold_run_names
    have hx0 : View.readAt (Elt F) arg2.view (Rect.unit ![0, 0] ![1024, 256] inb_S1024x256_S1024x256_0_0).toLoadRect (harg2.unread x0) = x0 := readAt_whole_unread harg2 zeros2 _ x0
    simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
    rfl
  iexists _; isplitr; swap; · iexact HS2
  ipureintro
  refine (read_writes_whole_last _ _ zeros2 _ _ _).trans ?_
  sl_unfold_run_names
  have hx0 : View.readAt (Elt F) arg2.view (Rect.unit ![0, 0] ![1024, 256] inb_S1024x256_S1024x256_0_0).toLoadRect (harg2.unread x0) = x0 := readAt_whole_unread harg2 zeros2 _ x0
  simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
  rfl

end Cert.Kernel.Hand

end
-- ==== Proof.Kernel.R1RunB.lean ====
/-
  The attention kernel's body at a key tile that is neither the first nor the last of its row block: it updates
  the three carried buffers by one step from the blocks it is handed; it stores nothing into the output block.
-/
import proofs.«151817_j31731218382937_2_alg».proof.Proof.Kernel.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- At a point where the key-tile coordinate is neither zero nor seven: on whole memrefs — the four inputs at their
    blocks, the output's staging buffer at contents `xi4` handed back untouched, the carried buffers at what the point
    before left (`s`: running maximum, running sum, running weighted sum) — the body runs to the
    continuation holding the inputs as they were and the carried buffers at one update step from those contents. -/
theorem kernelRun1_B (c : Dev nD) (i : grid1.Coords) (arg2 : Memref sig .tc .vmem S1024x256 .bf16) (harg2 : arg2.IsWhole) (arg3 : Memref sig .tc .vmem S1024x1024 .i32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x1024 .i32) (x2 : Vec F S1024x1 .f32) (x3 : Vec F S1x1024 .f32) (s : St1 F) (xi4 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
        ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare (step1 x0 x1 x2 x3 s).1 ∗ owns (c : Thread nD τ) arg8 fullShare (step1 x0 x1 x2 x3 s).2.1 ∗ owns (c : Thread nD τ) arg9 fullShare (step1 x0 x1 x2 x3 s).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hfs0; obtain rfl := harg8.eq_unread hfs1; obtain rfl := harg9.eq_unread hfs2
  sl_exec (disch := first | exact hc0 | exact hc1)
  sl_step
  iapply Hk

  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    refine (read_writes_whole_last _ _ zeros2 _ _ _).trans ?_
    sl_unfold_run_names
    have hx0 : View.readAt (Elt F) arg2.view (Rect.unit ![0, 0] ![1024, 256] inb_S1024x256_S1024x256_0_0).toLoadRect (harg2.unread x0) = x0 := readAt_whole_unread harg2 zeros2 _ x0
    simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
    rfl
  isplitl [HS1]
  · iexists _; isplitr; swap; · iexact HS1
    ipureintro
    refine (read_writes_whole_last _ _ zeros2 _ _ _).trans ?_
    sl_unfold_run_names
    have hx0 : View.readAt (Elt F) arg2.view (Rect.unit ![0, 0] ![1024, 256] inb_S1024x256_S1024x256_0_0).toLoadRect (harg2.unread x0) = x0 := readAt_whole_unread harg2 zeros2 _ x0
    simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
    rfl
  iexists _; isplitr; swap; · iexact HS2
  ipureintro
  refine (read_writes_whole_last _ _ zeros2 _ _ _).trans ?_
  sl_unfold_run_names
  have hx0 : View.readAt (Elt F) arg2.view (Rect.unit ![0, 0] ![1024, 256] inb_S1024x256_S1024x256_0_0).toLoadRect (harg2.unread x0) = x0 := readAt_whole_unread harg2 zeros2 _ x0
  simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
  rfl

end Cert.Kernel.Hand

end
-- ==== Proof.Kernel.R1RunC.lean ====
/-
  The attention kernel's body at the last key tile of a row block: it updates the three carried buffers by one
  step from the blocks it is handed, then stores the output block: the running weighted sum divided by the running
  sum of exponentials, passed through the exponential linear unit.
-/
import proofs.«151817_j31731218382937_2_alg».proof.Proof.Kernel.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- At a point where the key-tile coordinate is seven: on whole memrefs — the four inputs at their blocks, the
    output's staging buffer at anything, the carried buffers at what the point before left (`s`) — the body runs to the
    continuation holding the inputs as they were, the carried buffers at one update step from those contents, and
    the output's staging buffer at the output block computed from the updated buffers. -/
theorem kernelRun1_C (c : Dev nD) (i : grid1.Coords) (arg2 : Memref sig .tc .vmem S1024x256 .bf16) (harg2 : arg2.IsWhole) (arg3 : Memref sig .tc .vmem S1024x1024 .i32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x1024 .i32) (x2 : Vec F S1024x1 .f32) (x3 : Vec F S1x1024 .f32) (s : St1 F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1 (step1 x0 x1 x2 x3 s))
            ∗ owns (c : Thread nD τ) arg7 fullShare (step1 x0 x1 x2 x3 s).1 ∗ owns (c : Thread nD τ) arg8 fullShare (step1 x0 x1 x2 x3 s).2.1 ∗ owns (c : Thread nD τ) arg9 fullShare (step1 x0 x1 x2 x3 s).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1; obtain rfl := harg9.eq_unread hfs2
  sl_exec (disch := first | exact hc0 | exact hc1)
  sl_step
  iapply Hk

  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (read_writes_whole_last _ _ zeros2 _ _ _).trans ?_
    sl_unfold_run_names
    have hx0 : View.readAt (Elt F) arg2.view (Rect.unit ![0, 0] ![1024, 256] inb_S1024x256_S1024x256_0_0).toLoadRect (harg2.unread x0) = x0 := readAt_whole_unread harg2 zeros2 _ x0
    simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
    rfl
  isplitl [HS0]
  · iexists _; isplitr; swap; · iexact HS0
    ipureintro
    refine (read_writes_whole_last _ _ zeros2 _ _ _).trans ?_
    sl_unfold_run_names
    have hx0 : View.readAt (Elt F) arg2.view (Rect.unit ![0, 0] ![1024, 256] inb_S1024x256_S1024x256_0_0).toLoadRect (harg2.unread x0) = x0 := readAt_whole_unread harg2 zeros2 _ x0
    simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
    rfl
  isplitl [HS1]
  · iexists _; isplitr; swap; · iexact HS1
    ipureintro
    refine (read_writes_whole_last _ _ zeros2 _ _ _).trans ?_
    sl_unfold_run_names
    have hx0 : View.readAt (Elt F) arg2.view (Rect.unit ![0, 0] ![1024, 256] inb_S1024x256_S1024x256_0_0).toLoadRect (harg2.unread x0) = x0 := readAt_whole_unread harg2 zeros2 _ x0
    simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
    rfl
  iexists _; isplitr; swap; · iexact HS2
  ipureintro
  refine (read_writes_whole_last _ _ zeros2 _ _ _).trans ?_
  sl_unfold_run_names
  have hx0 : View.readAt (Elt F) arg2.view (Rect.unit ![0, 0] ![1024, 256] inb_S1024x256_S1024x256_0_0).toLoadRect (harg2.unread x0) = x0 := readAt_whole_unread harg2 zeros2 _ x0
  simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
  rfl

end Cert.Kernel.Hand

end
-- ==== Proof.Kernel.R1Body.lean ====
/-
  The attention region's proof data and its body obligation: at every grid point the body, handed the four input
  blocks in their staging buffers and the three carried buffers at what the point before left, leaves the carried
  buffers at one more update step and, at the last key tile of a row block, the output block in its staging buffer.
-/
import proofs.«151817_j31731218382937_2_alg».proof.Proof.Kernel.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The region's invariant point by point -/

/-- The region's invariant before position `n`: before the first point what the launch hands the region (every
    scoped buffer at anything); afterwards the three carried buffers at what the point before left in them — the
    running maximum, the running sum of exponentials and the running weighted sum after that point's update —,
    the other scoped buffers at anything, and the generator register at some state. -/
def PhiS1 (c : Dev nD) : (n : ℕ) → n ≤ cfg1.N → sProp 𝕄
  | 0, _ => Pipeline.ΦA spec1 c
  | n + 1, hn => iprop(other1 c iprop(owns (c : Thread nD τ) scM1_0 fullShare (stateAt1 V c n hn).1 ∗ owns (c : Thread nD τ) scM1_1 fullShare (stateAt1 V c n hn).2.1 ∗ owns (c : Thread nD τ) scM1_2 fullShare (stateAt1 V c n hn).2.2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried buffers at that point's contents. -/
theorem PhiS1_succ (c : Dev nD) (n : ℕ) (hn : n < cfg1.N) :
    PhiS1 V c (n + 1) hn = iprop(other1 c iprop(owns (c : Thread nD τ) scM1_0 fullShare (stateAt1 V c n hn).1 ∗ owns (c : Thread nD τ) scM1_1 fullShare (stateAt1 V c n hn).2.1 ∗ owns (c : Thread nD τ) scM1_2 fullShare (stateAt1 V c n hn).2.2) ∗ (∃ r, prngReg c r)) := rfl

/-- Before a point that is not the first: the carried buffers at what the point before left. -/
theorem PhiS1_pos (c : Dev nD) (n : ℕ) (h : n ≤ cfg1.N) (hz : n ≠ 0) :
    PhiS1 V c n h = iprop(other1 c iprop(owns (c : Thread nD τ) scM1_0 fullShare (stateAt1 V c (n - 1) (by omega)).1 ∗ owns (c : Thread nD τ) scM1_1 fullShare (stateAt1 V c (n - 1) (by omega)).2.1 ∗ owns (c : Thread nD τ) scM1_2 fullShare (stateAt1 V c (n - 1) (by omega)).2.2) ∗ (∃ r, prngReg c r)) := by
  cases n with
  | zero => exact absurd rfl hz
  | succ n => rfl

/-! ## The pipeline's proof data -/

/-- The proof data of the region on core `c`: the arrays as the region finds them; after the body at point `t`
    each input's buffer at its block and the output's at the block computed from the carried buffers after that
    point; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (stateAt1 V c t.val t.isLt)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 (stateAt1 V c t.val t.isLt) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' staging buffers hold their blocks; the point's position in its row block
    says which case it is in; the invariant hands the body the carried buffers at what the point before left (at
    anything at the first point, where the body resets them anyway) and takes them back at one more update step;
    off the last key tile the output's buffer is handed back untouched, at the last key tile it holds the output
    block computed from the updated buffers; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · -- the first key tile of a row block
    have hc0 : cond1_0 (grid1.coords t) := (hcond1_0 t).mpr h0
    have hc1 : ¬cond1_1 (grid1.coords t) := fun h => by have := (hcond1_1 t).mp h; omega
    rw [Dat.leavesExact_idle (dat1 V c) 4 t (idleAt1_4 t hc1) (noFlush1_4 t hc1)]
    rw [stateAt1_first V c t h0]
    by_cases hz : t.val = 0
    · rw [PhiS1_castSucc V c t, PhiS1_zero V c _ _ hz, PhiA1_eq]
      unfold other1
      iintro ⟨⟨⟨O0, O1, O2, O3, O4, O5, O6, O7, O8, O9, O10, HS0, HS1, HS2⟩, Hg⟩, Ho, ⟨%d0, H0⟩, ⟨%d1, H1⟩, ⟨%d2, H2⟩, ⟨%d3, H3⟩, ⟨%d4, H4⟩⟩
      iapply (kernelRun1_A c (grid1.coords t) _ _ _ _ _ _ _ _ _ _ _ _ _ _ _ _ hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [O0 O1 O2 O3 O4 O5 O6 O7 O8 O9 O10 HS0 HS1 HS2 Hg]
      · isplitl [O0 O1 O2 O3 O4 O5 O6 O7 O8 O9 O10 HS0 HS1 HS2]
        · isplitl [O0]; · iexact O0
          isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      unfold other1
      iintro ⟨⟨⟨O0, O1, O2, O3, O4, O5, O6, O7, O8, O9, O10, HS0, HS1, HS2⟩, Hg⟩, Ho, ⟨%d0, H0⟩, ⟨%d1, H1⟩, ⟨%d2, H2⟩, ⟨%d3, H3⟩, ⟨%d4, H4⟩⟩
      iapply (kernelRun1_A c (grid1.coords t) _ _ _ _ _ _ _ _ _ _ _ _ _ _ _ _ hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [O0 O1 O2 O3 O4 O5 O6 O7 O8 O9 O10 HS0 HS1 HS2 Hg]
      · isplitl [O0 O1 O2 O3 O4 O5 O6 O7 O8 O9 O10 HS0 HS1 HS2]
        · isplitl [O0]; · iexact O0
          isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond1_0 (grid1.coords t) := fun h => h0 ((hcond1_0 t).mp h)
    rw [stateAt1_later V c t h0]
    rw [PhiS1_castSucc V c t, PhiS1_pos V c _ _ hz]
    unfold other1
    by_cases h1 : t.val % 8 = 7
    · -- the last key tile of a row block
      have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [stateAt1_later V c t h0]
      iintro ⟨⟨⟨O0, O1, O2, O3, O4, O5, O6, O7, O8, O9, O10, HS0, HS1, HS2⟩, Hg⟩, Ho, ⟨%d0, H0⟩, ⟨%d1, H1⟩, ⟨%d2, H2⟩, ⟨%d3, H3⟩, ⟨%d4, H4⟩⟩
      iapply (kernelRun1_C c (grid1.coords t) _ _ _ _ _ _ _ _ _ _ _ _ _ _ _ _ hc0 hc1 (iblk1 V c 0 t) (iblk1 V c 1 t) (iblk1 V c 2 t) (iblk1 V c 3 t) (stateAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [O0 O1 O2 O3 O4 O5 O6 O7 O8 O9 O10 HS0 HS1 HS2 Hg]
      · isplitl [O0 O1 O2 O3 O4 O5 O6 O7 O8 O9 O10 HS0 HS1 HS2]
        · isplitl [O0]; · iexact O0
          isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexact H4
    · -- a key tile in between
      have hc1 : ¬cond1_1 (grid1.coords t) := fun h => h1 ((hcond1_1 t).mp h)
      rw [Dat.leavesExact_idle (dat1 V c) 4 t (idleAt1_4 t hc1) (noFlush1_4 t hc1)]
      iintro ⟨⟨⟨O0, O1, O2, O3, O4, O5, O6, O7, O8, O9, O10, HS0, HS1, HS2⟩, Hg⟩, Ho, ⟨%d0, H0⟩, ⟨%d1, H1⟩, ⟨%d2, H2⟩, ⟨%d3, H3⟩, ⟨%d4, H4⟩⟩
      iapply (kernelRun1_B c (grid1.coords t) _ _ _ _ _ _ _ _ _ _ _ _ _ _ _ _ hc0 hc1 (iblk1 V c 0 t) (iblk1 V c 1 t) (iblk1 V c 2 t) (iblk1 V c 3 t) (stateAt1 V c (t.val - 1) (Nat.lt_of_le_of_lt (Nat.sub_le _ _) t.isLt)) _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [O0 O1 O2 O3 O4 O5 O6 O7 O8 O9 O10 HS0 HS1 HS2 Hg]
      · isplitl [O0 O1 O2 O3 O4 O5 O6 O7 O8 O9 O10 HS0 HS1 HS2]
        · isplitl [O0]; · iexact O0
          isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed the region: the carried buffers'
    named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold other1
  iintro ⟨⟨O0, O1, O2, O3, O4, O5, O6, O7, O8, O9, O10, HS0, HS1, HS2⟩, Hg⟩
  isplitl [O0 O1 O2 O3 O4 O5 O6 O7 O8 O9 O10 HS0 HS1 HS2]
  · isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.Kernel.MainRun.lean ====
/-
  The run of the whole program, from the launch to the return.

  The program is three stretches: four host operations (the attention vector cut into its two halves, each laid out
  as a row), the projection kernel, the attention kernel.  The contents of every buffer of a core at each of the four
  boundaries are written as a fold from the launch memory: a host stretch applies its operations; a kernel leaves in
  each of its windows' arrays what its write-backs fold to, and every other buffer as it found it.  Each argument is
  read back through the fold to its launch contents; the arrays the attention kernel is entered with are read back to
  what the projection kernel left; the two rows the projection kernel is entered with to the host operations' values.
  Then the two kernels as segments over the thread state "every unscoped buffer at the boundary's contents, the
  generator register at some state, nothing owed", and the launch over the three segments.
-/
import proofs.«151817_j31731218382937_2_alg».proof.Proof.Gen.Kernel.Launch
import proofs.«151817_j31731218382937_2_alg».proof.Proof.Gen.Kernel.Skeleton
import proofs.«151817_j31731218382937_2_alg».proof.Proof.Gen.Kernel.Points
import proofs.«151817_j31731218382937_2_alg».proof.Proof.Kernel.R0Body
import proofs.«151817_j31731218382937_2_alg».proof.Proof.Kernel.R1Body
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary: a fold through the program -/

/-- Core `c`'s buffers at launch. -/
abbrev W0 (ρ : Dev nD → PrngReg) : Dev nD → Valuation τ sig (Elt F) := fun c b => m ((c : Dev nD), b)

variable (ρ : Dev nD → PrngReg)

/-- After the host operations (the projection kernel's entry). -/
abbrev W1 : Dev nD → Valuation τ sig (Elt F) := fun c => StableHlo.after hostOps0 (W0 m ρ c)
/-- The same read at the core's references (what the projection kernel's proof data take). -/
abbrev V1 : (c : Dev nD) → (b : Ref sig .tc) → Buf (Elt F) ((c : Thread nD τ).loc b) := fun c b => W1 m ρ c b
/-- At the projection kernel's exit: its arrays at what the pipeline leaves (the inputs as entered, each output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (the attention kernel's entry contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention kernel's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references (the contents at the return). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What the host operations write -/

/-- No host operation allocates a buffer. -/
theorem hostOps0_fresh : (hostOps0 : List (HloOp τ sig (Elt F))).Forall fun op => op.fresh = ∅ := by
  simp only [List.Forall]; repeat' constructor
/-- The references the host operations write: the two halves of the attention vector and their two rows. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference no host operation writes holds after them what it held at launch. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-! ## The arguments end as launched -/

/-- The features: read by the projection kernel through an input window, bypassed by the attention kernel. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
/-- The adjacency matrix: bypassed by the projection kernel, read by the attention kernel through an input window. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
/-- The weights: read by the projection kernel through an input window, bypassed by the attention kernel. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of m ρ c main_arg2 (by decide)
    _ = m ((c : Thread nD τ).loc main_arg2) := rfl
/-- The attention vector: read by the host operations only, bypassed by both kernels. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-! ## The result, and what each kernel is entered with -/

/-- The result array at the return is what the attention kernel's write-backs fold to. -/
theorem W3_out (c : Dev nD) : W3 m ρ c (Proc.devRef .tc main_v5) = (dat1 (V2 m ρ) c).arrAt 4 cfg1.N :=
  W3_arr m ρ c 4

/-- The attention kernel is entered with the projected features, the query logits and the key logits as the
    projection kernel left them, and with the adjacency matrix as launched. -/
theorem V2_wh (c : Dev nD) : V2 m ρ c main_v4_0 = (dat0 (V1 m ρ) c).arrAt 4 cfg0.N := W2_arr m ρ c 4
theorem V2_f1 (c : Dev nD) : V2 m ρ c main_v4_1 = (dat0 (V1 m ρ) c).arrAt 5 cfg0.N := W2_arr m ρ c 5
theorem V2_f2 (c : Dev nD) : V2 m ρ c main_v4_2 = (dat0 (V1 m ρ) c).arrAt 6 cfg0.N := W2_arr m ρ c 6
theorem V2_adj (c : Dev nD) : V2 m ρ c main_arg1 = m ((c : Thread nD τ).loc main_arg1) :=
  (W2_of_ne m ρ c main_arg1 (by decide)).trans ((W1_of m ρ c main_arg1 (by decide)).trans rfl)

/-- The projection kernel is entered with the features and the weights as launched, -/
theorem V1_arg0 (c : Dev nD) : V1 m ρ c main_arg0 = m ((c : Thread nD τ).loc main_arg0) :=
  (W1_of m ρ c main_arg0 (by decide)).trans rfl
theorem V1_arg2 (c : Dev nD) : V1 m ρ c main_arg2 = m ((c : Thread nD τ).loc main_arg2) :=
  (W1_of m ρ c main_arg2 (by decide)).trans rfl
/-- and with the two halves of the attention vector, each laid out as a row. -/
theorem V1_a1 (c : Dev nD) : V1 m ρ c main_v1
    = transpose S1x256 [1, 0] (extractStridedSlice S256x1 ![0, 0] (m ((c : Thread nD τ).loc main_arg3)) slices_S512x1_S256x1_0_0) transposes_S256x1_S1x256_1_0 := by
  show StableHlo.after hostOps0 _ (Proc.devRef .tc main_v1) = _
  after_results
theorem V1_a2 (c : Dev nD) : V1 m ρ c main_v3
    = transpose S1x256 [1, 0] (extractStridedSlice S256x1 ![256, 0] (m ((c : Thread nD τ).loc main_arg3)) slices_S512x1_S256x1_256_0) transposes_S256x1_S1x256_1_0 := by
  show StableHlo.after hostOps0 _ (Proc.devRef .tc main_v3) = _
  after_results

/-! ## The proof data family and the thread state -/

/-- The prefetched tables' admissible contents: neither kernel has a table. -/
abbrev adm : (p : Fin 2) → (pcfgs (F := F) p).Adm := fun p => (cfgs p).toPCfg_adm
/-- Both pipelines' proof data, each at its kernel's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The kernels as segments -/

set_option backward.isDefEq.respectTransparency.types false in
/-- The projection kernel over the thread state: entered from every unscoped buffer at `W1`, left at `W2`.  Its arrays
    are split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered from every unscoped buffer at `W2`, left at `W3` (what the
    launch reads at the end).  Its invariant is not constant — the three carried buffers are owned at named contents
    from the first point on — so it is entered from and left to the plain invariant by the body's two lemmas. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the host operations from the launch contents, then the two kernels. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of the segments. -/
theorem main_run (c : Dev nD) : main (F := F) c = Pipeline.Seg.run (segs m ρ) := (main_chain c).trans (by chain_rfl)

set_option backward.isDefEq.respectTransparency.types false in
/-- From any memory with zero counters, every weakly fair execution of the program on the cores terminates, nothing
    faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every execution terminates and every final state has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c =>
    ⟨(hr c _ (mem_uc main_arg0 (by decide))).trans (W3_main_arg0 m ρ c),
     (hr c _ (mem_uc main_arg1 (by decide))).trans (W3_main_arg1 m ρ c),
     (hr c _ (mem_uc main_arg2 (by decide))).trans (W3_main_arg2 m ρ c),
     (hr c _ (mem_uc main_arg3 (by decide))).trans (W3_main_arg3 m ρ c)⟩) (run_all m ρ)

/-- The run with the result named: in every final state the result array holds what the attention kernel's
    write-backs fold to, and the four argument arrays are as launched. -/
theorem run_value : θ_run defs (onTc (τ := τ) (main (F := F))) ⟨m, fun _ => 0, ρ⟩ (fun r => ∀ c : Dev nD,
      r.2.mem ((c.tc : Thread nD τ).loc main_v5) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c =>
    ⟨(hr c _ (mem_uc main_v5 (by decide))).trans (W3_out m ρ c),
     (hr c _ (mem_uc main_arg0 (by decide))).trans (W3_main_arg0 m ρ c),
     (hr c _ (mem_uc main_arg1 (by decide))).trans (W3_main_arg1 m ρ c),
     (hr c _ (mem_uc main_arg2 (by decide))).trans (W3_main_arg2 m ρ c),
     (hr c _ (mem_uc main_arg3 (by decide))).trans (W3_main_arg3 m ρ c)⟩) (run_all m ρ)

end Cert.Kernel.Hand

end
-- ==== Proof.KernelIdeal.R0Body.lean ====
/-
  The projection kernel's half of the frame: at each of its 8 grid points the body reads a block of 1024 rows of the
  features, the whole weight matrix and the two halves of the attention vector, and writes the block's projected
  features (rounded to bfloat16), the block's query logits (a column) and its key logits (a row).  Nothing is carried
  from point to point: what the body leaves in each output buffer is a closed function of the input blocks.
-/
import proofs.«151817_j31731218382937_2_alg».proof.Proof.Gen.KernelIdeal.Launch
import proofs.«151817_j31731218382937_2_alg».proof.Proof.Gen.KernelIdeal.Skeleton
import proofs.«151817_j31731218382937_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every one is the whole buffer -/

/-- The offsets of every access, however spelt, are zero. -/
theorem hz0 : (![0, 0] : Fin 2 → Nat) = fun _ => 0 := by
  funext a; fin_cases a <;> rfl

abbrev r0_in0 : Rect S1024x512 := Rect.unit (s := S1024x512) ![0, 0] S1024x512.size inb_S1024x512_S1024x512_0_0
abbrev r0_in1 : Rect S512x256 := Rect.unit (s := S512x256) ![0, 0] S512x256.size inb_S512x256_S512x256_0_0
abbrev r0_in2 : Rect S1x256 := Rect.unit (s := S1x256) ![0, 0] S1x256.size inb_S1x256_S1x256_0_0
abbrev r0_out4 : Rect S1024x256 := Rect.unit (s := S1024x256) ![0, 0] S1024x256.size inb_S1024x256_S1024x256_0_0
abbrev r0_out5 : Rect S1024x1 := Rect.unit (s := S1024x1) ![0, 0] S1024x1.size inb_S1024x1_S1024x1_0_0
abbrev r0_out6 : Rect S1x1024 := Rect.unit (s := S1x1024) ![0, 0] S1x1024.size inb_S1x1024_S1x1024_0_0

/-! ## What the body leaves in each output window's buffer -/

/-- The projected features' buffer after the body, from the feature block and the weights. -/
def out0_4 (x0 : Vec F S1024x512 .f32) (x1 : Vec F S512x256 .f32) : Vec F S1024x256 .bf16 :=
  View.canon [⟨r0_out4, k0_pay2 (View.ld x0 r0_in0) (View.ld x1 r0_in1)⟩]

/-- The query logits' buffer after the body, from the feature block, the weights and the first half of the attention vector. -/
def out0_5 (x0 : Vec F S1024x512 .f32) (x1 : Vec F S512x256 .f32) (x2 : Vec F S1x256 .f32) : Vec F S1024x1 .f32 :=
  View.canon [⟨r0_out5, k0_pay3 (View.ld x0 r0_in0) (View.ld x1 r0_in1) (View.ld x2 r0_in2)⟩]

/-- The key logits' buffer after the body, from the feature block, the weights and the second half of the attention vector. -/
def out0_6 (x0 : Vec F S1024x512 .f32) (x1 : Vec F S512x256 .f32) (x3 : Vec F S1x256 .f32) : Vec F S1x1024 .f32 :=
  View.canon [⟨r0_out6, k0_pay4 (View.ld x0 r0_in0) (View.ld x1 r0_in1) (View.ld x3 r0_in2)⟩]

/-- One whole-buffer store of a payload over whole-buffer loads leaves the payload of the buffers' contents. -/
theorem out0_4_eq (x0 : Vec F S1024x512 .f32) (x1 : Vec F S512x256 .f32) : out0_4 x0 x1 = k0_pay2 x0 x1 := by
  unfold out0_4
  rw [View.canon_unit_zero hz0, View.ld_unit_zero hz0, View.ld_unit_zero hz0]

theorem out0_5_eq (x0 : Vec F S1024x512 .f32) (x1 : Vec F S512x256 .f32) (x2 : Vec F S1x256 .f32) :
    out0_5 x0 x1 x2 = k0_pay3 x0 x1 x2 := by
  unfold out0_5
  rw [View.canon_unit_zero hz0, View.ld_unit_zero hz0, View.ld_unit_zero hz0, View.ld_unit_zero hz0]

theorem out0_6_eq (x0 : Vec F S1024x512 .f32) (x1 : Vec F S512x256 .f32) (x3 : Vec F S1x256 .f32) :
    out0_6 x0 x1 x3 = k0_pay4 x0 x1 x3 := by
  unfold out0_6
  rw [View.canon_unit_zero hz0, View.ld_unit_zero hz0, View.ld_unit_zero hz0, View.ld_unit_zero hz0]

/-! ## What the body finds in each input window's buffer

An input window's current staging buffer holds its block at every point, fetched there or not, for any proof data
whose array is `V`'s and whose body leaves the block in place: unfetched, the block index has not moved. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## Each output's one store covers its buffer -/

theorem cover0_4 (p0 : Vec F S1024x256 .bf16) (y : S1024x256.Idx) :
    ∃ pc ∈ ([⟨r0_out4, p0⟩] : List (View.Piece (Elt F) S1024x256 .bf16)), y ∈ pc.1.set :=
  ⟨_, List.mem_singleton_self _, View.mem_set_unit_zero hz0 inb_S1024x256_S1024x256_0_0 y⟩

theorem cover0_5 (p0 : Vec F S1024x1 .f32) (y : S1024x1.Idx) :
    ∃ pc ∈ ([⟨r0_out5, p0⟩] : List (View.Piece (Elt F) S1024x1 .f32)), y ∈ pc.1.set :=
  ⟨_, List.mem_singleton_self _, View.mem_set_unit_zero hz0 inb_S1024x1_S1024x1_0_0 y⟩

theorem cover0_6 (p0 : Vec F S1x1024 .f32) (y : S1x1024.Idx) :
    ∃ pc ∈ ([⟨r0_out6, p0⟩] : List (View.Piece (Elt F) S1x1024 .f32)), y ∈ pc.1.set :=
  ⟨_, List.mem_singleton_self _, View.mem_set_unit_zero hz0 inb_S1x1024_S1x1024_0_0 y⟩

/-! ## The body's triple -/

set_option maxHeartbeats 4000000 in
/-- The kernel body on whole staging memrefs, the inputs' at read contents `xW` and the outputs' at anything, runs to
    the continuation holding the inputs' as they were and each output's at `out0_W` of the inputs'.  The body reads
    each output buffer before it overwrites it; what it reads there is never used. -/
theorem sound_kernel0 (c : Dev nD) (E : Set ℕ) (i : grid0.Coords)
    (arg1 : Memref sig .tc .vmem S1024x512 .f32) (harg1 : arg1.IsWhole)
    (arg2 : Memref sig .tc .vmem S512x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1024x256 .bf16) (harg5 : arg5.IsWhole)
    (arg6 : Memref sig .tc .vmem S1024x1 .f32) (harg6 : arg6.IsWhole)
    (arg7 : Memref sig .tc .vmem S1x1024 .f32) (harg7 : arg7.IsWhole)
    (x0 : Vec F S1024x512 .f32) (x1 : Vec F S512x256 .f32) (x2 : Vec F S1x256 .f32) (x3 : Vec F S1x256 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1)
            ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E
          (cc0__wh_kernel i arg1 harg1 arg2 harg2 arg3 harg3 arg4 harg4 arg5 harg5 arg6 harg6 arg7 harg7) K := by
  simp only [cc0__wh_kernel_eq_skeleton]; unfold cc0__wh_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the projection pipeline on core `c`: the arrays as the region finds them (`V`); after the body at
    point `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KernelIdeal.R1State.lean ====
/-
  What the attention kernel's three carried buffers hold after each grid point, as pure functions of the
  blocks the point is handed.

  The grid is 8 row blocks by 8 key tiles, walked row block by row block.  At a point the body is handed a
  block of keys' projected features (1024 x 256), a block of the adjacency matrix (1024 x 1024), the row block's
  query logits (1024 x 1) and the tile's key logits (1 x 1024).  It keeps, per row of the block, a running maximum,
  a running sum of exponentials and a running weighted sum of features (1024 x 256).  At the first tile of a row
  block the three are reset (to minus infinity, zero, zero) before use; at every tile they are updated by one
  step; at the last tile the weighted sum divided by the sum of exponentials, passed through the exponential
  linear unit, is the output block.
-/
import proofs.«151817_j31731218382937_2_alg».proof.Proof.Gen.KernelIdeal.Skeleton
import proofs.«151817_j31731218382937_2_alg».proof.Proof.Gen.KernelIdeal.Points
import proofs.«151817_j31731218382937_2_alg».proof.Proof.Gen.KernelIdeal.Launch
import Idealize.ShloMosaic.Lib.Pipeline.FrameBody

noncomputable section

namespace Cert.KernelIdeal.Hand

open Idealize.ShloMosaic Idealize.ShloMosaic.TcCoe
open Idealize.SL Idealize.SL.Sem
open Cert.KernelIdeal.Gen

variable {F : FTy → Type} [FloatOps F]

/-- The three carried buffers: running maximum, running sum, running weighted sum. -/
abbrev St1 (F : FTy → Type) [FloatOps F] : Type :=
  Vec F S1024x1 .f32 × Vec F S1024x1 .f32 × Vec F S1024x256 .f32

/-- What the reset at the first tile of a row block stores: minus infinity, zero, zero. -/
def init1 : St1 F := (k1_pay5 (F := F), k1_pay6 (F := F), k1_pay7 (F := F))

/-- One tile's update of the three carried buffers, from the blocks the point is handed (keys' features `x0`,
    adjacency `x1`, query logits `x2`, key logits `x3`) and what the buffers held (`s`). -/
def step1 (x0 : Vec F S1024x256 .bf16) (x1 : Vec F S1024x1024 .i32) (x2 : Vec F S1024x1 .f32) (x3 : Vec F S1x1024 .f32)
    (s : St1 F) : St1 F :=
  (k1_pay3 (k1_pay9 x2 x3 x1 s.1),
   k1_pay1 (k1_pay12 x2 x3 x1 s.1 s.1 s.2.1),
   k1_pay2 (k1_pay10 x2 x3 x1 s.1 s.1) (k1_pay11 x2 x3 x1 s.1) s.2.2 x0)

/-- The output block the last tile of a row block stores, from the carried buffers after that tile's update. -/
def out1 (s : St1 F) : Vec F S1024x256 .f32 := k1_pay4 s.2.2 s.2.1

section AtEntry

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried buffers after the body at position `n`: at the first tile of a row block (`n` a multiple of 8)
    one step from the reset values, otherwise one step from what the point before left. -/
def stateAt1 (c : Dev nD) : (n : ℕ) → n < cfg1.N → St1 F
  | 0, hn => step1 (iblk1 V c 0 ⟨0, hn⟩) (iblk1 V c 1 ⟨0, hn⟩) (iblk1 V c 2 ⟨0, hn⟩) (iblk1 V c 3 ⟨0, hn⟩) init1
  | n + 1, hn =>
    if (n + 1) % 8 = 0 then
      step1 (iblk1 V c 0 ⟨n + 1, hn⟩) (iblk1 V c 1 ⟨n + 1, hn⟩) (iblk1 V c 2 ⟨n + 1, hn⟩) (iblk1 V c 3 ⟨n + 1, hn⟩) init1
    else
      step1 (iblk1 V c 0 ⟨n + 1, hn⟩) (iblk1 V c 1 ⟨n + 1, hn⟩) (iblk1 V c 2 ⟨n + 1, hn⟩) (iblk1 V c 3 ⟨n + 1, hn⟩)
        (stateAt1 c n (Nat.lt_of_succ_lt hn))

/-- At the first tile of a row block: one step from the reset values. -/
theorem stateAt1_first (c : Dev nD) (t : Fin cfg1.N) (h : t.val % 8 = 0) :
    stateAt1 V c t.val t.isLt = step1 (iblk1 V c 0 t) (iblk1 V c 1 t) (iblk1 V c 2 t) (iblk1 V c 3 t) init1 := by
  obtain ⟨n, hn⟩ := t
  cases n with
  | zero => rfl
  | succ n => exact if_pos h

/-- At a later tile: one step from what the point before left. -/
theorem stateAt1_later (c : Dev nD) (t : Fin cfg1.N) (h : ¬ t.val % 8 = 0) :
    stateAt1 V c t.val t.isLt = step1 (iblk1 V c 0 t) (iblk1 V c 1 t) (iblk1 V c 2 t) (iblk1 V c 3 t)
      (stateAt1 V c (t.val - 1) (Nat.lt_of_le_of_lt (Nat.sub_le _ _) t.isLt)) := by
  obtain ⟨n, hn⟩ := t
  cases n with
  | zero => exact absurd (Nat.zero_mod _) h
  | succ n => exact if_neg h

end AtEntry

end Cert.KernelIdeal.Hand

end
-- ==== Proof.KernelIdeal.R1Runs.lean ====
/-
  What the three case-by-case runs of the attention kernel's body share: the two branch conditions of the body
  decided over the grid (first key tile of a row block; last key tile of a row block), where the output window is
  idle, the staging and carried buffers as memrefs, the region's invariant spelt buffer by buffer, the fact that
  an input window's staging buffer holds its block whether or not it was fetched at the point, and what a
  whole-buffer store leaves and a whole-buffer load reads.
-/
import proofs.«151817_j31731218382937_2_alg».proof.Proof.KernelIdeal.R1State
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks in their staging buffers -/

/-- Input window 0 (a block of keys' features): its current staging buffer holds its block at every point, for any
    proof data whose array is the region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (a block of the adjacency matrix), likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the row block's query logits; fetched at the first key tile of a row block only: at the
    other tiles its block index has not moved), likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the key tile's key logits), likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The body's first condition: the key-tile coordinate is zero (the first key tile of a row block). -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The body's second condition: the key-tile coordinate is seven (the last key tile of a row block). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last key tile the output window is idle: nothing is stored into it, -/
theorem idleAt1_4 : ∀ t : Fin cfg1.N, ¬cond1_1 (grid1.coords t) → cfg1.idle 4 (grid1.coords t) = true := by decide +kernel
/-- and its block is not written back. -/
theorem noFlush1_4 : ∀ t : Fin cfg1.N, ¬cond1_1 (grid1.coords t) → (cfg1.win 4).flush t = false := by decide +kernel
/-- At the last key tile it is live. -/
theorem liveAt1_4 : ∀ t : Fin cfg1.N, cond1_1 (grid1.coords t) → cfg1.idle 4 (grid1.coords t) = false := by decide +kernel

/-! ## The memrefs the body is handed -/

/-- Each window's current staging memref at point `t`, and its wholeness. -/
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The three carried buffers: running maximum, running sum of exponentials, running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2

/-! ## The region's invariant, buffer by buffer -/

/-- The core's scoped buffers that are neither this region's staging buffers nor its carried buffers (the other
    region's staging buffers), each at some contents, beside `P`. -/
def other1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P)

/-- The invariant the launch hands the region: the other scoped buffers and the three carried buffers at some
    contents, and the generator register at some state. -/
theorem PhiA1_eq (c : Dev nD) :
    (Pipeline.ΦA spec1 c : sProp 𝕄)
      = iprop(other1 c iprop((∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [other1, scM1_0, scM1_1, scM1_2, owns_whole]; try rfl

/-! ## Whole-buffer stores and loads -/

section Whole
variable {Val : EltTy → Type} [∀ e, Nonempty (Val e)] {S : Shape} {e : EltTy}

/-- What a view reads after a store through the whole-shape rectangle made last: the store's payload, whatever the
    earlier stores and the prior contents. -/
theorem read_writes_whole_last {sig' : RefSig} {κ : Kind} {sp : Space} (v : View sig' κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-- A load through the whole-shape rectangle after such a store reads the payload. -/
theorem readCov_whole_last {sig' : RefSig} {κ : Kind} {sp : Space} (v : View sig' κ sp S e)
    {off : Fin S.rank → Nat} (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb w L, View.ld_unit_zero h inb]

end Whole

/-- The zero offsets of a two-axis buffer, as the body's loads and stores spell them. -/
theorem zeros2 : (![0, 0] : Fin 2 → Nat) = fun _ => 0 := by funext a; fin_cases a <;> rfl

end Cert.KernelIdeal.Hand

end
-- ==== Proof.KernelIdeal.R1RunA.lean ====
/-
  The attention kernel's body at the first key tile of a row block: it resets the three carried buffers (running
  maximum to minus infinity, running sum and running weighted sum to zero), then updates them by one step from the
  blocks it is handed; it stores nothing into the output block.
-/
import proofs.«151817_j31731218382937_2_alg».proof.Proof.KernelIdeal.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Whole
variable {Val : EltTy → Type} {κ : Kind} {sp : Space} {S : Shape} {e : EltTy} {m : Memref sig κ sp S e}

/-- A load through the whole-shape rectangle of a whole buffer whose contents read `X` reads `X`. -/
theorem readAt_whole_unread (h : m.IsWhole) {off : Fin S.rank → Nat} (hz : off = fun _ => 0)
    (inb : ∀ a, off a + S.size a ≤ S.size a) (X : S.Idx → Val e) :
    View.readAt Val m.view (Rect.unit off S.size inb).toLoadRect (h.unread X) = X := by
  rw [View.readAt_eq_ld, h.read_unread, View.ld_unit_zero hz]

end Whole

set_option maxHeartbeats 4000000 in
/-- At a point where the key-tile coordinate is zero: on whole memrefs — the four inputs at their blocks, the
    output's staging buffer at contents `xi4` handed back untouched, the carried buffers at anything — the body runs
    to the continuation holding the inputs as they were and the carried buffers at one update step from the reset
    values. -/
theorem kernelRun1_A (c : Dev nD) (i : grid1.Coords) (arg2 : Memref sig .tc .vmem S1024x256 .bf16) (harg2 : arg2.IsWhole) (arg3 : Memref sig .tc .vmem S1024x1024 .i32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x1024 .i32) (x2 : Vec F S1024x1 .f32) (x3 : Vec F S1x1024 .f32) (xi4 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare (step1 x0 x1 x2 x3 init1).1 ∗ owns (c : Thread nD τ) arg8 fullShare (step1 x0 x1 x2 x3 init1).2.1 ∗ owns (c : Thread nD τ) arg9 fullShare (step1 x0 x1 x2 x3 init1).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  iapply Hk

  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    refine (read_writes_whole_last _ _ zeros2 _ _ _).trans ?_
    sl_unfold_run_names
    have hx0 : View.readAt (Elt F) arg2.view (Rect.unit ![0, 0] ![1024, 256] inb_S1024x256_S1024x256_0_0).toLoadRect (harg2.unread x0) = x0 := readAt_whole_unread harg2 zeros2 _ x0
    simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
    rfl
  isplitl [HS1]
  · iexists _; isplitr; swap; · iexact HS1
    ipureintro
    refine (read_writes_whole_last _ _ zeros2 _ _ _).trans ?_
    sl_unfold_run_names
    have hx0 : View.readAt (Elt F) arg2.view (Rect.unit ![0, 0] ![1024, 256] inb_S1024x256_S1024x256_0_0).toLoadRect (harg2.unread x0) = x0 := readAt_whole_unread harg2 zeros2 _ x0
    simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
    rfl
  iexists _; isplitr; swap; · iexact HS2
  ipureintro
  refine (read_writes_whole_last _ _ zeros2 _ _ _).trans ?_
  sl_unfold_run_names
  have hx0 : View.readAt (Elt F) arg2.view (Rect.unit ![0, 0] ![1024, 256] inb_S1024x256_S1024x256_0_0).toLoadRect (harg2.unread x0) = x0 := readAt_whole_unread harg2 zeros2 _ x0
  simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
  rfl

end Cert.KernelIdeal.Hand

end
-- ==== Proof.KernelIdeal.R1RunB.lean ====
/-
  The attention kernel's body at a key tile that is neither the first nor the last of its row block: it updates
  the three carried buffers by one step from the blocks it is handed; it stores nothing into the output block.
-/
import proofs.«151817_j31731218382937_2_alg».proof.Proof.KernelIdeal.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- At a point where the key-tile coordinate is neither zero nor seven: on whole memrefs — the four inputs at their
    blocks, the output's staging buffer at contents `xi4` handed back untouched, the carried buffers at what the point
    before left (`s`: running maximum, running sum, running weighted sum) — the body runs to the
    continuation holding the inputs as they were and the carried buffers at one update step from those contents. -/
theorem kernelRun1_B (c : Dev nD) (i : grid1.Coords) (arg2 : Memref sig .tc .vmem S1024x256 .bf16) (harg2 : arg2.IsWhole) (arg3 : Memref sig .tc .vmem S1024x1024 .i32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x1024 .i32) (x2 : Vec F S1024x1 .f32) (x3 : Vec F S1x1024 .f32) (s : St1 F) (xi4 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
        ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare (step1 x0 x1 x2 x3 s).1 ∗ owns (c : Thread nD τ) arg8 fullShare (step1 x0 x1 x2 x3 s).2.1 ∗ owns (c : Thread nD τ) arg9 fullShare (step1 x0 x1 x2 x3 s).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hfs0; obtain rfl := harg8.eq_unread hfs1; obtain rfl := harg9.eq_unread hfs2
  sl_exec (disch := first | exact hc0 | exact hc1)
  sl_step
  iapply Hk

  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    refine (read_writes_whole_last _ _ zeros2 _ _ _).trans ?_
    sl_unfold_run_names
    have hx0 : View.readAt (Elt F) arg2.view (Rect.unit ![0, 0] ![1024, 256] inb_S1024x256_S1024x256_0_0).toLoadRect (harg2.unread x0) = x0 := readAt_whole_unread harg2 zeros2 _ x0
    simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
    rfl
  isplitl [HS1]
  · iexists _; isplitr; swap; · iexact HS1
    ipureintro
    refine (read_writes_whole_last _ _ zeros2 _ _ _).trans ?_
    sl_unfold_run_names
    have hx0 : View.readAt (Elt F) arg2.view (Rect.unit ![0, 0] ![1024, 256] inb_S1024x256_S1024x256_0_0).toLoadRect (harg2.unread x0) = x0 := readAt_whole_unread harg2 zeros2 _ x0
    simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
    rfl
  iexists _; isplitr; swap; · iexact HS2
  ipureintro
  refine (read_writes_whole_last _ _ zeros2 _ _ _).trans ?_
  sl_unfold_run_names
  have hx0 : View.readAt (Elt F) arg2.view (Rect.unit ![0, 0] ![1024, 256] inb_S1024x256_S1024x256_0_0).toLoadRect (harg2.unread x0) = x0 := readAt_whole_unread harg2 zeros2 _ x0
  simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
  rfl

end Cert.KernelIdeal.Hand

end
-- ==== Proof.KernelIdeal.R1RunC.lean ====
/-
  The attention kernel's body at the last key tile of a row block: it updates the three carried buffers by one
  step from the blocks it is handed, then stores the output block: the running weighted sum divided by the running
  sum of exponentials, passed through the exponential linear unit.
-/
import proofs.«151817_j31731218382937_2_alg».proof.Proof.KernelIdeal.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- At a point where the key-tile coordinate is seven: on whole memrefs — the four inputs at their blocks, the
    output's staging buffer at anything, the carried buffers at what the point before left (`s`) — the body runs to the
    continuation holding the inputs as they were, the carried buffers at one update step from those contents, and
    the output's staging buffer at the output block computed from the updated buffers. -/
theorem kernelRun1_C (c : Dev nD) (i : grid1.Coords) (arg2 : Memref sig .tc .vmem S1024x256 .bf16) (harg2 : arg2.IsWhole) (arg3 : Memref sig .tc .vmem S1024x1024 .i32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x1024 .i32) (x2 : Vec F S1024x1 .f32) (x3 : Vec F S1x1024 .f32) (s : St1 F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1 (step1 x0 x1 x2 x3 s))
            ∗ owns (c : Thread nD τ) arg7 fullShare (step1 x0 x1 x2 x3 s).1 ∗ owns (c : Thread nD τ) arg8 fullShare (step1 x0 x1 x2 x3 s).2.1 ∗ owns (c : Thread nD τ) arg9 fullShare (step1 x0 x1 x2 x3 s).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1; obtain rfl := harg9.eq_unread hfs2
  sl_exec (disch := first | exact hc0 | exact hc1)
  sl_step
  iapply Hk

  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (read_writes_whole_last _ _ zeros2 _ _ _).trans ?_
    sl_unfold_run_names
    have hx0 : View.readAt (Elt F) arg2.view (Rect.unit ![0, 0] ![1024, 256] inb_S1024x256_S1024x256_0_0).toLoadRect (harg2.unread x0) = x0 := readAt_whole_unread harg2 zeros2 _ x0
    simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
    rfl
  isplitl [HS0]
  · iexists _; isplitr; swap; · iexact HS0
    ipureintro
    refine (read_writes_whole_last _ _ zeros2 _ _ _).trans ?_
    sl_unfold_run_names
    have hx0 : View.readAt (Elt F) arg2.view (Rect.unit ![0, 0] ![1024, 256] inb_S1024x256_S1024x256_0_0).toLoadRect (harg2.unread x0) = x0 := readAt_whole_unread harg2 zeros2 _ x0
    simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
    rfl
  isplitl [HS1]
  · iexists _; isplitr; swap; · iexact HS1
    ipureintro
    refine (read_writes_whole_last _ _ zeros2 _ _ _).trans ?_
    sl_unfold_run_names
    have hx0 : View.readAt (Elt F) arg2.view (Rect.unit ![0, 0] ![1024, 256] inb_S1024x256_S1024x256_0_0).toLoadRect (harg2.unread x0) = x0 := readAt_whole_unread harg2 zeros2 _ x0
    simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
    rfl
  iexists _; isplitr; swap; · iexact HS2
  ipureintro
  refine (read_writes_whole_last _ _ zeros2 _ _ _).trans ?_
  sl_unfold_run_names
  have hx0 : View.readAt (Elt F) arg2.view (Rect.unit ![0, 0] ![1024, 256] inb_S1024x256_S1024x256_0_0).toLoadRect (harg2.unread x0) = x0 := readAt_whole_unread harg2 zeros2 _ x0
  simp only [hx0, readAt_whole_unread (S := S1024x1) _ zeros2, readAt_whole_unread (S := S1x1024) _ zeros2, readAt_whole_unread (S := S1024x1024) _ zeros2, readAt_whole_unread (S := S1024x256) _ zeros2, readCov_whole_last (S := S1024x1) _ zeros2, readCov_whole_last (S := S1024x256) _ zeros2]
  rfl

end Cert.KernelIdeal.Hand

end
-- ==== Proof.KernelIdeal.R1Body.lean ====
/-
  The attention region's proof data and its body obligation: at every grid point the body, handed the four input
  blocks in their staging buffers and the three carried buffers at what the point before left, leaves the carried
  buffers at one more update step and, at the last key tile of a row block, the output block in its staging buffer.
-/
import proofs.«151817_j31731218382937_2_alg».proof.Proof.KernelIdeal.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The region's invariant point by point -/

/-- The region's invariant before position `n`: before the first point what the launch hands the region (every
    scoped buffer at anything); afterwards the three carried buffers at what the point before left in them — the
    running maximum, the running sum of exponentials and the running weighted sum after that point's update —,
    the other scoped buffers at anything, and the generator register at some state. -/
def PhiS1 (c : Dev nD) : (n : ℕ) → n ≤ cfg1.N → sProp 𝕄
  | 0, _ => Pipeline.ΦA spec1 c
  | n + 1, hn => iprop(other1 c iprop(owns (c : Thread nD τ) scM1_0 fullShare (stateAt1 V c n hn).1 ∗ owns (c : Thread nD τ) scM1_1 fullShare (stateAt1 V c n hn).2.1 ∗ owns (c : Thread nD τ) scM1_2 fullShare (stateAt1 V c n hn).2.2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried buffers at that point's contents. -/
theorem PhiS1_succ (c : Dev nD) (n : ℕ) (hn : n < cfg1.N) :
    PhiS1 V c (n + 1) hn = iprop(other1 c iprop(owns (c : Thread nD τ) scM1_0 fullShare (stateAt1 V c n hn).1 ∗ owns (c : Thread nD τ) scM1_1 fullShare (stateAt1 V c n hn).2.1 ∗ owns (c : Thread nD τ) scM1_2 fullShare (stateAt1 V c n hn).2.2) ∗ (∃ r, prngReg c r)) := rfl

/-- Before a point that is not the first: the carried buffers at what the point before left. -/
theorem PhiS1_pos (c : Dev nD) (n : ℕ) (h : n ≤ cfg1.N) (hz : n ≠ 0) :
    PhiS1 V c n h = iprop(other1 c iprop(owns (c : Thread nD τ) scM1_0 fullShare (stateAt1 V c (n - 1) (by omega)).1 ∗ owns (c : Thread nD τ) scM1_1 fullShare (stateAt1 V c (n - 1) (by omega)).2.1 ∗ owns (c : Thread nD τ) scM1_2 fullShare (stateAt1 V c (n - 1) (by omega)).2.2) ∗ (∃ r, prngReg c r)) := by
  cases n with
  | zero => exact absurd rfl hz
  | succ n => rfl

/-! ## The pipeline's proof data -/

/-- The proof data of the region on core `c`: the arrays as the region finds them; after the body at point `t`
    each input's buffer at its block and the output's at the block computed from the carried buffers after that
    point; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (stateAt1 V c t.val t.isLt)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 (stateAt1 V c t.val t.isLt) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' staging buffers hold their blocks; the point's position in its row block
    says which case it is in; the invariant hands the body the carried buffers at what the point before left (at
    anything at the first point, where the body resets them anyway) and takes them back at one more update step;
    off the last key tile the output's buffer is handed back untouched, at the last key tile it holds the output
    block computed from the updated buffers; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · -- the first key tile of a row block
    have hc0 : cond1_0 (grid1.coords t) := (hcond1_0 t).mpr h0
    have hc1 : ¬cond1_1 (grid1.coords t) := fun h => by have := (hcond1_1 t).mp h; omega
    rw [Dat.leavesExact_idle (dat1 V c) 4 t (idleAt1_4 t hc1) (noFlush1_4 t hc1)]
    rw [stateAt1_first V c t h0]
    by_cases hz : t.val = 0
    · rw [PhiS1_castSucc V c t, PhiS1_zero V c _ _ hz, PhiA1_eq]
      unfold other1
      iintro ⟨⟨⟨O0, O1, O2, O3, O4, O5, O6, O7, O8, O9, O10, HS0, HS1, HS2⟩, Hg⟩, Ho, ⟨%d0, H0⟩, ⟨%d1, H1⟩, ⟨%d2, H2⟩, ⟨%d3, H3⟩, ⟨%d4, H4⟩⟩
      iapply (kernelRun1_A c (grid1.coords t) _ _ _ _ _ _ _ _ _ _ _ _ _ _ _ _ hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [O0 O1 O2 O3 O4 O5 O6 O7 O8 O9 O10 HS0 HS1 HS2 Hg]
      · isplitl [O0 O1 O2 O3 O4 O5 O6 O7 O8 O9 O10 HS0 HS1 HS2]
        · isplitl [O0]; · iexact O0
          isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      unfold other1
      iintro ⟨⟨⟨O0, O1, O2, O3, O4, O5, O6, O7, O8, O9, O10, HS0, HS1, HS2⟩, Hg⟩, Ho, ⟨%d0, H0⟩, ⟨%d1, H1⟩, ⟨%d2, H2⟩, ⟨%d3, H3⟩, ⟨%d4, H4⟩⟩
      iapply (kernelRun1_A c (grid1.coords t) _ _ _ _ _ _ _ _ _ _ _ _ _ _ _ _ hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [O0 O1 O2 O3 O4 O5 O6 O7 O8 O9 O10 HS0 HS1 HS2 Hg]
      · isplitl [O0 O1 O2 O3 O4 O5 O6 O7 O8 O9 O10 HS0 HS1 HS2]
        · isplitl [O0]; · iexact O0
          isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond1_0 (grid1.coords t) := fun h => h0 ((hcond1_0 t).mp h)
    rw [stateAt1_later V c t h0]
    rw [PhiS1_castSucc V c t, PhiS1_pos V c _ _ hz]
    unfold other1
    by_cases h1 : t.val % 8 = 7
    · -- the last key tile of a row block
      have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [stateAt1_later V c t h0]
      iintro ⟨⟨⟨O0, O1, O2, O3, O4, O5, O6, O7, O8, O9, O10, HS0, HS1, HS2⟩, Hg⟩, Ho, ⟨%d0, H0⟩, ⟨%d1, H1⟩, ⟨%d2, H2⟩, ⟨%d3, H3⟩, ⟨%d4, H4⟩⟩
      iapply (kernelRun1_C c (grid1.coords t) _ _ _ _ _ _ _ _ _ _ _ _ _ _ _ _ hc0 hc1 (iblk1 V c 0 t) (iblk1 V c 1 t) (iblk1 V c 2 t) (iblk1 V c 3 t) (stateAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [O0 O1 O2 O3 O4 O5 O6 O7 O8 O9 O10 HS0 HS1 HS2 Hg]
      · isplitl [O0 O1 O2 O3 O4 O5 O6 O7 O8 O9 O10 HS0 HS1 HS2]
        · isplitl [O0]; · iexact O0
          isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexact H4
    · -- a key tile in between
      have hc1 : ¬cond1_1 (grid1.coords t) := fun h => h1 ((hcond1_1 t).mp h)
      rw [Dat.leavesExact_idle (dat1 V c) 4 t (idleAt1_4 t hc1) (noFlush1_4 t hc1)]
      iintro ⟨⟨⟨O0, O1, O2, O3, O4, O5, O6, O7, O8, O9, O10, HS0, HS1, HS2⟩, Hg⟩, Ho, ⟨%d0, H0⟩, ⟨%d1, H1⟩, ⟨%d2, H2⟩, ⟨%d3, H3⟩, ⟨%d4, H4⟩⟩
      iapply (kernelRun1_B c (grid1.coords t) _ _ _ _ _ _ _ _ _ _ _ _ _ _ _ _ hc0 hc1 (iblk1 V c 0 t) (iblk1 V c 1 t) (iblk1 V c 2 t) (iblk1 V c 3 t) (stateAt1 V c (t.val - 1) (Nat.lt_of_le_of_lt (Nat.sub_le _ _) t.isLt)) _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [O0 O1 O2 O3 O4 O5 O6 O7 O8 O9 O10 HS0 HS1 HS2 Hg]
      · isplitl [O0 O1 O2 O3 O4 O5 O6 O7 O8 O9 O10 HS0 HS1 HS2]
        · isplitl [O0]; · iexact O0
          isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed the region: the carried buffers'
    named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold other1
  iintro ⟨⟨O0, O1, O2, O3, O4, O5, O6, O7, O8, O9, O10, HS0, HS1, HS2⟩, Hg⟩
  isplitl [O0 O1 O2 O3 O4 O5 O6 O7 O8 O9 O10 HS0 HS1 HS2]
  · isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KernelIdeal.MainRun.lean ====
/-
  The run of the whole program, from the launch to the return.

  The program is three stretches: four host operations (the attention vector cut into its two halves, each laid out
  as a row), the projection kernel, the attention kernel.  The contents of every buffer of a core at each of the four
  boundaries are written as a fold from the launch memory: a host stretch applies its operations; a kernel leaves in
  each of its windows' arrays what its write-backs fold to, and every other buffer as it found it.  Each argument is
  read back through the fold to its launch contents; the arrays the attention kernel is entered with are read back to
  what the projection kernel left; the two rows the projection kernel is entered with to the host operations' values.
  Then the two kernels as segments over the thread state "every unscoped buffer at the boundary's contents, the
  generator register at some state, nothing owed", and the launch over the three segments.
-/
import proofs.«151817_j31731218382937_2_alg».proof.Proof.Gen.KernelIdeal.Launch
import proofs.«151817_j31731218382937_2_alg».proof.Proof.Gen.KernelIdeal.Skeleton
import proofs.«151817_j31731218382937_2_alg».proof.Proof.Gen.KernelIdeal.Points
import proofs.«151817_j31731218382937_2_alg».proof.Proof.KernelIdeal.R0Body
import proofs.«151817_j31731218382937_2_alg».proof.Proof.KernelIdeal.R1Body
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary: a fold through the program -/

/-- Core `c`'s buffers at launch. -/
abbrev W0 (ρ : Dev nD → PrngReg) : Dev nD → Valuation τ sig (Elt F) := fun c b => m ((c : Dev nD), b)

variable (ρ : Dev nD → PrngReg)

/-- After the host operations (the projection kernel's entry). -/
abbrev W1 : Dev nD → Valuation τ sig (Elt F) := fun c => StableHlo.after hostOps0 (W0 m ρ c)
/-- The same read at the core's references (what the projection kernel's proof data take). -/
abbrev V1 : (c : Dev nD) → (b : Ref sig .tc) → Buf (Elt F) ((c : Thread nD τ).loc b) := fun c b => W1 m ρ c b
/-- At the projection kernel's exit: its arrays at what the pipeline leaves (the inputs as entered, each output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (the attention kernel's entry contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention kernel's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references (the contents at the return). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What the host operations write -/

/-- No host operation allocates a buffer. -/
theorem hostOps0_fresh : (hostOps0 : List (HloOp τ sig (Elt F))).Forall fun op => op.fresh = ∅ := by
  simp only [List.Forall]; repeat' constructor
/-- The references the host operations write: the two halves of the attention vector and their two rows. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference no host operation writes holds after them what it held at launch. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-! ## The arguments end as launched -/

/-- The features: read by the projection kernel through an input window, bypassed by the attention kernel. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
/-- The adjacency matrix: bypassed by the projection kernel, read by the attention kernel through an input window. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
/-- The weights: read by the projection kernel through an input window, bypassed by the attention kernel. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of m ρ c main_arg2 (by decide)
    _ = m ((c : Thread nD τ).loc main_arg2) := rfl
/-- The attention vector: read by the host operations only, bypassed by both kernels. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-! ## The result, and what each kernel is entered with -/

/-- The result array at the return is what the attention kernel's write-backs fold to. -/
theorem W3_out (c : Dev nD) : W3 m ρ c (Proc.devRef .tc main_v5) = (dat1 (V2 m ρ) c).arrAt 4 cfg1.N :=
  W3_arr m ρ c 4

/-- The attention kernel is entered with the projected features, the query logits and the key logits as the
    projection kernel left them, and with the adjacency matrix as launched. -/
theorem V2_wh (c : Dev nD) : V2 m ρ c main_v4_0 = (dat0 (V1 m ρ) c).arrAt 4 cfg0.N := W2_arr m ρ c 4
theorem V2_f1 (c : Dev nD) : V2 m ρ c main_v4_1 = (dat0 (V1 m ρ) c).arrAt 5 cfg0.N := W2_arr m ρ c 5
theorem V2_f2 (c : Dev nD) : V2 m ρ c main_v4_2 = (dat0 (V1 m ρ) c).arrAt 6 cfg0.N := W2_arr m ρ c 6
theorem V2_adj (c : Dev nD) : V2 m ρ c main_arg1 = m ((c : Thread nD τ).loc main_arg1) :=
  (W2_of_ne m ρ c main_arg1 (by decide)).trans ((W1_of m ρ c main_arg1 (by decide)).trans rfl)

/-- The projection kernel is entered with the features and the weights as launched, -/
theorem V1_arg0 (c : Dev nD) : V1 m ρ c main_arg0 = m ((c : Thread nD τ).loc main_arg0) :=
  (W1_of m ρ c main_arg0 (by decide)).trans rfl
theorem V1_arg2 (c : Dev nD) : V1 m ρ c main_arg2 = m ((c : Thread nD τ).loc main_arg2) :=
  (W1_of m ρ c main_arg2 (by decide)).trans rfl
/-- and with the two halves of the attention vector, each laid out as a row. -/
theorem V1_a1 (c : Dev nD) : V1 m ρ c main_v1
    = transpose S1x256 [1, 0] (extractStridedSlice S256x1 ![0, 0] (m ((c : Thread nD τ).loc main_arg3)) slices_S512x1_S256x1_0_0) transposes_S256x1_S1x256_1_0 := by
  show StableHlo.after hostOps0 _ (Proc.devRef .tc main_v1) = _
  after_results
theorem V1_a2 (c : Dev nD) : V1 m ρ c main_v3
    = transpose S1x256 [1, 0] (extractStridedSlice S256x1 ![256, 0] (m ((c : Thread nD τ).loc main_arg3)) slices_S512x1_S256x1_256_0) transposes_S256x1_S1x256_1_0 := by
  show StableHlo.after hostOps0 _ (Proc.devRef .tc main_v3) = _
  after_results

/-! ## The proof data family and the thread state -/

/-- The prefetched tables' admissible contents: neither kernel has a table. -/
abbrev adm : (p : Fin 2) → (pcfgs (F := F) p).Adm := fun p => (cfgs p).toPCfg_adm
/-- Both pipelines' proof data, each at its kernel's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The kernels as segments -/

set_option backward.isDefEq.respectTransparency.types false in
/-- The projection kernel over the thread state: entered from every unscoped buffer at `W1`, left at `W2`.  Its arrays
    are split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered from every unscoped buffer at `W2`, left at `W3` (what the
    launch reads at the end).  Its invariant is not constant — the three carried buffers are owned at named contents
    from the first point on — so it is entered from and left to the plain invariant by the body's two lemmas. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the host operations from the launch contents, then the two kernels. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of the segments. -/
theorem main_run (c : Dev nD) : main (F := F) c = Pipeline.Seg.run (segs m ρ) := (main_chain c).trans (by chain_rfl)

set_option backward.isDefEq.respectTransparency.types false in
/-- From any memory with zero counters, every weakly fair execution of the program on the cores terminates, nothing
    faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every execution terminates and every final state has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c =>
    ⟨(hr c _ (mem_uc main_arg0 (by decide))).trans (W3_main_arg0 m ρ c),
     (hr c _ (mem_uc main_arg1 (by decide))).trans (W3_main_arg1 m ρ c),
     (hr c _ (mem_uc main_arg2 (by decide))).trans (W3_main_arg2 m ρ c),
     (hr c _ (mem_uc main_arg3 (by decide))).trans (W3_main_arg3 m ρ c)⟩) (run_all m ρ)

/-- The run with the result named: in every final state the result array holds what the attention kernel's
    write-backs fold to, and the four argument arrays are as launched. -/
theorem run_value : θ_run defs (onTc (τ := τ) (main (F := F))) ⟨m, fun _ => 0, ρ⟩ (fun r => ∀ c : Dev nD,
      r.2.mem ((c.tc : Thread nD τ).loc main_v5) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c =>
    ⟨(hr c _ (mem_uc main_v5 (by decide))).trans (W3_out m ρ c),
     (hr c _ (mem_uc main_arg0 (by decide))).trans (W3_main_arg0 m ρ c),
     (hr c _ (mem_uc main_arg1 (by decide))).trans (W3_main_arg1 m ρ c),
     (hr c _ (mem_uc main_arg2 (by decide))).trans (W3_main_arg2 m ρ c),
     (hr c _ (mem_uc main_arg3 (by decide))).trans (W3_main_arg3 m ρ c)⟩) (run_all m ρ)

end Cert.KernelIdeal.Hand

end
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.LibFold.lean ====
/-
  A line of host operations run in two stretches.

  `StableHlo.after ops V` is the valuation after the operations `ops`, applied in order to the valuation `V`.  Running
  a concatenation is running the first stretch and then the second from what the first leaves.  With it a long
  prefix of host operations can be read stage by stage: a later stretch's result as a function of what the earlier
  stretches left at its operands, each operand then read in its own smaller stretch — instead of one composed term in
  which a value used several times is written out once per use.
-/
import Idealize.ShloMosaic.Lib.StableHlo.Run

namespace Idealize.ShloMosaic.StableHlo

variable {τ : Topo} {sig : RefSig} {Val : EltTy → Type}

/-- The valuation after two stretches run one after the other. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.Ref.Run.lean ====
/-
  The reference's run.

  The reference program calls three outlined functions (the leaky rectifier, which calls a select; a select against a
  broadcast scalar; the exponential linear unit, which calls two selects).  Unfolding the calls at their sites, the
  program is one straight line of fifty-three host operations, `ops`.  `refTerm` is the composed pure term those
  operations compute from the four arguments, built from one named definition per stage of the layer: projected
  features, the two logits, their outer sum, the leaky rectifier, the adjacency mask, the row maximum, the shifted
  exponentials, the row sum, the normalised attention, the attention-weighted features, the exponential linear unit.
  `run`: every weakly fair execution of the program terminates with the result buffer at `refTerm` of the arguments'
  launch contents and the arguments unchanged.
-/
import proofs.«151817_j31731218382937_2_alg».proof.Proof.Gen.ReferenceIdeal
import proofs.«151817_j31731218382937_2_alg».proof.Proof.LibTypedRef
import proofs.«151817_j31731218382937_2_alg».proof.Proof.LibFold
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The composed term, stage by stage -/

/-- Projected features: the node features times the weights. -/
def whTerm (h : FVec F S8192x512 .f32) (W : FVec F S512x256 .f32) : FVec F S8192x256 .f32 :=
  Host.dotGeneral dot_S8192x512_S512x256_S8192x256_1_0_0_1_n_n none h W

/-- The first half of the attention vector. -/
def a1Term (a : FVec F S512x1 .f32) : FVec F S256x1 .f32 :=
  extractStridedSlice S256x1 ![0, 0] a slices_S512x1_S256x1_0_0

/-- The second half of the attention vector. -/
def a2Term (a : FVec F S512x1 .f32) : FVec F S256x1 .f32 :=
  extractStridedSlice S256x1 ![256, 0] a slices_S512x1_S256x1_256_0

/-- The query logits, a column. -/
def f1Term (wh : FVec F S8192x256 .f32) (a : FVec F S512x1 .f32) : FVec F S8192x1 .f32 :=
  Host.dotGeneral dot_S8192x256_S256x1_S8192x1_1_0_0_1_n_n none wh (a1Term a)

/-- The key logits, a column. -/
def f2Term (wh : FVec F S8192x256 .f32) (a : FVec F S512x1 .f32) : FVec F S8192x1 .f32 :=
  Host.dotGeneral dot_S8192x256_S256x1_S8192x1_1_0_0_1_n_n none wh (a2Term a)

/-- The outer sum of the query column and the transposed key column. -/
def logitTerm (f1 f2 : FVec F S8192x1 .f32) : FVec F S8192x8192 .f32 :=
  addf (broadcastInDim S8192x8192 ![0, 1] bcast_S8192x1_S8192x8192_0_1 f1)
    (broadcastInDim S8192x8192 ![0, 1] bcast_S1x8192_S8192x8192_0_1
      (transpose S1x8192 [1, 0] f2 transposes_S8192x1_S1x8192_1_0))

/-- The leaky rectifier, elementwise. -/
def leakyTerm (e : FVec F S8192x8192 .f32) : FVec F S8192x8192 .f32 :=
  select (cmpf .oge e (broadcastInDim S8192x8192 ![] bcast_S_S8192x8192 (constant (F := F) S_ .f32 0x00000000#32)))
    e
    (mulf (broadcastInDim S8192x8192 ![] bcast_S_S8192x8192 (constant (F := F) S_ .f32 0x3E4CCCCD#32)) e)

/-- The masked scores: the rectified logit where the adjacency entry is positive, the large negative constant elsewhere. -/
def scoreTerm (adj : IVec S8192x8192 32) (e : FVec F S8192x8192 .f32) : FVec F S8192x8192 .f32 :=
  select (cmpi .sgt adj (broadcastInDim S8192x8192 ![] bcast_S_S8192x8192 (constantI S_ 32 0#32)))
    (leakyTerm e)
    (broadcastInDim S8192x8192 ![] bcast_S_S8192x8192 (constant (F := F) S_ .f32 0xD9FFCB9E#32))

/-- The row maxima (folded from minus infinity, then once more against minus infinity). -/
def maxTerm (s : FVec F S8192x8192 .f32) : FVec F S8192 .f32 :=
  maximumf (broadcastInDim S8192 ![] bcast_S_S8192 (constant (F := F) S_ .f32 0xFF800000#32))
    (Host.reduce FloatOps.maximumf s (constant (F := F) S_ .f32 0xFF800000#32) reducesTo_S8192x8192_S8192_d1 h_S_)

/-- The exponentials of the scores shifted by their row's maximum. -/
def expTerm (s : FVec F S8192x8192 .f32) : FVec F S8192x8192 .f32 :=
  Host.exp (subf s (broadcastInDim S8192x8192 ![0, 1] bcast_S8192x1_S8192x8192_0_1
    (broadcastInDim S8192x1 ![0] bcast_S8192_S8192x1_0 (maxTerm s))))

/-- The row sums of the exponentials. -/
def sumTerm (p : FVec F S8192x8192 .f32) : FVec F S8192 .f32 :=
  Host.reduceAdd p (constant (F := F) S_ .f32 0x00000000#32) reducesTo_S8192x8192_S8192_d1 h_S_

/-- The attention weights: each exponential over its row's sum. -/
def attTerm (p : FVec F S8192x8192 .f32) : FVec F S8192x8192 .f32 :=
  Host.divf p (broadcastInDim S8192x8192 ![0, 1] bcast_S8192x1_S8192x8192_0_1
    (broadcastInDim S8192x1 ![0] bcast_S8192_S8192x1_0 (sumTerm p)))

/-- The attention-weighted features. -/
def hpTerm (att : FVec F S8192x8192 .f32) (wh : FVec F S8192x256 .f32) : FVec F S8192x256 .f32 :=
  Host.dotGeneral dot_S8192x8192_S8192x256_S8192x256_1_0_0_1_n_n none att wh

/-- The exponential linear unit, elementwise. -/
def eluTerm (x : FVec F S8192x256 .f32) : FVec F S8192x256 .f32 :=
  select (cmpf .ogt x (broadcastInDim S8192x256 ![] bcast_S_S8192x256 (constant (F := F) S_ .f32 0x00000000#32)))
    x
    (mulf (broadcastInDim S8192x256 ![] bcast_S_S8192x256 (constant (F := F) S_ .f32 0x3F800000#32))
      (Host.expm1
        (select (cmpf .ogt x (broadcastInDim S8192x256 ![] bcast_S_S8192x256 (constant (F := F) S_ .f32 0x00000000#32)))
          (broadcastInDim S8192x256 ![] bcast_S_S8192x256 (constant (F := F) S_ .f32 0x00000000#32))
          x)))

/-- What the reference computes from its four arguments' contents. -/
def refTerm (h : (⟨S8192x512, .f32⟩ : BufTy).Contents (Elt F)) (adj : (⟨S8192x8192, .i32⟩ : BufTy).Contents (Elt F))
    (W : (⟨S512x256, .f32⟩ : BufTy).Contents (Elt F)) (a : (⟨S512x1, .f32⟩ : BufTy).Contents (Elt F)) :
    (⟨S8192x256, .f32⟩ : BufTy).Contents (Elt F) :=
  eluTerm (hpTerm (attTerm (expTerm (scoreTerm adj (logitTerm (f1Term (whTerm h W) a) (f2Term (whTerm h W) a)))))
    (whTerm h W))

/-! ## The program as a straight line -/

/-- The program's fifty-three operations in order, the calls unfolded: the leaky rectifier's seven after the
    slope constant, the masked select's two after the large negative constant, the exponential linear unit's
    fifteen at the end. -/
abbrev ops : List (HloOp τ sig (Elt F)) :=
  [ binary main_arg0 main_arg2 main_v0 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg3 main_v1 ((extractStridedSlice S256x1 ![0, 0] · slices_S512x1_S256x1_0_0) : (⟨S512x1, .f32⟩ : BufTy).Contents (Elt F) → (⟨S256x1, .f32⟩ : BufTy).Contents (Elt F)),
    binary main_v0 main_v1 main_v2 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_arg3 main_v3 ((extractStridedSlice S256x1 ![256, 0] · slices_S512x1_S256x1_256_0) : (⟨S512x1, .f32⟩ : BufTy).Contents (Elt F) → (⟨S256x1, .f32⟩ : BufTy).Contents (Elt F)),
    binary main_v0 main_v3 main_v4 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_v4 main_v5 ((transpose S1x8192 [1, 0] · transposes_S8192x1_S1x8192_1_0) : (⟨S8192x1, .f32⟩ : BufTy).Contents (Elt F) → (⟨S1x8192, .f32⟩ : BufTy).Contents (Elt F)),
    unary main_v2 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v8 : TRef sig ⟨S8192x8192, .f32⟩) main_call0.v0 main_call0.v1 (cmpf .oge),
    TRef.unary (.of main_cst : TRef sig ⟨S_, .f32⟩) main_call0.v2 id,
    TRef.unary main_call0.v2 main_call0.v3 (broadcastInDim S8192x8192 ![] bcast_S_S8192x8192),
    TRef.binary main_call0.v3 (.of main_v8 : TRef sig ⟨S8192x8192, .f32⟩) main_call0.v4 mulf,
    TRef.ternary main_call0.v1 (.of main_v8 : TRef sig ⟨S8192x8192, .f32⟩) main_call0.v4 main_call0.call0.v0 select,
    nullary main_c (constantI S_ 32 0#32),
    unary main_c main_v10 (broadcastInDim S8192x8192 ![] bcast_S_S8192x8192 : (⟨S_, .i32⟩ : BufTy).Contents (Elt F) → (⟨S8192x8192, .i32⟩ : BufTy).Contents (Elt F)),
    binary main_arg1 main_v10 main_v11 (cmpi .sgt : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xD9FFCB9E#32),
    TRef.unary (.of main_cst_0 : TRef sig ⟨S_, .f32⟩) main_call1.v0 (broadcastInDim S8192x8192 ![] bcast_S_S8192x8192),
    TRef.ternary (.of main_v11 : TRef sig ⟨S8192x8192, .i1⟩) (.of main_v9 : TRef sig ⟨S8192x8192, .f32⟩) main_call1.v0 main_call1.v1 select,
    nullary main_cst_1 (constant S_ .f32 0xFF800000#32),
    binary main_v12 main_cst_1 main_v13 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v14 (broadcastInDim S8192 ![] bcast_S_S8192 : (⟨S_, .f32⟩ : BufTy).Contents (Elt F) → (⟨S8192, .f32⟩ : BufTy).Contents (Elt F)),
    binary main_v14 main_v13 main_v15 (maximumf : (⟨S8192, .f32⟩ : BufTy).Contents (Elt F) → (⟨S8192, .f32⟩ : BufTy).Contents (Elt F) → (⟨S8192, .f32⟩ : BufTy).Contents (Elt F)),
    unary main_v15 main_v16 (broadcastInDim S8192x1 ![0] bcast_S8192_S8192x1_0 : (⟨S8192, .f32⟩ : BufTy).Contents (Elt F) → (⟨S8192x1, .f32⟩ : BufTy).Contents (Elt F)),
    unary main_v16 main_v17 (broadcastInDim S8192x8192 ![0, 1] bcast_S8192x1_S8192x8192_0_1 : (⟨S8192x1, .f32⟩ : BufTy).Contents (Elt F) → (⟨S8192x8192, .f32⟩ : BufTy).Contents (Elt F)),
    binary main_v12 main_v17 main_v18 (subf : (⟨S8192x8192, .f32⟩ : BufTy).Contents (Elt F) → (⟨S8192x8192, .f32⟩ : BufTy).Contents (Elt F) → (⟨S8192x8192, .f32⟩ : BufTy).Contents (Elt F)),
    unary main_v18 main_v19 (Host.exp : (⟨S8192x8192, .f32⟩ : BufTy).Contents (Elt F) → (⟨S8192x8192, .f32⟩ : BufTy).Contents (Elt F)),
    nullary main_cst_3 (constant S_ .f32 0x00000000#32),
    binary main_v19 main_cst_3 main_v20 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v20 main_v21 (broadcastInDim S8192x1 ![0] bcast_S8192_S8192x1_0 : (⟨S8192, .f32⟩ : BufTy).Contents (Elt F) → (⟨S8192x1, .f32⟩ : BufTy).Contents (Elt F)),
    unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    binary main_v19 main_v22 main_v23 (Host.divf : (⟨S8192x8192, .f32⟩ : BufTy).Contents (Elt F) → (⟨S8192x8192, .f32⟩ : BufTy).Contents (Elt F) → (⟨S8192x8192, .f32⟩ : BufTy).Contents (Elt F)),
    binary main_v23 main_v0 main_v24 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    TRef.nullary main_call2.cst (constant S_ .f32 0x00000000#32),
    TRef.unary main_call2.cst main_call2.v0 (broadcastInDim S8192x256 ![] bcast_S_S8192x256),
    TRef.binary (.of main_v24 : TRef sig ⟨S8192x256, .f32⟩) main_call2.v0 main_call2.v1 (cmpf .ogt),
    TRef.nullary main_call2.cst_0 (constant S_ .f32 0x00000000#32),
    TRef.unary main_call2.cst_0 main_call2.v2 (broadcastInDim S8192x256 ![] bcast_S_S8192x256),
    TRef.binary (.of main_v24 : TRef sig ⟨S8192x256, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x256 ![] bcast_S_S8192x256),
    TRef.ternary main_call2.v3 main_call2.call0.v1 (.of main_v24 : TRef sig ⟨S8192x256, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S8192x256 ![] bcast_S_S8192x256),
    TRef.binary main_call2.v6 main_call2.v5 main_call2.v7 mulf,
    TRef.ternary main_call2.v1 (.of main_v24 : TRef sig ⟨S8192x256, .f32⟩) main_call2.v7 main_call2.call1.v0 select ]

-- fifty-three binds re-associated
set_option maxRecDepth 2048 in
/-- The program is that straight line: the functions unfolded at their calls, the records at their fields. -/
theorem main_eq (c : Dev nD) : main (F := F) c = seq ops := by
  simp only [main, fn_leaky_relu.body, fn_where.body, fn_where_0.body, fn_elu.body, fn_where_1.body, fn_where_2.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., binary_bufs_sub .., unary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in
set_option maxHeartbeats 1600000 in
/-- The fold at the result buffer is the composed term: each operation's result read at its own buffer is its
    function's value, at any other buffer what was there. -/
theorem out_eq (V : Valuation τ sig (Elt F)) :
    after ops V (main_v25 : DevRef τ sig)
      = refTerm (V (main_arg0 : DevRef τ sig)) (V (main_arg1 : DevRef τ sig)) (V (main_arg2 : DevRef τ sig))
          (V (main_arg3 : DevRef τ sig)) := by
  after_results_simp
  simp only [TRef.ofBuf_toBuf, TRef.toBuf_ofBuf, cast_eq, id_eq]
  rfl

/-! No operation writes an argument's buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- On every device, for any float values, from any memory with zero counters: every weakly fair execution of the
    program terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v25).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.Hand

end
-- ==== Proof.GatSpec.lean ====
/-
  One graph-attention layer, as functions of its four arguments, and the row recurrence by which the kernel
  computes it.

  With node features `h` (8192 x 512), weights `W` (512 x 256), attention vector `a` (512 x 1, its first 256
  entries scoring the query node and its last 256 the key node) and integer adjacency `adj` (8192 x 8192):
    wh i c      = sum_k h i k * W k c                          projected features
    f1 i        = sum_c wh i c * a c,   f2 j = sum_c wh j c * a (256 + c)
    score i j   = leaky (f1 i + f2 j) where adj i j > 0, the fixed large negative number elsewhere
    out i c     = elu (sum_j softmax_j (score i .) j * wh j c)
  where the softmax of a row subtracts the row's maximum, exponentiates, and divides by the row's sum.

  The kernel walks a row's keys in 8 tiles of 1024, keeping a running maximum `m`, a running sum `l` of
  exponentials and a running weighted sum `a` per output column: `Row.step`.  `online` is that recurrence;
  the quotient `a / l` after the last tile is the softmax-weighted sum of the whole row, when every score and
  every weight is a real number (the law that joins the two programs, stated in Math/Online).
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Gat

open Idealize.ShloMosaic Idealize.ShloMosaic.ValueIdx
open scoped BigOperators

/-! ## The literals both programs share, as extended reals -/

/-- The float zero. -/
def zeroE : EReal := Ideal.ofBits .f32 0x00000000#32
/-- The leaky slope, the float nearest 0.2. -/
def slope : EReal := Ideal.ofBits .f32 0x3E4CCCCD#32
/-- The score of a pair of nodes that are not adjacent: the float nearest -9e15. -/
def negBig : EReal := Ideal.ofBits .f32 0xD9FFCB9E#32
/-- The float one. -/
def oneE : EReal := Ideal.ofBits .f32 0x3F800000#32

/-! ## The pointwise pieces -/

/-- Leaky rectifier: `x` where `x >= 0`, `slope * x` elsewhere. -/
def leaky (x : EReal) : EReal :=
  Scalar.select (FloatOps.cmpf (F := Ideal) (φ := .f32) .oge x zeroE) x (slope * x)

/-- The masked score of a pair: the leaky sum of the two logits where the adjacency entry is positive. -/
def score (q k : EReal) (e : BitVec 32) : EReal :=
  Scalar.select (IntOp.cmpi .sgt e 0#32) (leaky (q + k)) negBig

/-- Exponential linear unit: `x` where `x > 0`, `exp x - 1` elsewhere. -/
def elu (x : EReal) : EReal :=
  Scalar.select (FloatOps.cmpf (F := Ideal) (φ := .f32) .ogt x zeroE) x (Ideal.exp x - oneE)

/-! ## The layer -/

abbrev SH : Shape := ⟨2, ![8192, 512]⟩
abbrev SW : Shape := ⟨2, ![512, 256]⟩
abbrev SA : Shape := ⟨2, ![512, 1]⟩
abbrev SADJ : Shape := ⟨2, ![8192, 8192]⟩
abbrev SO : Shape := ⟨2, ![8192, 256]⟩

section Layer

variable (h : SH.Idx → EReal) (W : SW.Idx → EReal) (a : SA.Idx → EReal) (adj : SADJ.Idx → BitVec 32)

/-- Projected features. -/
def wh (i : Fin 8192) (c : Fin 256) : EReal := ∑ k : Fin 512, h (ix2 i k) * W (ix2 k c)

/-- The query logit of node `i`. -/
def f1 (i : Fin 8192) : EReal :=
  ∑ c : Fin 256, wh h W i c * a (ix2 (⟨c.val, by have := c.isLt; omega⟩ : Fin 512) (0 : Fin 1))

/-- The key logit of node `j`. -/
def f2 (j : Fin 8192) : EReal :=
  ∑ c : Fin 256, wh h W j c * a (ix2 (⟨256 + c.val, by have := c.isLt; omega⟩ : Fin 512) (0 : Fin 1))

/-- The masked attention score of the pair `(i, j)`. -/
def sc (i j : Fin 8192) : EReal := score (f1 h W a i) (f2 h W a j) (adj (ix2 i j))

/-- The maximum of a row of scores, folded from minus infinity. -/
def rowMax (i : Fin 8192) : EReal := (Finset.univ : Finset (Fin 8192)).fold max ⊥ (fun j => sc h W a adj i j)

/-- The exponentials of a row, shifted by the row's maximum. -/
def ex (i j : Fin 8192) : EReal := Ideal.exp (sc h W a adj i j - rowMax h W a adj i)

/-- Their sum. -/
def rowSum (i : Fin 8192) : EReal := ∑ j : Fin 8192, ex h W a adj i j

/-- The attention-weighted features. -/
def hprime (i : Fin 8192) (c : Fin 256) : EReal :=
  ∑ j : Fin 8192, Ideal.div (ex h W a adj i j) (rowSum h W a adj i) * wh h W j c

/-- The layer's output. -/
def out (i : Fin 8192) (c : Fin 256) : EReal := elu (hprime h W a adj i c)

/-- The layer's output as an array. -/
def outArr : SO.Idx → EReal := fun y => out h W a adj (y 0) (y 1)

end Layer

/-! ## The row recurrence -/

/-- One row's running maximum, running sum of exponentials, and running weighted sum (for one output column). -/
structure Row where
  m : EReal
  l : EReal
  a : EReal

/-- Before the first tile: minus infinity, zero, zero. -/
def Row.init : Row := ⟨⊥, 0, 0⟩

/-- The maximum of a tile of scores, folded from minus infinity. -/
def tileMax {n : ℕ} (s : Fin n → EReal) : EReal := (Finset.univ : Finset (Fin n)).fold max ⊥ s

/-- One tile: scores `s`, weights `w`. -/
def Row.step {n : ℕ} (s w : Fin n → EReal) (r : Row) : Row :=
  ⟨max r.m (tileMax s),
   Ideal.exp (r.m - max r.m (tileMax s)) * r.l + ∑ k : Fin n, Ideal.exp (s k - max r.m (tileMax s)),
   Ideal.exp (r.m - max r.m (tileMax s)) * r.a + ∑ k : Fin n, Ideal.exp (s k - max r.m (tileMax s)) * w k⟩

/-- The recurrence over the first `j` tiles. -/
def online {T n : ℕ} (s w : Fin T → Fin n → EReal) : (j : ℕ) → j ≤ T → Row
  | 0, _ => Row.init
  | j + 1, hj => Row.step (s ⟨j, hj⟩) (w ⟨j, hj⟩) (online s w j (Nat.le_of_succ_le hj))

end Cert.Gat

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Ref.ValueScore.lean ====
/-
  The reference's scores, read at an entry.

  The projected features are the sum over the contracted axis; the two logits are sums against the two halves of the
  attention vector; their outer sum at `(i, j)` is the query logit of `i` plus the key logit of `j`; the leaky
  rectifier and the adjacency mask act at the entry.  So the masked score of the composed term at `(i, j)` is the
  specification's `sc i j`.
-/
import proofs.«151817_j31731218382937_2_alg».proof.Proof.Ref.Run
import proofs.«151817_j31731218382937_2_alg».proof.Proof.GatSpec
import proofs.«151817_j31731218382937_2_alg».proof.Proof.LibPlainDot
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx
open scoped BigOperators

/-! ## The stages at an entry -/

/-- Projected features at `(i, c)`. -/
theorem whTerm_apply (h : FVec Ideal S8192x512 .f32) (W : FVec Ideal S512x256 .f32) (i : Fin 8192) (c : Fin 256) :
    whTerm h W (ix2 i c) = Cert.Gat.wh h W i c :=
  Cert.PlainDot.dotGeneral_apply (M := 8192) (K := 512) (N := 256) _ rfl none .single h W i c

/-- The first half of the attention vector at row `c`. -/
theorem a1Term_apply (a : FVec Ideal S512x1 .f32) (c : Fin 256) (u : Fin 1) :
    a1Term a (ix2 c u) = a (ix2 (⟨c.val, by have := c.isLt; omega⟩ : Fin 512) (0 : Fin 1)) := by
  unfold a1Term
  refine extractStridedSlice_apply _ a _ (ix2 c u) _ fun ax => ?_
  match ax with
  | ⟨0, _⟩ => exact (Nat.zero_add _).symm
  | ⟨1, _⟩ =>
    show (0 : ℕ) = 0 + u.val
    have := u.isLt
    omega

/-- The second half of the attention vector at row `c`. -/
theorem a2Term_apply (a : FVec Ideal S512x1 .f32) (c : Fin 256) (u : Fin 1) :
    a2Term a (ix2 c u) = a (ix2 (⟨256 + c.val, by have := c.isLt; omega⟩ : Fin 512) (0 : Fin 1)) := by
  unfold a2Term
  refine extractStridedSlice_apply _ a _ (ix2 c u) _ fun ax => ?_
  match ax with
  | ⟨0, _⟩ => rfl
  | ⟨1, _⟩ =>
    show (0 : ℕ) = 0 + u.val
    have := u.isLt
    omega

/-- The query logit of node `i`. -/
theorem f1Term_apply (wh : FVec Ideal S8192x256 .f32) (a : FVec Ideal S512x1 .f32) (i : Fin 8192) :
    f1Term wh a (ix2 i (0 : Fin 1))
      = ∑ c : Fin 256, wh (ix2 i c) * a (ix2 (⟨c.val, by have := c.isLt; omega⟩ : Fin 512) (0 : Fin 1)) := by
  refine (Cert.PlainDot.dotGeneral_apply (M := 8192) (K := 256) (N := 1) _ rfl none .single wh (a1Term a) i (0 : Fin 1)).trans ?_
  exact Finset.sum_congr rfl fun c _ => congrArg (fun t => wh (ix2 i c) * t) (a1Term_apply a c 0)

/-- The key logit of node `j`. -/
theorem f2Term_apply (wh : FVec Ideal S8192x256 .f32) (a : FVec Ideal S512x1 .f32) (j : Fin 8192) :
    f2Term wh a (ix2 j (0 : Fin 1))
      = ∑ c : Fin 256, wh (ix2 j c) * a (ix2 (⟨256 + c.val, by have := c.isLt; omega⟩ : Fin 512) (0 : Fin 1)) := by
  refine (Cert.PlainDot.dotGeneral_apply (M := 8192) (K := 256) (N := 1) _ rfl none .single wh (a2Term a) j (0 : Fin 1)).trans ?_
  exact Finset.sum_congr rfl fun c _ => congrArg (fun t => wh (ix2 j c) * t) (a2Term_apply a c 0)

/-- The outer sum at `(i, j)`: the query column at `i` plus the key column at `j`. -/
theorem logitTerm_apply (f1 f2 : FVec Ideal S8192x1 .f32) (i j : Fin 8192) :
    logitTerm f1 f2 (ix2 i j) = f1 (ix2 i (0 : Fin 1)) + f2 (ix2 j (0 : Fin 1)) := by
  unfold logitTerm
  rw [addf_apply]
  congr 1
  · refine broadcastInDim_apply _ _ f1 (ix2 i j) (ix2 i (0 : Fin 1)) fun ax => ?_
    match ax with
    | ⟨0, _⟩ =>
      show i.val = if (8192 : ℕ) = 1 then 0 else i.val
      rw [if_neg (by decide)]
    | ⟨1, _⟩ =>
      show (0 : ℕ) = if (1 : ℕ) = 1 then 0 else j.val
      rw [if_pos rfl]
  · refine (broadcastInDim_apply _ _ _ (ix2 i j) (ix2 (0 : Fin 1) j) fun ax => ?_).trans ?_
    · match ax with
      | ⟨0, _⟩ =>
        show (0 : ℕ) = if (1 : ℕ) = 1 then 0 else i.val
        rw [if_pos rfl]
      | ⟨1, _⟩ =>
        show j.val = if (8192 : ℕ) = 1 then 0 else j.val
        rw [if_neg (by decide)]
    · refine transpose_apply _ f2 _ (ix2 (0 : Fin 1) j) (ix2 j (0 : Fin 1)) fun b => ?_
      match b with
      | ⟨0, _⟩ => rfl
      | ⟨1, _⟩ => rfl

/-- The leaky rectifier at an entry. -/
theorem leakyTerm_apply (e : FVec Ideal S8192x8192 .f32) (y : S8192x8192.Idx) :
    leakyTerm e y = Cert.Gat.leaky (e y) := rfl

/-- The masked score at an entry. -/
theorem scoreTerm_apply (adj : IVec S8192x8192 32) (e : FVec Ideal S8192x8192 .f32) (y : S8192x8192.Idx) :
    scoreTerm adj e y = Scalar.select (IntOp.cmpi .sgt (adj y) 0#32) (Cert.Gat.leaky (e y)) Cert.Gat.negBig := rfl

/-! ## The layer's scores -/

section Layer

variable (h : FVec Ideal S8192x512 .f32) (adj : IVec S8192x8192 32) (W : FVec Ideal S512x256 .f32) (a : FVec Ideal S512x1 .f32)

/-- The masked scores of the composed term. -/
abbrev scores : FVec Ideal S8192x8192 .f32 :=
  scoreTerm adj (logitTerm (f1Term (whTerm h W) a) (f2Term (whTerm h W) a))

theorem f1_eq (i : Fin 8192) : f1Term (whTerm h W) a (ix2 i (0 : Fin 1)) = Cert.Gat.f1 h W a i :=
  (f1Term_apply (whTerm h W) a i).trans
    (Finset.sum_congr rfl fun c _ => congrArg (fun t => t * a (ix2 (⟨c.val, by have := c.isLt; omega⟩ : Fin 512) (0 : Fin 1)))
      (whTerm_apply h W i c))

theorem f2_eq (j : Fin 8192) : f2Term (whTerm h W) a (ix2 j (0 : Fin 1)) = Cert.Gat.f2 h W a j :=
  (f2Term_apply (whTerm h W) a j).trans
    (Finset.sum_congr rfl fun c _ => congrArg (fun t => t * a (ix2 (⟨256 + c.val, by have := c.isLt; omega⟩ : Fin 512) (0 : Fin 1)))
      (whTerm_apply h W j c))

theorem score_eq (i j : Fin 8192) : scores h adj W a (ix2 i j) = Cert.Gat.sc h W a adj i j := by
  refine (scoreTerm_apply adj _ (ix2 i j)).trans ?_
  rw [logitTerm_apply, f1_eq, f2_eq]
  rfl

end Layer

end Cert.ReferenceIdeal.Hand

end
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.Ref.ValueSoftmax.lean ====
/-
  The reference's softmax, read at an entry.

  The row maximum is the fold of `max` from minus infinity over the row (taken once more against minus infinity, which
  changes nothing); the shifted exponential, the row sum (zero plus the sum) and the quotient act at the entry, the
  row's maximum and sum read through the two broadcasts that lay a vector along the columns.
-/
import proofs.«151817_j31731218382937_2_alg».proof.Proof.Ref.ValueScore
import proofs.«151817_j31731218382937_2_alg».proof.Proof.LibBroadcasts
import Idealize.ShloMosaic.PureOps.Reduce

noncomputable section

namespace Cert.ReferenceIdeal.Hand

open Cert.ReferenceIdeal Cert.ReferenceIdeal.Gen Idealize.ShloMosaic Idealize.ShloMosaic.ValueIdx
open scoped BigOperators

/-! ## The literals -/

/-- The pattern of minus infinity. -/
theorem ofBits_negInf : Ideal.ofBits .f32 0xFF800000#32 = ⊥ := by simp [Ideal.ofBits, Ideal.ieee]

/-- The float maximum of extended reals is their maximum. -/
theorem maximumf_eq_max : (FloatOps.maximumf (F := Ideal) (φ := .f32)) = (max : EReal → EReal → EReal) := rfl

/-! ## Elementwise host operations at an entry -/

theorem hostExp_apply {s : Shape} (x : FVec Ideal s .f32) (y : s.Idx) : Host.exp x y = Ideal.exp (x y) := rfl
theorem hostExpm1_apply {s : Shape} (x : FVec Ideal s .f32) (y : s.Idx) : Host.expm1 x y = Ideal.exp (x y) - 1 := rfl
theorem hostDivf_apply {s : Shape} (x z : FVec Ideal s .f32) (y : s.Idx) : Host.divf x z y = Ideal.div (x y) (z y) := rfl

/-! ## The stages' defining equations, as functions (at any float values: nothing is evaluated) -/

theorem maxTerm_def {F : FTy → Type} [FloatOps F] (s : FVec F S8192x8192 .f32) :
    maxTerm s = maximumf (broadcastInDim S8192 ![] bcast_S_S8192 (constant (F := F) S_ .f32 0xFF800000#32))
      (Host.reduce FloatOps.maximumf s (constant (F := F) S_ .f32 0xFF800000#32) reducesTo_S8192x8192_S8192_d1 h_S_) := rfl

theorem expTerm_def {F : FTy → Type} [FloatOps F] (s : FVec F S8192x8192 .f32) :
    expTerm s = Host.exp (subf s (broadcastInDim S8192x8192 ![0, 1] bcast_S8192x1_S8192x8192_0_1
      (broadcastInDim S8192x1 ![0] bcast_S8192_S8192x1_0 (maxTerm s)))) := rfl

theorem attTerm_def {F : FTy → Type} [FloatOps F] (p : FVec F S8192x8192 .f32) :
    attTerm p = Host.divf p (broadcastInDim S8192x8192 ![0, 1] bcast_S8192x1_S8192x8192_0_1
      (broadcastInDim S8192x1 ![0] bcast_S8192_S8192x1_0 (sumTerm p))) := rfl

/-! ## The stages at an entry -/

/-- The index `i` of a row with the coordinate `k` put back on the dropped second axis is `(i, k)`. -/
theorem lift_ix2 (hR : S8192x8192.Reduces [1] S8192) (i : Fin 8192) (k : Fin (S8192x8192.size 1)) :
    hR.lift (ix1 i) k = ix2 i (⟨k.val, k.isLt⟩ : Fin 8192) := by
  funext c; apply Fin.ext
  fin_cases c <;> rfl

/-- The host's maximum over a row: the fold of `max` from minus infinity over the row's entries. -/
theorem hostMax_row (s : FVec Ideal S8192x8192 .f32) (i : Fin 8192) :
    Host.reduce FloatOps.maximumf s (constant (F := Ideal) S_ .f32 0xFF800000#32) reducesTo_S8192x8192_S8192_d1 h_S_ (ix1 i)
      = (Finset.univ : Finset (Fin 8192)).fold max ⊥ (fun j => s (ix2 i j)) := by
  have hR : S8192x8192.Reduces [1] S8192 := by decide
  refine (congrArg (fun f => Host.reduce f s (constant (F := Ideal) S_ .f32 0xFF800000#32) reducesTo_S8192x8192_S8192_d1 h_S_ (ix1 i))
    maximumf_eq_max).trans ?_
  refine (Host.reduce_eq_fold_single (max : EReal → EReal → EReal) s _ reducesTo_S8192x8192_S8192_d1 hR h_S_ (ix1 i)).trans ?_
  have hf : (s ∘ hR.lift (ix1 i)) = fun k : Fin 8192 => s (ix2 i k) := funext fun k => congrArg s (lift_ix2 hR i k)
  have h0 : (constant (F := Ideal) S_ .f32 0xFF800000#32) (Shape.Idx.first h_S_) = (⊥ : EReal) := ofBits_negInf
  exact congrArg₂ (fun (b : EReal) (g : Fin 8192 → EReal) => Finset.fold max b g (Finset.univ : Finset (Fin 8192))) h0 hf

/-- The row maximum at `i`. -/
theorem maxTerm_apply (s : FVec Ideal S8192x8192 .f32) (i : Fin 8192) :
    maxTerm s (ix1 i) = (Finset.univ : Finset (Fin 8192)).fold max ⊥ (fun j => s (ix2 i j)) := by
  refine (congrFun (maxTerm_def s) (ix1 i)).trans ?_
  refine (maximumf_apply _ _ (ix1 i)).trans ?_
  have hA : broadcastInDim S8192 ![] bcast_S_S8192 (constant (F := Ideal) S_ .f32 0xFF800000#32) (ix1 i) = (⊥ : EReal) :=
    (Cert.Broadcasts.splat_apply _ bcast_S_S8192 _ (ix1 i)).trans ofBits_negInf
  exact (congrArg₂ _ hA (hostMax_row s i)).trans (max_bot_left _)

/-- The shifted exponential at `(i, j)`. -/
theorem expTerm_apply (s : FVec Ideal S8192x8192 .f32) (i j : Fin 8192) :
    expTerm s (ix2 i j) = Ideal.exp (s (ix2 i j) - maxTerm s (ix1 i)) := by
  refine (congrFun (expTerm_def s) (ix2 i j)).trans ((hostExp_apply _ _).trans ?_)
  refine congrArg Ideal.exp ((subf_apply _ _ _).trans ?_)
  exact congrArg (fun t => s (ix2 i j) - t)
    (Cert.Broadcasts.alongColumns_apply (maxTerm s) bcast_S8192_S8192x1_0 bcast_S8192x1_S8192x8192_0_1 i j)

/-- The row sum at `i`. -/
theorem sumTerm_apply (p : FVec Ideal S8192x8192 .f32) (i : Fin 8192) :
    sumTerm p (ix1 i) = ∑ j : Fin 8192, p (ix2 i j) := by
  have hR : S8192x8192.Reduces [1] S8192 := by decide
  refine (Ideal.hostReduceAdd_single reducesTo_S8192x8192_S8192_d1 hR p _ (ix1 i)).trans ?_
  have h0 : (constant (F := Ideal) S_ .f32 0x00000000#32) (Shape.Idx.first h_S_) = (0 : EReal) := Ideal.ofBits_zero_f32
  rw [h0, zero_add]
  exact Finset.sum_congr rfl fun k _ => congrArg p (lift_ix2 hR i k)

/-- The attention weight at `(i, j)`. -/
theorem attTerm_apply (p : FVec Ideal S8192x8192 .f32) (i j : Fin 8192) :
    attTerm p (ix2 i j) = Ideal.div (p (ix2 i j)) (sumTerm p (ix1 i)) := by
  refine (congrFun (attTerm_def p) (ix2 i j)).trans ((hostDivf_apply _ _ _).trans ?_)
  exact congrArg (fun t => Ideal.div (p (ix2 i j)) t)
    (Cert.Broadcasts.alongColumns_apply (sumTerm p) bcast_S8192_S8192x1_0 bcast_S8192x1_S8192x8192_0_1 i j)

/-! ## The layer's softmax -/

section Layer

variable (h : FVec Ideal S8192x512 .f32) (adj : IVec S8192x8192 32) (W : FVec Ideal S512x256 .f32) (a : FVec Ideal S512x1 .f32)

theorem max_eq (i : Fin 8192) : maxTerm (scores h adj W a) (ix1 i) = Cert.Gat.rowMax h W a adj i :=
  (maxTerm_apply (scores h adj W a) i).trans
    (congrArg (fun g => Finset.fold max ⊥ g (Finset.univ : Finset (Fin 8192))) (funext fun j => score_eq h adj W a i j))

theorem exp_eq (i j : Fin 8192) : expTerm (scores h adj W a) (ix2 i j) = Cert.Gat.ex h W a adj i j :=
  (expTerm_apply (scores h adj W a) i j).trans
    (congrArg₂ (fun u v => Ideal.exp (u - v)) (score_eq h adj W a i j) (max_eq h adj W a i))

theorem sum_eq (i : Fin 8192) : sumTerm (expTerm (scores h adj W a)) (ix1 i) = Cert.Gat.rowSum h W a adj i :=
  (sumTerm_apply (expTerm (scores h adj W a)) i).trans (Finset.sum_congr rfl fun j _ => exp_eq h adj W a i j)

end Layer

end Cert.ReferenceIdeal.Hand

end
-- ==== Proof.Ref.ValueTail.lean ====
/-
  The reference's last two stages, read at an entry.

  The attention-weighted features are the sum over the keys of the weight times the projected feature; the exponential
  linear unit acts at the entry, where under its outer select the inner select chooses its argument and the product
  with one is the factor.
-/
import proofs.«151817_j31731218382937_2_alg».proof.Proof.Ref.ValueSoftmax

noncomputable section

namespace Cert.ReferenceIdeal.Hand

open Cert.ReferenceIdeal Cert.ReferenceIdeal.Gen Idealize.ShloMosaic Idealize.ShloMosaic.ValueIdx
open scoped BigOperators

/-! ## The literals -/

/-- The pattern of one. -/
theorem ofBits_one : Ideal.ofBits .f32 0x3F800000#32 = 1 := by
  simp [Ideal.ofBits, Ideal.ieee, -EReal.coe_mul]; norm_num

/-! ## The stages at an entry -/

/-- The attention-weighted features at `(i, c)`. -/
theorem hpTerm_apply (att : FVec Ideal S8192x8192 .f32) (wh : FVec Ideal S8192x256 .f32) (i : Fin 8192) (c : Fin 256) :
    hpTerm att wh (ix2 i c) = ∑ j : Fin 8192, att (ix2 i j) * wh (ix2 j c) :=
  Cert.PlainDot.dotGeneral_apply (M := 8192) (K := 8192) (N := 256) _ rfl none .single att wh i c

/-- The exponential linear unit at an entry: under the outer select the inner one chooses its argument, and the
    product with one is the factor. -/
theorem eluTerm_apply (x : FVec Ideal S8192x256 .f32) (y : S8192x256.Idx) : eluTerm x y = Cert.Gat.elu (x y) := by
  have h0 : eluTerm x y
      = Scalar.select (FloatOps.cmpf (F := Ideal) (φ := .f32) .ogt (x y) Cert.Gat.zeroE) (x y)
          (Cert.Gat.oneE * (Ideal.exp (Scalar.select (FloatOps.cmpf (F := Ideal) (φ := .f32) .ogt (x y) Cert.Gat.zeroE)
            Cert.Gat.zeroE (x y)) - 1)) := rfl
  rw [h0]
  unfold Cert.Gat.elu
  by_cases hb : FloatOps.cmpf (F := Ideal) (φ := .f32) .ogt (x y) Cert.Gat.zeroE = 1#1
  · rw [hb, select_one, select_one]
  · rw [eq_zero_of_ne_one hb, select_zero, select_zero, select_zero]
    unfold Cert.Gat.oneE
    rw [ofBits_one, one_mul]

/-! ## The layer's output -/

section Layer

variable (h : FVec Ideal S8192x512 .f32) (adj : IVec S8192x8192 32) (W : FVec Ideal S512x256 .f32) (a : FVec Ideal S512x1 .f32)

theorem hp_eq (i : Fin 8192) (c : Fin 256) :
    hpTerm (attTerm (expTerm (scores h adj W a))) (whTerm h W) (ix2 i c) = Cert.Gat.hprime h W a adj i c :=
  (hpTerm_apply _ _ i c).trans
    (Finset.sum_congr rfl fun j _ =>
      congrArg₂ (fun u v => u * v)
        ((attTerm_apply (expTerm (scores h adj W a)) i j).trans
          (congrArg₂ Ideal.div (exp_eq h adj W a i j) (sum_eq h adj W a i)))
        (whTerm_apply h W j c))

end Layer

end Cert.ReferenceIdeal.Hand

end
-- ==== Proof.Ref.Value.lean ====
/-
  The reference's result, read at an index: it is the graph-attention layer.

  Composed, the entry `(i, c)` of the reference's term is the specification's `out i c`: the scores, the softmax and
  the last two stages, each read at an entry.
-/
import proofs.«151817_j31731218382937_2_alg».proof.Proof.Ref.ValueTail

noncomputable section

namespace Cert.ReferenceIdeal.Hand

open Cert.ReferenceIdeal Cert.ReferenceIdeal.Gen Idealize.ShloMosaic Idealize.ShloMosaic.ValueIdx
open scoped BigOperators

theorem refTerm_def (h : FVec Ideal S8192x512 .f32) (adj : IVec S8192x8192 32) (W : FVec Ideal S512x256 .f32)
    (a : FVec Ideal S512x1 .f32) :
    refTerm (F := Ideal) h adj W a = eluTerm (hpTerm (attTerm (expTerm (scores h adj W a))) (whTerm h W)) := rfl

/-- The reference's composed term is the layer of the specification, as an array. -/
theorem refTerm_eq (h : (⟨S8192x512, .f32⟩ : BufTy).Contents (Elt Ideal)) (adj : (⟨S8192x8192, .i32⟩ : BufTy).Contents (Elt Ideal))
    (W : (⟨S512x256, .f32⟩ : BufTy).Contents (Elt Ideal)) (a : (⟨S512x1, .f32⟩ : BufTy).Contents (Elt Ideal)) :
    refTerm (F := Ideal) h adj W a = Cert.Gat.outArr h W a adj := by
  funext y
  obtain ⟨i, c, rfl⟩ : ∃ (i : Fin 8192) (c : Fin 256), y = ix2 i c := ⟨y 0, y 1, eq_ix2 y⟩
  exact (congrFun (refTerm_def h adj W a) (ix2 i c)).trans
    ((eluTerm_apply _ (ix2 i c)).trans (congrArg Cert.Gat.elu (hp_eq h adj W a i c)))

end Cert.ReferenceIdeal.Hand

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.Value.Step.lean ====
/-
  One tile of the attention kernel, read at a row and an output column over the extended reals.

  At a grid point the kernel holds, for each of the block's 1024 rows, a running maximum and a running sum, and for
  each row and each of the 256 output columns a running weighted sum.  Read at row `r` and column `c` the tile's
  update of these three numbers is one step of the row recurrence: the tile's scores of row `r` are the masked leaky
  sums of the row's query logit with the tile's 1024 key logits, and the weights are column `c` of the tile's
  key features.
-/
import proofs.«151817_j31731218382937_2_alg».proof.Proof.KernelIdeal.R1State
import proofs.«151817_j31731218382937_2_alg».proof.Proof.GatSpec
import proofs.«151817_j31731218382937_2_alg».proof.Proof.LibColumn
import proofs.«151817_j31731218382937_2_alg».proof.Proof.LibLaneSum
import proofs.«151817_j31731218382937_2_alg».proof.Proof.LibPlainDot
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.HandValue

open Idealize.ShloMosaic Idealize.ShloMosaic.ValueIdx
open Cert.KernelIdeal Cert.KernelIdeal.Gen Cert.KernelIdeal.Hand
open scoped BigOperators

/-- The tile's scores of row `r`: the masked leaky sum of the row's query logit with each key logit. -/
def tileScores (x1 : Vec Ideal S1024x1024 .i32) (x2 : Vec Ideal S1024x1 .f32) (x3 : Vec Ideal S1x1024 .f32) (r : Fin 1024) :
    Fin 1024 → EReal :=
  fun k => Cert.Gat.score (x2 (ix2 r (0 : Fin 1))) (x3 (ix2 (0 : Fin 1) k)) (x1 (ix2 r k))

/-- The masked score the body computes, at row `r` and key `k` of the tile. -/
theorem pay8_apply (x1 : Vec Ideal S1024x1024 .i32) (x2 : Vec Ideal S1024x1 .f32) (x3 : Vec Ideal S1x1024 .f32) (r k : Fin 1024) :
    k1_pay8 (F := Ideal) x2 x3 x1 (ix2 r k) = tileScores x1 x2 x3 r k := by
  have e2 : broadcastTo S1024x1024 (shapeCast S1024x1 x2 shapeCasts_S1024x1_S1024x1) broadcasts_S1024x1_S1024x1024 (ix2 r k)
      = x2 (ix2 r (0 : Fin 1)) := by
    rw [shapeCast_self]; exact Cert.GraphConv.Column.broadcastTo_a1_ab_apply x2 _ r k
  have e3 : broadcastTo S1024x1024 (shapeCast S1x1024 x3 shapeCasts_S1x1024_S1x1024) broadcasts_S1x1024_S1024x1024 (ix2 r k)
      = x3 (ix2 (0 : Fin 1) k) := by
    rw [shapeCast_self]; exact broadcastTo_1b_ab_apply x3 _ r k
  unfold k1_pay8 tileScores Cert.Gat.score Cert.Gat.leaky Cert.Gat.zeroE Cert.Gat.slope Cert.Gat.negBig
  simp only [select_apply, cmpf_apply, broadcast_apply, mulf_apply, addf_apply, e2, e3]
  rfl

/-- The float pattern of minus infinity is the bottom of the extended reals. -/
theorem ofBits_neg_inf : Ideal.ofBits .f32 0xFF800000#32 = ⊥ := by simp [Ideal.ofBits, Ideal.ieee]

/-- The maximum of row `i` of a matrix, reduced along its columns from an accumulator: the fold of `max` over the
    column coordinate. -/
theorem max_last2 {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits (F := Ideal) φ acc) (fun d => src (ix2 i d)) := by
  refine (Ideal.multiReduction_maximumf_single src acc h hφ hacc (ix1 i)).trans ?_
  refine congrArg (fun f => Finset.fold max (FloatOps.ofBits (F := Ideal) φ acc) f Finset.univ) (funext fun d => ?_)
  exact congrArg src (funext fun ax => Fin.ext (by match ax with | ⟨0, _⟩ => rfl | ⟨1, _⟩ => rfl))

/-- The body's new running maximum, as the operations it is made of (at any float instance). -/
theorem pay9_def {F : FTy → Type} [FloatOps F] (x1 : Vec F S1024x1024 .i32) (x2 : Vec F S1024x1 .f32) (x3 : Vec F S1x1024 .f32)
    (v20 : Vec F S1024x1 .f32) :
    k1_pay9 (F := F) x2 x3 x1 v20
      = maximumf v20 (shapeCast S1024x1 (multiReduction .maximumf [1] S1024 (k1_pay8 (F := F) x2 x3 x1) 0xFF800000#32 reduces_S1024x1024_S1024 (.inl rfl) rfl) shapeCasts_S1024_S1024x1) := rfl

/-- The new running maximum of row `r`: the old one against the tile's maximum. -/
theorem pay9_apply (x1 : Vec Ideal S1024x1024 .i32) (x2 : Vec Ideal S1024x1 .f32) (x3 : Vec Ideal S1x1024 .f32)
    (v20 : Vec Ideal S1024x1 .f32) (r : Fin 1024) :
    k1_pay9 (F := Ideal) x2 x3 x1 v20 (ix2 r (0 : Fin 1))
      = max (v20 (ix2 r (0 : Fin 1))) (Cert.Gat.tileMax (tileScores x1 x2 x3 r)) := by
  rw [pay9_def]
  refine (maximumf_apply v20 _ (ix2 r (0 : Fin 1))).trans ?_
  refine congrArg (max (v20 (ix2 r (0 : Fin 1)))) ?_
  refine (Cert.GraphConv.Column.shapeCast_a_a1_apply _ _ r (0 : Fin 1)).trans ?_
  refine (max_last2 (k1_pay8 (F := Ideal) x2 x3 x1) _ _ _ _ r).trans ?_
  refine (congrArg (fun z => Finset.fold max z (fun d => k1_pay8 (F := Ideal) x2 x3 x1 (ix2 r d)) Finset.univ) ofBits_neg_inf).trans ?_
  exact congrArg (fun f => Finset.fold max ⊥ f Finset.univ) (funext fun k => pay8_apply x1 x2 x3 r k)

/-- The factor by which the old sums are rescaled: the exponential of the old maximum less the new. -/
theorem pay10_apply (x1 : Vec Ideal S1024x1024 .i32) (x2 : Vec Ideal S1024x1 .f32) (x3 : Vec Ideal S1x1024 .f32)
    (v20 v24 : Vec Ideal S1024x1 .f32) (r : Fin 1024) :
    k1_pay10 (F := Ideal) x2 x3 x1 v20 v24 (ix2 r (0 : Fin 1))
      = Ideal.exp (v24 (ix2 r (0 : Fin 1)) - k1_pay9 (F := Ideal) x2 x3 x1 v20 (ix2 r (0 : Fin 1))) := rfl

/-- The exponential of a score less the new maximum of its row. -/
theorem pay11_apply (x1 : Vec Ideal S1024x1024 .i32) (x2 : Vec Ideal S1024x1 .f32) (x3 : Vec Ideal S1x1024 .f32)
    (v20 : Vec Ideal S1024x1 .f32) (r k : Fin 1024) :
    k1_pay11 (F := Ideal) x2 x3 x1 v20 (ix2 r k)
      = Ideal.exp (tileScores x1 x2 x3 r k - k1_pay9 (F := Ideal) x2 x3 x1 v20 (ix2 r (0 : Fin 1))) := by
  have e : broadcastTo S1024x1024 (k1_pay9 (F := Ideal) x2 x3 x1 v20) broadcasts_S1024x1_S1024x1024 (ix2 r k)
      = k1_pay9 (F := Ideal) x2 x3 x1 v20 (ix2 r (0 : Fin 1)) :=
    Cert.GraphConv.Column.broadcastTo_a1_ab_apply _ _ r k
  unfold k1_pay11
  show Ideal.exp (k1_pay8 (F := Ideal) x2 x3 x1 (ix2 r k) - broadcastTo S1024x1024 (k1_pay9 (F := Ideal) x2 x3 x1 v20) broadcasts_S1024x1_S1024x1024 (ix2 r k)) = _
  rw [e, pay8_apply]

/-- The new running sum of row `r`: the rescaled old sum plus the tile's exponentials. -/
theorem pay12_apply (x1 : Vec Ideal S1024x1024 .i32) (x2 : Vec Ideal S1024x1 .f32) (x3 : Vec Ideal S1x1024 .f32)
    (v20 v24 v30 : Vec Ideal S1024x1 .f32) (r : Fin 1024) :
    k1_pay12 (F := Ideal) x2 x3 x1 v20 v24 v30 (ix2 r (0 : Fin 1))
      = k1_pay10 (F := Ideal) x2 x3 x1 v20 v24 (ix2 r (0 : Fin 1)) * v30 (ix2 r (0 : Fin 1))
        + ∑ k : Fin 1024, k1_pay11 (F := Ideal) x2 x3 x1 v20 (ix2 r k) := by
  unfold k1_pay12
  simp only [addf_apply, mulf_apply]
  refine congrArg (fun z => k1_pay10 (F := Ideal) x2 x3 x1 v20 v24 (ix2 r (0 : Fin 1)) * v30 (ix2 r (0 : Fin 1)) + z) ?_
  refine (Cert.GraphConv.Column.shapeCast_a_a1_apply _ _ r (0 : Fin 1)).trans ?_
  exact Cert.LaneSum.sum_last2 (k1_pay11 (F := Ideal) x2 x3 x1 v20) _ _ _ _ r

/-- The stored running sum and maximum are what was computed (a cast to the same shape). -/
theorem pay1_eq (v : FVec Ideal S1024x1 .f32) : k1_pay1 (F := Ideal) v = v := shapeCast_self v _
theorem pay3_eq (v : FVec Ideal S1024x1 .f32) : k1_pay3 (F := Ideal) v = v := shapeCast_self v _

/-- The new running weighted sum at row `r`, column `c`: the rescaled old one plus the tile's exponentials against
    column `c` of the tile's key features. -/
theorem pay2_apply (v26 : FVec Ideal S1024x1 .f32) (v29 : FVec Ideal S1024x1024 .f32) (v38 : Vec Ideal S1024x256 .f32)
    (v42 : Vec Ideal S1024x256 .bf16) (r : Fin 1024) (c : Fin 256) :
    k1_pay2 (F := Ideal) v26 v29 v38 v42 (ix2 r c)
      = v26 (ix2 r (0 : Fin 1)) * v38 (ix2 r c) + ∑ k : Fin 1024, v29 (ix2 r k) * v42 (ix2 k c) := by
  have eb : broadcastTo S1024x256 v26 broadcasts_S1024x1_S1024x256 (ix2 r c) = v26 (ix2 r (0 : Fin 1)) :=
    Cert.GraphConv.Column.broadcastTo_a1_ab_apply v26 _ r c
  have em := Cert.PlainDot.matmul_zero_apply (M := 1024) (K := 1024) (N := 256) dot_S1024x1024_S1024x256_S1024x256_1_0_0_1_n_n rfl none
    (truncf .bf16 v29 bitsLt_bf16_f32 : FVec Ideal S1024x1024 .bf16) (shapeCast S1024x256 v42 shapeCasts_S1024x256_S1024x256 : FVec Ideal S1024x256 .bf16) r c
  unfold k1_pay2
  rw [shapeCast_self]
  simp only [addf_apply, mulf_apply]
  rw [eb]
  refine congrArg (fun z => v26 (ix2 r (0 : Fin 1)) * v38 (ix2 r c) + z) ?_
  refine em.trans ?_
  rw [shapeCast_self]
  rfl

/-- The exponential of a vector, at an index. -/
theorem exp_apply {s : Shape} {φ : FTy} (x : FVec Ideal s φ) (i : s.Idx) : exp x i = Ideal.exp (x i) := rfl

/-- The output block at row `r`, column `c`: the exponential linear unit of the weighted sum over the sum. -/
theorem pay4_apply (v55 : Vec Ideal S1024x256 .f32) (v56 : Vec Ideal S1024x1 .f32) (r : Fin 1024) (c : Fin 256) :
    k1_pay4 (F := Ideal) v55 v56 (ix2 r c) = Cert.Gat.elu (Ideal.div (v55 (ix2 r c)) (v56 (ix2 r (0 : Fin 1)))) := by
  have eb : broadcastTo S1024x256 v56 broadcasts_S1024x1_S1024x256 (ix2 r c) = v56 (ix2 r (0 : Fin 1)) :=
    Cert.GraphConv.Column.broadcastTo_a1_ab_apply v56 _ r c
  unfold k1_pay4 Cert.Gat.elu Cert.Gat.zeroE Cert.Gat.oneE
  simp only [select_apply, cmpf_apply, broadcast_apply, subf_apply, exp_apply, divf_apply, eb]
  rfl

/-! ## The three numbers of a row and a column -/

/-- The running maximum and sum of row `r` and the running weighted sum at row `r`, column `c`. -/
def rowOf (s : St1 Ideal) (r : Fin 1024) (c : Fin 256) : Cert.Gat.Row :=
  ⟨s.1 (ix2 r (0 : Fin 1)), s.2.1 (ix2 r (0 : Fin 1)), s.2.2 (ix2 r c)⟩

/-- The reset values: minus infinity, zero, zero. -/
theorem rowOf_init (r : Fin 1024) (c : Fin 256) : rowOf (init1 (F := Ideal)) r c = Cert.Gat.Row.init := by
  unfold rowOf init1 Cert.Gat.Row.init k1_pay5 k1_pay6 k1_pay7
  simp only [shapeCast_self, broadcast_apply]
  refine congr (congr (congrArg Cert.Gat.Row.mk ?_) ?_) ?_
  · exact ofBits_neg_inf
  · exact Ideal.ofBits_zero_f32
  · exact Ideal.ofBits_zero_f32

/-- ONE TILE at a row and a column is one step of the row recurrence. -/
theorem rowOf_step (x0 : Vec Ideal S1024x256 .bf16) (x1 : Vec Ideal S1024x1024 .i32) (x2 : Vec Ideal S1024x1 .f32)
    (x3 : Vec Ideal S1x1024 .f32) (s : St1 Ideal) (r : Fin 1024) (c : Fin 256) :
    rowOf (step1 x0 x1 x2 x3 s) r c
      = Cert.Gat.Row.step (tileScores x1 x2 x3 r) (fun k => x0 (ix2 k c)) (rowOf s r c) := by
  unfold rowOf step1 Cert.Gat.Row.step
  refine congr (congr (congrArg Cert.Gat.Row.mk ?_) ?_) ?_
  · show k1_pay3 (F := Ideal) (k1_pay9 (F := Ideal) x2 x3 x1 s.1) (ix2 r (0 : Fin 1)) = _
    rw [pay3_eq, pay9_apply]
  · show k1_pay1 (F := Ideal) (k1_pay12 (F := Ideal) x2 x3 x1 s.1 s.1 s.2.1) (ix2 r (0 : Fin 1)) = _
    rw [pay1_eq, pay12_apply, pay10_apply, pay9_apply]
    refine congrArg (fun z => _ + z) (Finset.sum_congr rfl fun k _ => ?_)
    rw [pay11_apply, pay9_apply]
  · show k1_pay2 (F := Ideal) (k1_pay10 (F := Ideal) x2 x3 x1 s.1 s.1) (k1_pay11 (F := Ideal) x2 x3 x1 s.1) s.2.2 x0 (ix2 r c) = _
    rw [pay2_apply, pay10_apply, pay9_apply]
    refine congrArg (fun z => _ + z) (Finset.sum_congr rfl fun k _ => ?_)
    rw [pay11_apply, pay9_apply]

/-- The output block read at a row and a column. -/
theorem out1_apply (s : St1 Ideal) (r : Fin 1024) (c : Fin 256) :
    out1 s (ix2 r c) = Cert.Gat.elu (Ideal.div (rowOf s r c).a (rowOf s r c).l) := by
  unfold out1 rowOf
  exact pay4_apply s.2.2 s.2.1 r c

end Cert.KernelIdeal.HandValue

end
-- ==== Proof.Value.Ix.lean ====
/-
  Node indices from a grid point and a coordinate inside a block.

  The attention grid has 64 points: point `t` works on row block `t / 8` and key tile `t % 8`, each of 1024
  nodes.  Row `r` of the row block is node `1024 * (t / 8) + r`; key `k` of the tile is node `1024 * (t % 8) + k`.
-/
import proofs.«151817_j31731218382937_2_alg».proof.Proof.Gen.KernelIdeal.Launch

namespace Cert.KernelIdeal.HandValue

open Idealize.ShloMosaic Cert.KernelIdeal Cert.KernelIdeal.Gen

/-- The node that row `r` of point `t`'s row block is. -/
def rowIx (t : Fin cfg1.N) (r : Fin 1024) : Fin 8192 :=
  ⟨1024 * (t.val / 8) + r.val, by
    have h1 : t.val < 64 := lt_of_lt_of_eq t.isLt (show cfg1.N = 64 from N_1)
    have h2 := r.isLt
    omega⟩

/-- The node that key `k` of point `t`'s key tile is. -/
def keyIx (t : Fin cfg1.N) (k : Fin 1024) : Fin 8192 :=
  ⟨1024 * (t.val % 8) + k.val, by
    have h2 := k.isLt
    omega⟩

theorem rowIx_val (t : Fin cfg1.N) (r : Fin 1024) : (rowIx t r).val = 1024 * (t.val / 8) + r.val := rfl
theorem keyIx_val (t : Fin cfg1.N) (k : Fin 1024) : (keyIx t k).val = 1024 * (t.val % 8) + k.val := rfl

end Cert.KernelIdeal.HandValue
-- ==== Proof.Value.Tiles.lean ====
/-
  What the attention region leaves in the output array, as one function of the arrays it is entered with.

  Entered with projected features (8192 x 256), adjacency (8192 x 8192), query logits (8192 x 1) and key logits
  (1 x 8192), the region computes for node `R` and output column `cc` the row recurrence over the 8 key tiles:
  tile `jb`'s scores are the masked leaky sums of `R`'s query logit with the key logits of nodes
  `1024 * jb + k`, its weights column `cc` of those nodes' features.  The output entry is the exponential linear
  unit of the final weighted sum over the final sum.
-/
import proofs.«151817_j31731218382937_2_alg».proof.Proof.Gen.KernelIdeal.Launch
import proofs.«151817_j31731218382937_2_alg».proof.Proof.GatSpec

noncomputable section

namespace Cert.KernelIdeal.HandValue

open Idealize.ShloMosaic Idealize.ShloMosaic.TcCoe Idealize.ShloMosaic.ValueIdx
open Cert.KernelIdeal Cert.KernelIdeal.Gen

/-- Key `k` of key tile `jb` as a node. -/
def tileIx (jb : Fin 8) (k : Fin 1024) : Fin 8192 :=
  ⟨1024 * jb.val + k.val, by have h1 := jb.isLt; have h2 := k.isLt; omega⟩

theorem tileIx_val (jb : Fin 8) (k : Fin 1024) : (tileIx jb k).val = 1024 * jb.val + k.val := rfl

variable (V : (c : Dev nD) → (b : Ref sig .tc) → Buf (Elt Ideal) ((c : Thread nD τ).loc b))

/-- Node `R`'s scores against key tile `jb`. -/
def sAll (c : Dev nD) (R : Fin 8192) : Fin 8 → Fin 1024 → EReal := fun jb k =>
  Cert.Gat.score ((V c main_v4_1 : S8192x1.Idx → EReal) (ix2 R (0 : Fin 1)))
    ((V c main_v4_2 : S1x8192.Idx → EReal) (ix2 (0 : Fin 1) (tileIx jb k)))
    ((V c main_arg1 : S8192x8192.Idx → BitVec 32) (ix2 R (tileIx jb k)))

/-- Column `cc` of key tile `jb`'s features. -/
def wAll (c : Dev nD) (cc : Fin 256) : Fin 8 → Fin 1024 → EReal := fun jb k =>
  (V c main_v4_0 : S8192x256.Idx → EReal) (ix2 (tileIx jb k) cc)

/-- The output array the region leaves. -/
def kernelOut (c : Dev nD) : S8192x256.Idx → EReal := fun y =>
  Cert.Gat.elu (Ideal.div (Cert.Gat.online (sAll V c (y 0)) (wAll V c (y 1)) 8 le_rfl).a
    (Cert.Gat.online (sAll V c (y 0)) (wAll V c (y 1)) 8 le_rfl).l)

theorem kernelOut_apply (c : Dev nD) (R : Fin 8192) (cc : Fin 256) :
    kernelOut V c (ix2 R cc)
      = Cert.Gat.elu (Ideal.div (Cert.Gat.online (sAll V c R) (wAll V c cc) 8 le_rfl).a
          (Cert.Gat.online (sAll V c R) (wAll V c cc) 8 le_rfl).l) := rfl

end Cert.KernelIdeal.HandValue

end
-- ==== Proof.Value.Region1Blocks.lean ====
/-
  The attention kernel's blocks, read at an element, and its output array from its blocks.

  At grid point `t` (row block `t / 8`, key tile `t % 8`) the kernel is handed a block of each of its four input
  arrays.  Element by element: row `k` of the keys' feature block is node `1024 * (t % 8) + k` of the projected
  features; element `(r, k)` of the adjacency block is the entry of nodes `1024 * (t / 8) + r` and
  `1024 * (t % 8) + k`; row `r` of the query logits' block is that of node `1024 * (t / 8) + r`; column `k` of the
  key logits' block is that of node `1024 * (t % 8) + k`.

  The output array is written back once per row block, at its last key tile; the eight blocks written tile the array.
  So if the block each of those points leaves is the block of one function of the whole array's indices, the array
  ends holding that function.
-/
import proofs.«151817_j31731218382937_2_alg».proof.Proof.KernelIdeal.R1Body
import proofs.«151817_j31731218382937_2_alg».proof.Proof.Value.Ix
import Idealize.ShloMosaic.Lib.ValueLayout
import Idealize.ShloMosaic.Lib.Pipeline.Value

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The printed index maps, decided over the grid: the keys' features and the key logits move with the key tile, the
    query logits and the output with the row block, the adjacency matrix with both. -/
theorem idx1 : ∀ t : Fin cfg1.N, win1_0.index t (0 : Fin 2) = t.val % 8 ∧ win1_0.index t (1 : Fin 2) = 0
    ∧ win1_1.index t (0 : Fin 2) = t.val / 8 ∧ win1_1.index t (1 : Fin 2) = t.val % 8
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = t.val / 8 ∧ win1_4.index t (1 : Fin 2) = 0 :=
  (by decide +kernel : ∀ t : Fin grid1.N, _)

/-- The keys' feature block at an element. -/
theorem blk1_0_apply (c : Dev nD) (t : Fin cfg1.N) (k : Fin 1024) (cc : Fin 256) :
    iblk1 V c 0 t (ix2 k cc) = V c main_v4_0 (ix2 (keyIx t k) cc) := by
  obtain ⟨e0, e1, -, -, -, -, -, -, -, -⟩ := idx1 t
  unfold iblk1
  rw [View.read_apply]
  have h : ((cfg1.win 0).blk t).view.emb (ix2 k cc) = ix2 (keyIx t k) cc := by
    funext a; apply Fin.ext
    match a with
    | ⟨0, _⟩ => show win1_0.index t (0 : Fin 2) * 1024 + 1 * k.val = 1024 * (t.val % 8) + k.val; omega
    | ⟨1, _⟩ => show win1_0.index t (1 : Fin 2) * 256 + 1 * cc.val = cc.val; omega
  exact congrArg (V c main_v4_0) h

/-- The adjacency block at an element. -/
theorem blk1_1_apply (c : Dev nD) (t : Fin cfg1.N) (r k : Fin 1024) :
    iblk1 V c 1 t (ix2 r k) = V c main_arg1 (ix2 (rowIx t r) (keyIx t k)) := by
  obtain ⟨-, -, e2, e3, -, -, -, -, -, -⟩ := idx1 t
  unfold iblk1
  rw [View.read_apply]
  have h : ((cfg1.win 1).blk t).view.emb (ix2 r k) = ix2 (rowIx t r) (keyIx t k) := by
    funext a; apply Fin.ext
    match a with
    | ⟨0, _⟩ => show win1_1.index t (0 : Fin 2) * 1024 + 1 * r.val = 1024 * (t.val / 8) + r.val; omega
    | ⟨1, _⟩ => show win1_1.index t (1 : Fin 2) * 1024 + 1 * k.val = 1024 * (t.val % 8) + k.val; omega
  exact congrArg (V c main_arg1) h

/-- The query logits' block at an element. -/
theorem blk1_2_apply (c : Dev nD) (t : Fin cfg1.N) (r : Fin 1024) :
    iblk1 V c 2 t (ix2 r (0 : Fin 1)) = V c main_v4_1 (ix2 (rowIx t r) (0 : Fin 1)) := by
  obtain ⟨-, -, -, -, e4, e5, -, -, -, -⟩ := idx1 t
  unfold iblk1
  rw [View.read_apply]
  have h : ((cfg1.win 2).blk t).view.emb (ix2 r (0 : Fin 1)) = ix2 (rowIx t r) (0 : Fin 1) := by
    funext a; apply Fin.ext
    match a with
    | ⟨0, _⟩ => show win1_2.index t (0 : Fin 2) * 1024 + 1 * r.val = 1024 * (t.val / 8) + r.val; omega
    | ⟨1, _⟩ => show win1_2.index t (1 : Fin 2) * 1 + 1 * 0 = 0; omega
  exact congrArg (V c main_v4_1) h

/-- The key logits' block at an element. -/
theorem blk1_3_apply (c : Dev nD) (t : Fin cfg1.N) (k : Fin 1024) :
    iblk1 V c 3 t (ix2 (0 : Fin 1) k) = V c main_v4_2 (ix2 (0 : Fin 1) (keyIx t k)) := by
  obtain ⟨-, -, -, -, -, -, e6, e7, -, -⟩ := idx1 t
  unfold iblk1
  rw [View.read_apply]
  have h : ((cfg1.win 3).blk t).view.emb (ix2 (0 : Fin 1) k) = ix2 (0 : Fin 1) (keyIx t k) := by
    funext a; apply Fin.ext
    match a with
    | ⟨0, _⟩ => show win1_3.index t (0 : Fin 2) * 1 + 1 * 0 = 0; omega
    | ⟨1, _⟩ => show win1_3.index t (1 : Fin 2) * 1024 + 1 * k.val = 1024 * (t.val % 8) + k.val; omega
  exact congrArg (V c main_v4_2) h

/-- An index of the output array is in point `t`'s block iff each coordinate is in the block's range on its axis. -/
theorem mem_blk4 (t : Fin cfg1.N) (i : S8192x256.Idx) :
    i ∈ ((cfg1.win 4).blk t).view.set ↔ ∀ a : Fin 2, win1_4.index t a * S1024x256.size a ≤ (i a).val ∧ (i a).val < win1_4.index t a * S1024x256.size a + S1024x256.size a := by
  show i ∈ ((View.whole main_v5).slice (win1_4.rect t)).set ↔ _
  rw [View.set_slice_whole, Rect.mem_set_unit]
  exact Iff.rfl

/-- The output array after the run, from what the last key tile of each row block leaves: if at each of those points
    the block left is the block of `G`, the array ends holding `G`. -/
theorem final1_of (c : Dev nD) (G : S8192x256.Idx → EReal)
    (hG : ∀ t : Fin cfg1.N, t.val % 8 = 7 → ∀ (r : Fin 1024) (cc : Fin 256),
      out1 (stateAt1 V c t.val t.isLt) (ix2 r cc) = G (ix2 (rowIx t r) cc)) :
    (dat1 V c).arrAt 4 cfg1.N = G := by
  refine (dat1 V c).arrAt_eq_of_cover 4 G (fun t hf => ?_) (fun i => ?_)
  · have h7 : t.val % 8 = 7 := (flush1_4 t).mp hf
    obtain ⟨-, -, -, -, -, -, -, -, e8, e9⟩ := idx1 t
    show (cfg1.win 4).cut (grid1.coords t) ((dat1 V c).after 4 t) = _
    rw [after1_4]
    funext y
    obtain ⟨r, cc, rfl⟩ : ∃ (r : Fin 1024) (cc : Fin 256), y = ix2 r cc := ⟨y 0, y 1, eq_ix2 (n0 := 1024) (n1 := 256) y⟩
    show out1 (stateAt1 V c t.val t.isLt) (ix2 r cc) = G (((cfg1.win 4).blk t).view.emb (ix2 r cc))
    rw [hG t h7 r cc]
    congr 1
    funext a; apply Fin.ext
    match a with
    | ⟨0, _⟩ => show 1024 * (t.val / 8) + r.val = win1_4.index t (0 : Fin 2) * 1024 + 1 * r.val; omega
    | ⟨1, _⟩ => show cc.val = win1_4.index t (1 : Fin 2) * 256 + 1 * cc.val; omega
  · have hi0 : (i 0).val < 8192 := (i 0).isLt
    have hi1 : (i 1).val < 256 := (i 1).isLt
    have hlt : 8 * ((i 0).val / 1024) + 7 < cfg1.N := by rw [show cfg1.N = 64 from N_1]; omega
    obtain ⟨-, -, -, -, -, -, -, -, e8, e9⟩ := idx1 ⟨8 * ((i 0).val / 1024) + 7, hlt⟩
    have e8' : win1_4.index ⟨8 * ((i 0).val / 1024) + 7, hlt⟩ (0 : Fin 2) = (8 * ((i 0).val / 1024) + 7) / 8 := e8
    refine ⟨⟨8 * ((i 0).val / 1024) + 7, hlt⟩, (flush1_4 _).mpr (by show (8 * ((i 0).val / 1024) + 7) % 8 = 7; omega), ?_⟩
    rw [mem_blk4]
    intro a
    match a with
    | ⟨0, _⟩ =>
      show win1_4.index ⟨8 * ((i 0).val / 1024) + 7, hlt⟩ (0 : Fin 2) * 1024 ≤ (i 0).val
        ∧ (i 0).val < win1_4.index ⟨8 * ((i 0).val / 1024) + 7, hlt⟩ (0 : Fin 2) * 1024 + 1024
      omega
    | ⟨1, _⟩ =>
      show win1_4.index ⟨8 * ((i 0).val / 1024) + 7, hlt⟩ (1 : Fin 2) * 256 ≤ (i 1).val
        ∧ (i 1).val < win1_4.index ⟨8 * ((i 0).val / 1024) + 7, hlt⟩ (1 : Fin 2) * 256 + 256
      omega

end Cert.KernelIdeal.HandValue

end
-- ==== Proof.LibRealLaw.lean ====
/-
  Extended reals that are real numbers, and the one law this certificate rests on.

  Both programs score a user against every point of interest by the inner product of the user's preference
  vector `u` (256 entries) with the point's region embedding `r`, scaled by `a`.  One program scales the
  preference vector first and then takes the inner product, `∑ k, (u k * a) * r k`; the other takes the inner
  product and scales the result, `a * ∑ k, u k * r k`.  On the extended reals a factor moves across a sum only
  when no term is infinite, so the law is stated for entries that are real numbers; it is then the ring identity
  `∑ k, (u k * a) * r k = a * ∑ k, u k * r k` in `ℝ`.

  The rest of the file says which operations keep an extended real a real number: products, sums over a finite
  index set, maxima, and the ideal quotient by a divisor that is at least one.
-/
import Idealize.ShloMosaic.PureOps.Ideal
import Idealize.ShloMosaic.PureOps.Ideal.Laws

noncomputable section

namespace Cert.Scores

open Idealize.ShloMosaic

/-- The extended real `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The maximum of a real number and one is a real number that is not zero. -/
theorem max_one_eq (s : ℝ) : max (s : EReal) 1 = ((max s 1 : ℝ) : EReal) := by
  have h := (EReal.coe_strictMono.monotone).map_max (a := s) (b := (1 : ℝ))
  rw [h]; rfl

/-- The ideal quotient of a real number by the maximum of a real number and one is a real number: the divisor is
    a real number at least one, so it is not zero and the quotient is the product with its reciprocal. -/
theorem IsReal.div_max_one {x s : EReal} (hx : IsReal x) (hs : IsReal s) : IsReal (Ideal.div x (max s 1)) := by
  obtain ⟨s', rfl⟩ := hs
  rw [max_one_eq, Ideal.div_coe (ne_of_gt (lt_of_lt_of_le one_pos (le_max_right s' 1)))]
  exact hx.mul (isReal_coe _)

/-- THE LAW.  For real entries, scaling the first factor of every product by `a` scales the inner product by `a`. -/
theorem scaled_inner {n : Nat} (u r : Fin n → EReal) (a : EReal)
    (hu : ∀ k, IsReal (u k)) (hr : ∀ k, IsReal (r k)) (ha : IsReal a) :
    ∑ k : Fin n, (u k * a) * r k = a * ∑ k : Fin n, u k * r k := by
  choose u' hu' using hu
  choose r' hr' using hr
  obtain ⟨a', rfl⟩ := ha
  have hl : ∀ k : Fin n, (u k * (a' : EReal)) * r k = ((u' k * a' * r' k : ℝ) : EReal) := fun k => by
    rw [hu' k, hr' k, EReal.coe_mul, EReal.coe_mul]
  have hr2 : ∀ k : Fin n, u k * r k = ((u' k * r' k : ℝ) : EReal) := fun k => by
    rw [hu' k, hr' k, EReal.coe_mul]
  rw [Finset.sum_congr rfl fun k _ => hl k, Finset.sum_congr rfl fun k _ => hr2 k, ← coe_sum, ← coe_sum,
    ← EReal.coe_mul, Finset.mul_sum]
  exact congrArg _ (Finset.sum_congr rfl fun k _ => by ring)

end Cert.Scores

end
-- ==== Proof.LibOnlineSoftmax.lean ====
/-
  The online softmax row sum over the extended reals, one row and one column tile at a time.

  A row keeps a running maximum `m` (−∞ before the first tile, a real afterwards) and a running sum `l`
  (zero before the first tile).  A tile of real scores `s j` updates them to
    m' = max m (max_j s j),      l' = exp (m − m') · l + ∑ j, exp (s j − m').
  Whatever the scores are, as long as they are real numbers and the tile is not empty, `m'` is a real number
  and `l'` is a POSITIVE real number: `exp (m − m')` is `exp (−∞) = 0` or the exponential of a real, and every
  `exp (s j − m')` is the exponential of a real, hence positive.  So the quotient `l' / l'` the kernel stores at
  the last tile is exactly one.
-/
import Idealize.ShloMosaic.PureOps.Ideal
import Idealize.ShloMosaic.PureOps.Ideal.Laws
import proofs.«151817_j31731218382937_2_alg».proof.Proof.LibRealLaw

noncomputable section

namespace Cert.SoftRow

open Idealize.ShloMosaic Cert.Scores

open scoped BigOperators

/-- A running maximum: −∞ (no tile seen yet) or a real number. -/
def BotOrReal (m : EReal) : Prop := m = ⊥ ∨ IsReal m

/-- A running sum: a real number that is not negative. -/
def NonnegReal (l : EReal) : Prop := ∃ r : ℝ, l = (r : EReal) ∧ 0 ≤ r

/-- A positive real number. -/
def PosReal (l : EReal) : Prop := ∃ r : ℝ, l = (r : EReal) ∧ 0 < r

theorem PosReal.nonneg {l : EReal} (h : PosReal l) : NonnegReal l := by
  obtain ⟨r, hr, hp⟩ := h; exact ⟨r, hr, le_of_lt hp⟩

theorem PosReal.isReal {l : EReal} (h : PosReal l) : IsReal l := by
  obtain ⟨r, hr, _⟩ := h; exact ⟨r, hr⟩

theorem botOrReal_bot : BotOrReal ⊥ := Or.inl rfl

theorem nonnegReal_zero : NonnegReal 0 := ⟨0, rfl, le_refl _⟩

theorem botOrReal_of_isReal {m : EReal} (h : IsReal m) : BotOrReal m := Or.inr h

theorem exp_coe (r : ℝ) : Ideal.exp (r : EReal) = ((Real.exp r : ℝ) : EReal) := rfl

theorem exp_bot : Ideal.exp ⊥ = 0 := rfl

/-- The maximum of two real numbers is a real number. -/
theorem isReal_max {x y : EReal} (hx : IsReal x) (hy : IsReal y) : IsReal (max x y) := by
  obtain ⟨a, rfl⟩ := hx
  obtain ⟨b, rfl⟩ := hy
  exact ⟨max a b, ((EReal.coe_strictMono.monotone).map_max (a := a) (b := b)).symm⟩

/-- The difference of two real numbers is a real number. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The exponential of a real number is a positive real number. -/
theorem posReal_exp {x : EReal} (hx : IsReal x) : PosReal (Ideal.exp x) := by
  obtain ⟨a, rfl⟩ := hx
  exact ⟨Real.exp a, exp_coe a, Real.exp_pos a⟩

/-- The maximum of a tile of real scores, folded from −∞, is a real number when the tile is not empty. -/
theorem fold_max_isReal {n : ℕ} (hn : 0 < n) (f : Fin n → EReal) (hf : ∀ j, IsReal (f j)) :
    IsReal ((Finset.univ : Finset (Fin n)).fold max ⊥ f) := by
  have h1 : ∀ s : Finset (Fin n), s.fold max ⊥ f = ⊥ ∨ IsReal (s.fold max ⊥ f) := by
    intro s
    induction s using Finset.induction_on with
    | empty => exact Or.inl (Finset.fold_empty)
    | insert a s ha ih =>
      rw [Finset.fold_insert ha]
      rcases ih with h | h
      · right; rw [h, max_bot_right]; exact hf a
      · right; exact isReal_max (hf a) h
  rcases h1 Finset.univ with h | h
  · exfalso
    have hle : f ⟨0, hn⟩ ≤ (Finset.univ : Finset (Fin n)).fold max ⊥ f :=
      (Finset.le_fold_max (f ⟨0, hn⟩)).mpr (Or.inr ⟨⟨0, hn⟩, Finset.mem_univ _, le_refl _⟩)
    obtain ⟨x, hx⟩ := hf ⟨0, hn⟩
    rw [h, hx] at hle
    exact absurd hle (not_le.mpr (EReal.bot_lt_coe x))
  · exact h

/-- The new running maximum is a real number. -/
theorem newMax_isReal {m r : EReal} (hm : BotOrReal m) (hr : IsReal r) : IsReal (max m r) := by
  rcases hm with h | h
  · rw [h, max_bot_left]; exact hr
  · exact isReal_max h hr

/-- The rescaling factor `exp (m − m')` of the old sum is a real number that is not negative. -/
theorem nonnegReal_rescale {m m' : EReal} (hm : BotOrReal m) (hm' : IsReal m') : NonnegReal (Ideal.exp (m - m')) := by
  rcases hm with h | h
  · obtain ⟨b, rfl⟩ := hm'
    rw [h, EReal.bot_sub, exp_bot]
    exact nonnegReal_zero
  · exact (posReal_exp (isReal_sub h hm')).nonneg

/-- The sum of a non-empty tile of positive real numbers is a positive real number. -/
theorem posReal_sum {n : ℕ} (hn : 0 < n) (f : Fin n → EReal) (hf : ∀ j, PosReal (f j)) : PosReal (∑ j : Fin n, f j) := by
  choose g hg hp using hf
  refine ⟨∑ j : Fin n, g j, ?_, ?_⟩
  · rw [coe_sum]; exact Finset.sum_congr rfl fun j _ => hg j
  · exact Finset.sum_pos (fun j _ => hp j) ⟨⟨0, hn⟩, Finset.mem_univ _⟩

/-- The new running sum `a · l + p` with `a`, `l` real and not negative and `p` real and positive is a positive real. -/
theorem posReal_update {a l p : EReal} (ha : NonnegReal a) (hl : NonnegReal l) (hp : PosReal p) : PosReal (a * l + p) := by
  obtain ⟨a', rfl, ha0⟩ := ha
  obtain ⟨l', rfl, hl0⟩ := hl
  obtain ⟨p', rfl, hp0⟩ := hp
  refine ⟨a' * l' + p', ?_, ?_⟩
  · rw [EReal.coe_add, EReal.coe_mul]
  · exact add_pos_of_nonneg_of_pos (mul_nonneg ha0 hl0) hp0

/-- ONE TILE.  From a running maximum that is −∞ or real and a running sum that is real and not negative, a
    non-empty tile of real scores leaves a real maximum and a positive real sum. -/
theorem tile_step {n : ℕ} (hn : 0 < n) (s : Fin n → EReal) (hs : ∀ j, IsReal (s j)) {m l : EReal}
    (hm : BotOrReal m) (hl : NonnegReal l) :
    IsReal (max m ((Finset.univ : Finset (Fin n)).fold max ⊥ s))
      ∧ PosReal (Ideal.exp (m - max m ((Finset.univ : Finset (Fin n)).fold max ⊥ s)) * l
          + ∑ j : Fin n, Ideal.exp (s j - max m ((Finset.univ : Finset (Fin n)).fold max ⊥ s))) := by
  have hm' : IsReal (max m ((Finset.univ : Finset (Fin n)).fold max ⊥ s)) :=
    newMax_isReal hm (fold_max_isReal hn s hs)
  exact ⟨hm', posReal_update (nonnegReal_rescale hm hm') hl
    (posReal_sum hn _ fun j => posReal_exp (isReal_sub (hs j) hm'))⟩

/-- The quotient of a positive real number by itself is one. -/
theorem div_self_of_posReal {l : EReal} (hl : PosReal l) : Ideal.div l l = 1 := by
  obtain ⟨r, rfl, hr⟩ := hl
  rw [Ideal.div_coe (ne_of_gt hr), ← EReal.coe_mul, mul_one_div_cancel (ne_of_gt hr)]
  rfl

end Cert.SoftRow

end
-- ==== Proof.Math.Online.lean ====
/-
  The law that joins the tiled recurrence to the whole-row softmax.

  A row of real scores `S q` and real weights `W q`, the keys `q` split into `T` tiles of `n`.  The recurrence
  keeps a running maximum `m`, a running sum `l` of exponentials shifted by `m`, and a running weighted sum `a`,
  rescaling the old sums by `exp (m - m')` whenever the maximum moves.  After the last tile `a / l` is the
  softmax-weighted sum of the whole row: the rescalings telescope because `exp (m - m') * exp (x - m) = exp (x - m')`
  for real numbers, and the common factor `exp (-M)` cancels in the quotient.
-/
import Mathlib.Algebra.BigOperators.Fin
import Mathlib.Logic.Equiv.Fin.Basic
import proofs.«151817_j31731218382937_2_alg».proof.Proof.GatSpec
import proofs.«151817_j31731218382937_2_alg».proof.Proof.LibRealLaw
import proofs.«151817_j31731218382937_2_alg».proof.Proof.LibOnlineSoftmax

noncomputable section

namespace Cert.Gat

open Idealize.ShloMosaic
open scoped BigOperators

open Cert.Scores Cert.SoftRow

/-! ## The recurrence keeps its state real -/

theorem online_succ {T n : ℕ} (s w : Fin T → Fin n → EReal) (j : ℕ) (hj : j + 1 ≤ T) :
    online s w (j + 1) hj = Row.step (s ⟨j, hj⟩) (w ⟨j, hj⟩) (online s w j (Nat.le_of_succ_le hj)) := rfl

/-- Before any tile the maximum is minus infinity and the sums zero; after each tile the maximum is real, the sum
    of exponentials a positive real and the weighted sum real. -/
theorem online_inv {T n : ℕ} (hn : 0 < n) (s w : Fin T → Fin n → EReal) (hs : ∀ j k, IsReal (s j k))
    (hw : ∀ j k, IsReal (w j k)) : ∀ (j : ℕ) (hj : j ≤ T),
    BotOrReal (online s w j hj).m ∧ NonnegReal (online s w j hj).l ∧ IsReal (online s w j hj).a
      ∧ (0 < j → IsReal (online s w j hj).m ∧ PosReal (online s w j hj).l)
  | 0, _ => ⟨botOrReal_bot, nonnegReal_zero, isReal_zero, fun h => absurd h (lt_irrefl 0)⟩
  | j + 1, hj => by
    obtain ⟨hm, hl, ha, _⟩ := online_inv hn s w hs hw j (Nat.le_of_succ_le hj)
    have ht := tile_step hn (s ⟨j, hj⟩) (hs ⟨j, hj⟩) hm hl
    have hm' : IsReal (online s w (j + 1) hj).m := ht.1
    have hl' : PosReal (online s w (j + 1) hj).l := ht.2
    have hres : IsReal (Ideal.exp ((online s w j (Nat.le_of_succ_le hj)).m - (online s w (j + 1) hj).m)) := by
      obtain ⟨x, hx, _⟩ := nonnegReal_rescale hm hm'
      exact ⟨x, hx⟩
    have ha' : IsReal (online s w (j + 1) hj).a :=
      (hres.mul ha).add (IsReal.sum _ fun k => (posReal_exp (isReal_sub (hs _ k) hm')).isReal.mul (hw _ k))
    exact ⟨botOrReal_of_isReal hm', hl'.nonneg, ha', fun _ => ⟨hm', hl'⟩⟩

/-- After at least one tile the running maximum is real, the running sum a positive real, the weighted sum real. -/
theorem online_real {T n : ℕ} (hn : 0 < n) (s w : Fin T → Fin n → EReal) (hs : ∀ j k, Cert.Scores.IsReal (s j k))
    (hw : ∀ j k, Cert.Scores.IsReal (w j k)) (j : ℕ) (hj : j ≤ T) (h0 : 0 < j) :
    Cert.Scores.IsReal (online s w j hj).m ∧ Cert.SoftRow.PosReal (online s w j hj).l
      ∧ Cert.Scores.IsReal (online s w j hj).a := by
  obtain ⟨_, _, ha, h⟩ := online_inv hn s w hs hw j hj
  exact ⟨(h h0).1, (h h0).2, ha⟩

/-! ## The sums over the first tiles, in the real numbers -/

/-- The exponentials of the first `j` tiles shifted by `M`, summed. -/
def partL {T n : ℕ} (σ : Fin T → Fin n → ℝ) (j : ℕ) (hj : j ≤ T) (M : ℝ) : ℝ :=
  ∑ i : Fin j, ∑ k : Fin n, Real.exp (σ (Fin.castLE hj i) k - M)

/-- The same, each weighted. -/
def partA {T n : ℕ} (σ ω : Fin T → Fin n → ℝ) (j : ℕ) (hj : j ≤ T) (M : ℝ) : ℝ :=
  ∑ i : Fin j, ∑ k : Fin n, Real.exp (σ (Fin.castLE hj i) k - M) * ω (Fin.castLE hj i) k

theorem partL_succ {T n : ℕ} (σ : Fin T → Fin n → ℝ) (j : ℕ) (hj : j + 1 ≤ T) (M : ℝ) :
    partL σ (j + 1) hj M = partL σ j (Nat.le_of_succ_le hj) M + ∑ k : Fin n, Real.exp (σ ⟨j, hj⟩ k - M) := by
  unfold partL
  rw [Fin.sum_univ_castSucc]
  rfl

theorem partA_succ {T n : ℕ} (σ ω : Fin T → Fin n → ℝ) (j : ℕ) (hj : j + 1 ≤ T) (M : ℝ) :
    partA σ ω (j + 1) hj M
      = partA σ ω j (Nat.le_of_succ_le hj) M + ∑ k : Fin n, Real.exp (σ ⟨j, hj⟩ k - M) * ω ⟨j, hj⟩ k := by
  unfold partA
  rw [Fin.sum_univ_castSucc]
  rfl

/-- Moving the shift from `M` to `M'` multiplies every exponential by `exp (M - M')`. -/
theorem partL_shift {T n : ℕ} (σ : Fin T → Fin n → ℝ) (j : ℕ) (hj : j ≤ T) (M M' : ℝ) :
    Real.exp (M - M') * partL σ j hj M = partL σ j hj M' := by
  unfold partL
  rw [Finset.mul_sum]
  refine Finset.sum_congr rfl fun i _ => ?_
  rw [Finset.mul_sum]
  refine Finset.sum_congr rfl fun k _ => ?_
  rw [← Real.exp_add]
  congr 1
  ring

theorem partA_shift {T n : ℕ} (σ ω : Fin T → Fin n → ℝ) (j : ℕ) (hj : j ≤ T) (M M' : ℝ) :
    Real.exp (M - M') * partA σ ω j hj M = partA σ ω j hj M' := by
  unfold partA
  rw [Finset.mul_sum]
  refine Finset.sum_congr rfl fun i _ => ?_
  rw [Finset.mul_sum]
  refine Finset.sum_congr rfl fun k _ => ?_
  rw [← mul_assoc, ← Real.exp_add]
  congr 2
  ring

/-! ## One tile, rescaled to an arbitrary real shift -/

/-- If the old sums, rescaled to the new maximum `M'`, are the reals `Lp` and `Ap`, then the new sums rescaled to any
    real `M` are `exp (M' - M)` times the old ones plus the tile's own terms. -/
theorem step_scaled {n : ℕ} (s w : Fin n → EReal) (σ ω : Fin n → ℝ) (hσ : ∀ k, s k = (σ k : EReal))
    (hω : ∀ k, w k = (ω k : EReal)) (r : Row) (M' : ℝ) (hM' : max r.m (tileMax s) = (M' : EReal)) (Lp Ap : ℝ)
    (hL : Ideal.exp (r.m - (M' : EReal)) * r.l = (Lp : EReal))
    (hA : Ideal.exp (r.m - (M' : EReal)) * r.a = (Ap : EReal)) (M : ℝ) :
    Ideal.exp ((Row.step s w r).m - (M : EReal)) * (Row.step s w r).l
        = ((Real.exp (M' - M) * (Lp + ∑ k : Fin n, Real.exp (σ k - M')) : ℝ) : EReal)
      ∧ Ideal.exp ((Row.step s w r).m - (M : EReal)) * (Row.step s w r).a
        = ((Real.exp (M' - M) * (Ap + ∑ k : Fin n, Real.exp (σ k - M') * ω k) : ℝ) : EReal) := by
  have h1 : ∀ k, Ideal.exp (s k - (M' : EReal)) = ((Real.exp (σ k - M') : ℝ) : EReal) := fun k => by
    rw [hσ k, ← EReal.coe_sub, exp_coe]
  have e1 : ∑ k : Fin n, Ideal.exp (s k - (M' : EReal)) = ((∑ k : Fin n, Real.exp (σ k - M') : ℝ) : EReal) := by
    rw [coe_sum]
    exact Finset.sum_congr rfl fun k _ => h1 k
  have e2 : ∑ k : Fin n, Ideal.exp (s k - (M' : EReal)) * w k
      = ((∑ k : Fin n, Real.exp (σ k - M') * ω k : ℝ) : EReal) := by
    rw [coe_sum]
    exact Finset.sum_congr rfl fun k _ => by rw [h1 k, hω k, EReal.coe_mul]
  refine ⟨?_, ?_⟩
  · show Ideal.exp (max r.m (tileMax s) - (M : EReal))
        * (Ideal.exp (r.m - max r.m (tileMax s)) * r.l + ∑ k : Fin n, Ideal.exp (s k - max r.m (tileMax s))) = _
    rw [hM', hL, e1, ← EReal.coe_sub, exp_coe, ← EReal.coe_add, ← EReal.coe_mul]
  · show Ideal.exp (max r.m (tileMax s) - (M : EReal))
        * (Ideal.exp (r.m - max r.m (tileMax s)) * r.a
            + ∑ k : Fin n, Ideal.exp (s k - max r.m (tileMax s)) * w k) = _
    rw [hM', hA, e2, ← EReal.coe_sub, exp_coe, ← EReal.coe_add, ← EReal.coe_mul]

/-- The state after `j` tiles, rescaled to any real shift `M`, is the real sum over those tiles shifted by `M`. -/
theorem online_scaled {T n : ℕ} (hn : 0 < n) (s w : Fin T → Fin n → EReal) (σ ω : Fin T → Fin n → ℝ)
    (hσ : ∀ i k, s i k = (σ i k : EReal)) (hω : ∀ i k, w i k = (ω i k : EReal)) :
    ∀ (j : ℕ) (hj : j ≤ T) (M : ℝ),
      Ideal.exp ((online s w j hj).m - (M : EReal)) * (online s w j hj).l = ((partL σ j hj M : ℝ) : EReal)
        ∧ Ideal.exp ((online s w j hj).m - (M : EReal)) * (online s w j hj).a = ((partA σ ω j hj M : ℝ) : EReal)
  | 0, _, M => by
    have h0 : Ideal.exp ((⊥ : EReal) - (M : EReal)) * 0 = ((0 : ℝ) : EReal) := by
      rw [EReal.bot_sub, exp_bot, mul_zero]
      rfl
    refine ⟨?_, ?_⟩
    · show Ideal.exp ((⊥ : EReal) - (M : EReal)) * 0 = _
      rw [h0]
      simp [partL]
    · show Ideal.exp ((⊥ : EReal) - (M : EReal)) * 0 = _
      rw [h0]
      simp [partA]
  | j + 1, hj, M => by
    have hs : ∀ i k, IsReal (s i k) := fun i k => ⟨_, hσ i k⟩
    have hw : ∀ i k, IsReal (w i k) := fun i k => ⟨_, hω i k⟩
    obtain ⟨hm, hl, _, _⟩ := online_inv hn s w hs hw j (Nat.le_of_succ_le hj)
    obtain ⟨M', hM'⟩ : IsReal (max (online s w j (Nat.le_of_succ_le hj)).m (tileMax (s ⟨j, hj⟩))) :=
      (tile_step hn (s ⟨j, hj⟩) (hs ⟨j, hj⟩) hm hl).1
    obtain ⟨ihl, iha⟩ := online_scaled hn s w σ ω hσ hω j (Nat.le_of_succ_le hj) M'
    have h := step_scaled (s ⟨j, hj⟩) (w ⟨j, hj⟩) (σ ⟨j, hj⟩) (ω ⟨j, hj⟩) (hσ _) (hω _)
      (online s w j (Nat.le_of_succ_le hj)) M' hM' _ _ ihl iha M
    refine ⟨h.1.trans (congrArg Real.toEReal ?_), h.2.trans (congrArg Real.toEReal ?_)⟩
    · rw [← partL_shift σ (j + 1) hj M' M, partL_succ]
    · rw [← partA_shift σ ω (j + 1) hj M' M, partA_succ]

/-! ## The running maximum is the maximum of everything seen -/

theorem online_m_le {T n : ℕ} (s w : Fin T → Fin n → EReal) (B : EReal) (hB : ∀ i k, s i k ≤ B) :
    ∀ (j : ℕ) (hj : j ≤ T), (online s w j hj).m ≤ B
  | 0, _ => bot_le
  | j + 1, hj =>
    max_le (online_m_le s w B hB j (Nat.le_of_succ_le hj))
      ((Finset.fold_max_le _).mpr ⟨bot_le, fun k _ => hB ⟨j, hj⟩ k⟩)

theorem le_online_m {T n : ℕ} (s w : Fin T → Fin n → EReal) :
    ∀ (j : ℕ) (hj : j ≤ T) (i : Fin T), i.val < j → ∀ k, s i k ≤ (online s w j hj).m
  | 0, _, _, hi, _ => absurd hi (Nat.not_lt_zero _)
  | j + 1, hj, i, hi, k => by
    rcases Nat.lt_succ_iff_lt_or_eq.mp hi with h | h
    · exact le_trans (le_online_m s w j (Nat.le_of_succ_le hj) i h k) (le_max_left _ _)
    · have hij : i = ⟨j, hj⟩ := Fin.ext h
      rw [hij]
      exact le_trans ((Finset.le_fold_max (s ⟨j, hj⟩ k)).mpr (Or.inr ⟨k, Finset.mem_univ _, le_refl _⟩))
        (le_max_right _ _)

/-- The maximum over the flat key index is the running maximum after the last tile. -/
theorem fold_flat_eq {T n : ℕ} (S : Fin (T * n) → EReal) (w : Fin T → Fin n → EReal) :
    (Finset.univ : Finset (Fin (T * n))).fold max ⊥ S
      = (online (fun j k => S (finProdFinEquiv (j, k))) w T le_rfl).m := by
  apply le_antisymm
  · refine (Finset.fold_max_le _).mpr ⟨bot_le, fun q _ => ?_⟩
    have hq : S q = (fun j k => S (finProdFinEquiv (j, k))) (finProdFinEquiv.symm q).1 (finProdFinEquiv.symm q).2 := by
      show S q = S (finProdFinEquiv ((finProdFinEquiv.symm q).1, (finProdFinEquiv.symm q).2))
      rw [Prod.mk.eta, Equiv.apply_symm_apply]
    rw [hq]
    exact le_online_m (fun j k => S (finProdFinEquiv (j, k))) w T le_rfl (finProdFinEquiv.symm q).1
      (finProdFinEquiv.symm q).1.isLt (finProdFinEquiv.symm q).2
  · exact online_m_le _ w _ (fun i k =>
      (Finset.le_fold_max (S (finProdFinEquiv (i, k)))).mpr (Or.inr ⟨_, Finset.mem_univ _, le_refl _⟩)) T le_rfl

/-! ## Sums over the flat key index -/

theorem flat_sum {T n : ℕ} (g : Fin (T * n) → ℝ) :
    ∑ i : Fin T, ∑ k : Fin n, g (finProdFinEquiv (Fin.castLE (le_refl T) i, k)) = ∑ q : Fin (T * n), g q := by
  rw [← Equiv.sum_comp finProdFinEquiv g, Fintype.sum_prod_type]
  rfl

/-! ## The law -/

/-- The quotient after the last tile is the softmax-weighted sum over the flat key index. -/
theorem online_eq_soft {T n : ℕ} (hT : 0 < T) (hn : 0 < n) (S W : Fin (T * n) → EReal)
    (hS : ∀ q, Cert.Scores.IsReal (S q)) (hW : ∀ q, Cert.Scores.IsReal (W q)) :
    Ideal.div (online (fun j k => S (finProdFinEquiv (j, k))) (fun j k => W (finProdFinEquiv (j, k))) T le_rfl).a
              (online (fun j k => S (finProdFinEquiv (j, k))) (fun j k => W (finProdFinEquiv (j, k))) T le_rfl).l
      = ∑ q : Fin (T * n), Ideal.div (Ideal.exp (S q - (Finset.univ : Finset (Fin (T * n))).fold max ⊥ S))
                                     (∑ q' : Fin (T * n), Ideal.exp (S q' - (Finset.univ : Finset (Fin (T * n))).fold max ⊥ S)) * W q := by
  choose σ' hσ' using hS
  choose ω' hω' using hW
  have hσ : ∀ (i : Fin T) (k : Fin n), (fun j k => S (finProdFinEquiv (j, k))) i k
      = (((fun j k => σ' (finProdFinEquiv (j, k))) i k : ℝ) : EReal) := fun i k => hσ' _
  have hω : ∀ (i : Fin T) (k : Fin n), (fun j k => W (finProdFinEquiv (j, k))) i k
      = (((fun j k => ω' (finProdFinEquiv (j, k))) i k : ℝ) : EReal) := fun i k => hω' _
  obtain ⟨⟨M, hM⟩, ⟨L, hL, hLpos⟩, _⟩ := online_real hn _ _ (fun i k => ⟨_, hσ i k⟩) (fun i k => ⟨_, hω i k⟩) T le_rfl hT
  obtain ⟨e1, e2⟩ := online_scaled hn _ _ _ _ hσ hω T le_rfl M
  rw [hM, ← EReal.coe_sub, sub_self, exp_coe, Real.exp_zero, EReal.coe_one, one_mul] at e1 e2
  have hfold := (fold_flat_eq S (fun j k => W (finProdFinEquiv (j, k)))).trans hM
  have hx : ∀ q, Ideal.exp (S q - (M : EReal)) = ((Real.exp (σ' q - M) : ℝ) : EReal) := fun q => by
    rw [hσ' q, ← EReal.coe_sub, exp_coe]
  have hLflat : partL (fun j k => σ' (finProdFinEquiv (j, k))) T le_rfl M = ∑ q : Fin (T * n), Real.exp (σ' q - M) :=
    flat_sum (fun q => Real.exp (σ' q - M))
  have hAflat : partA (fun j k => σ' (finProdFinEquiv (j, k))) (fun j k => ω' (finProdFinEquiv (j, k))) T le_rfl M
      = ∑ q : Fin (T * n), Real.exp (σ' q - M) * ω' q :=
    flat_sum (fun q => Real.exp (σ' q - M) * ω' q)
  have hLeq : partL (fun j k => σ' (finProdFinEquiv (j, k))) T le_rfl M = L :=
    EReal.coe_eq_coe_iff.mp (e1.symm.trans hL)
  have hsum : ∑ q' : Fin (T * n), Ideal.exp (S q' - (M : EReal)) = (L : EReal) := by
    rw [← hLeq, hLflat, coe_sum]
    exact Finset.sum_congr rfl fun q _ => hx q
  have hne : L ≠ 0 := ne_of_gt hLpos
  rw [hfold, hsum, e2, hL, Ideal.div_coe hne, ← EReal.coe_mul]
  have hterm : ∀ q : Fin (T * n), Ideal.div (Ideal.exp (S q - (M : EReal))) (L : EReal) * W q
      = ((Real.exp (σ' q - M) * (1 / L) * ω' q : ℝ) : EReal) := fun q => by
    rw [Ideal.div_coe hne, hx q, hω' q, ← EReal.coe_mul, ← EReal.coe_mul]
  rw [Finset.sum_congr rfl fun q _ => hterm q, ← coe_sum]
  refine congrArg Real.toEReal ?_
  rw [hAflat, Finset.sum_mul]
  exact Finset.sum_congr rfl fun q _ => by ring

end Cert.Gat

end
-- ==== Proof.Value.Region1.lean ====
/-
  The attention region's output array.

  Fix a node `R` (row `r` of row block `i`) and an output column.  After the point of key tile `j` of row block
  `i` the three carried numbers of the row are the row recurrence run over tiles `0 … j` of the whole arrays: at
  tile 0 the point starts from the reset values, at every later tile from what the point before left, and the
  blocks a point is handed are the corresponding pieces of the arrays.  At the last tile the stored output entry is
  the exponential linear unit of the quotient of the two sums, and the eight row blocks fill the array.
-/
import proofs.«151817_j31731218382937_2_alg».proof.Proof.KernelIdeal.R1Body
import proofs.«151817_j31731218382937_2_alg».proof.Proof.Value.Step
import proofs.«151817_j31731218382937_2_alg».proof.Proof.Value.Ix
import proofs.«151817_j31731218382937_2_alg».proof.Proof.Value.Tiles
import proofs.«151817_j31731218382937_2_alg».proof.Proof.Value.Region1Blocks
import proofs.«151817_j31731218382937_2_alg».proof.Proof.Math.Online

noncomputable section

namespace Cert.KernelIdeal.HandValue

open Idealize.ShloMosaic Idealize.ShloMosaic.TcCoe Idealize.ShloMosaic.ValueIdx
open Cert.KernelIdeal Cert.KernelIdeal.Gen Cert.KernelIdeal.Hand

variable (V : (c : Dev nD) → (b : Ref sig .tc) → Buf (Elt Ideal) ((c : Thread nD τ).loc b))

/-- The carried buffers at equal positions are equal. -/
theorem stateAt1_congr (c : Dev nD) {n n' : ℕ} (e : n = n') (hn : n < cfg1.N) (hn' : n' < cfg1.N) :
    stateAt1 V c n hn = stateAt1 V c n' hn' := by subst e; rfl

/-- The scores a point computes for row `r` are the row's scores against the point's key tile. -/
theorem tileScores_at (c : Dev nD) (t : Fin cfg1.N) (r : Fin 1024) (jb : Fin 8) (hj : t.val % 8 = jb.val) :
    tileScores (iblk1 V c 1 t) (iblk1 V c 2 t) (iblk1 V c 3 t) r = sAll V c (rowIx t r) jb := by
  funext k
  have e : keyIx t k = tileIx jb k := Fin.ext (by rw [keyIx_val, tileIx_val, hj])
  unfold tileScores sAll
  rw [blk1_2_apply, blk1_3_apply, blk1_1_apply, e]

/-- The weights a point uses for column `cc` are that column of the point's key tile. -/
theorem tileWeights_at (c : Dev nD) (t : Fin cfg1.N) (cc : Fin 256) (jb : Fin 8) (hj : t.val % 8 = jb.val) :
    (fun k : Fin 1024 => iblk1 V c 0 t (ix2 k cc)) = wAll V c cc jb := by
  funext k
  have e : keyIx t k = tileIx jb k := Fin.ext (by rw [keyIx_val, tileIx_val, hj])
  unfold wAll
  rw [blk1_0_apply, e]

/-- THE INVARIANT: after the point of key tile `j` of row block `i`, row `r` and column `cc` hold the row
    recurrence over tiles `0 … j`. -/
theorem row_inv (c : Dev nD) (i : ℕ) (hi : i < 8) (r : Fin 1024) (cc : Fin 256) :
    ∀ (j : ℕ) (hj : j < 8) (h : 8 * i + j < cfg1.N),
      rowOf (stateAt1 V c (8 * i + j) h) r cc
        = Cert.Gat.online (sAll V c (⟨1024 * i + r.val, by have := r.isLt; omega⟩ : Fin 8192)) (wAll V c cc) (j + 1) (by omega) := by
  intro j
  induction j with
  | zero =>
    intro hj h
    have h0 : (⟨8 * i + 0, h⟩ : Fin cfg1.N).val % 8 = 0 := by show (8 * i + 0) % 8 = 0; omega
    have hR : rowIx ⟨8 * i + 0, h⟩ r = (⟨1024 * i + r.val, by have := r.isLt; omega⟩ : Fin 8192) :=
      Fin.ext (by rw [rowIx_val]; show 1024 * ((8 * i + 0) / 8) + r.val = 1024 * i + r.val; omega)
    rw [show stateAt1 V c (8 * i + 0) h = _ from stateAt1_first V c ⟨8 * i + 0, h⟩ h0, rowOf_step, rowOf_init,
      Cert.Gat.online_succ, tileScores_at V c ⟨8 * i + 0, h⟩ r ⟨0, by omega⟩ h0,
      tileWeights_at V c ⟨8 * i + 0, h⟩ cc ⟨0, by omega⟩ h0, hR]
    rfl
  | succ j ih =>
    intro hj h
    have hne : ¬ (⟨8 * i + (j + 1), h⟩ : Fin cfg1.N).val % 8 = 0 := by show ¬ (8 * i + (j + 1)) % 8 = 0; omega
    have hm : (⟨8 * i + (j + 1), h⟩ : Fin cfg1.N).val % 8 = (⟨j + 1, hj⟩ : Fin 8).val := by
      show (8 * i + (j + 1)) % 8 = j + 1; omega
    have hR : rowIx ⟨8 * i + (j + 1), h⟩ r = (⟨1024 * i + r.val, by have := r.isLt; omega⟩ : Fin 8192) :=
      Fin.ext (by rw [rowIx_val]; show 1024 * ((8 * i + (j + 1)) / 8) + r.val = 1024 * i + r.val; omega)
    have hprev : 8 * i + j < cfg1.N := by omega
    have e : (⟨8 * i + (j + 1), h⟩ : Fin cfg1.N).val - 1 = 8 * i + j := by show 8 * i + (j + 1) - 1 = 8 * i + j; omega
    rw [Cert.Gat.online_succ (sAll V c (⟨1024 * i + r.val, by have := r.isLt; omega⟩ : Fin 8192)) (wAll V c cc) (j + 1) (by omega)]
    rw [show stateAt1 V c (8 * i + (j + 1)) h = _ from stateAt1_later V c ⟨8 * i + (j + 1), h⟩ hne, rowOf_step,
      stateAt1_congr V c e _ hprev, ih (by omega) hprev,
      tileScores_at V c ⟨8 * i + (j + 1), h⟩ r ⟨j + 1, hj⟩ hm, tileWeights_at V c ⟨8 * i + (j + 1), h⟩ cc ⟨j + 1, hj⟩ hm, hR]

/-- THE OUTPUT ARRAY after the region. -/
theorem final1 (c : Dev nD) : (dat1 V c).arrAt 4 cfg1.N = kernelOut V c :=
  final1_of V c (kernelOut V c) (fun t ht r cc => by
    have hN : t.val < 64 := lt_of_lt_of_eq t.isLt (show cfg1.N = 64 from N_1)
    have ht' : t.val = 8 * (t.val / 8) + 7 := by omega
    have hlt : 8 * (t.val / 8) + 7 < cfg1.N := by rw [← ht']; exact t.isLt
    rw [out1_apply, kernelOut_apply, stateAt1_congr V c ht' t.isLt hlt,
      row_inv V c (t.val / 8) (by omega) r cc 7 (by omega) hlt]
    rfl)

end Cert.KernelIdeal.HandValue

end
-- ==== Proof.Value.Region0.lean ====
/-
  What the projection kernel leaves in its three output arrays, index by index over the extended reals: the projected
  features `sum_k h i k * W k c` of every node, and each node's two logits, the projected features against the first
  and the second half of the attention vector.

  Each grid point writes back a block of 1024 nodes; the 8 blocks tile the arrays, and each block is the block of one
  function of the whole input arrays.
-/
import proofs.«151817_j31731218382937_2_alg».proof.Proof.KernelIdeal.R0Body
import proofs.«151817_j31731218382937_2_alg».proof.Proof.GatSpec
import proofs.«151817_j31731218382937_2_alg».proof.Proof.LibColumn
import proofs.«151817_j31731218382937_2_alg».proof.Proof.LibLaneSum
import proofs.«151817_j31731218382937_2_alg».proof.Proof.LibPlainDot
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open scoped BigOperators

variable (V : (c : Dev nD) → (b : Ref sig .tc) → Buf (Elt Ideal) ((c : Thread nD τ).loc b))

/-! ## The body's stores at an index of the block -/

/-- The block's projected features at row `r`, column `cc`: the row of the feature block against the column of the weights. -/
theorem proj_apply (x0 : Vec Ideal S1024x512 .f32) (x1 : Vec Ideal S512x256 .f32) (r : Fin 1024) (cc : Fin 256) :
    k0_pay1 (F := Ideal) x0 x1 (ix2 r cc) = ∑ k : Fin 512, x0 (ix2 r k) * x1 (ix2 k cc) := by
  unfold k0_pay1
  refine (Cert.PlainDot.matmul_zero_apply (M := 1024) (K := 512) (N := 256) dot_S1024x512_S512x256_S1024x256_1_0_0_1_n_n rfl none
    (truncf .bf16 x0 bitsLt_bf16_f32 : FVec Ideal S1024x512 .bf16) (truncf .bf16 x1 bitsLt_bf16_f32 : FVec Ideal S512x256 .bf16) r cc).trans ?_
  rfl

/-- What is stored of them is themselves: rounding is the identity over the extended reals. -/
theorem projStored_apply (x0 : Vec Ideal S1024x512 .f32) (x1 : Vec Ideal S512x256 .f32) (r : Fin 1024) (cc : Fin 256) :
    k0_pay2 (F := Ideal) x0 x1 (ix2 r cc) = k0_pay1 (F := Ideal) x0 x1 (ix2 r cc) := rfl

/-- The block's query logit of row `r`: the row's projected features against the half of the attention vector. -/
theorem queryLogit_apply (x0 : Vec Ideal S1024x512 .f32) (x1 : Vec Ideal S512x256 .f32) (x2 : Vec Ideal S1x256 .f32) (r : Fin 1024) :
    k0_pay3 (F := Ideal) x0 x1 x2 (ix2 r (0 : Fin 1))
      = ∑ cc : Fin 256, k0_pay1 (F := Ideal) x0 x1 (ix2 r cc) * x2 (ix2 (0 : Fin 1) cc) := by
  unfold k0_pay3
  refine (Cert.GraphConv.Column.shapeCast_a_a1_apply _ _ r (0 : Fin 1)).trans ?_
  refine (Cert.LaneSum.sum_last2 _ _ _ _ _ r).trans ?_
  refine Finset.sum_congr rfl fun cc _ => ?_
  show k0_pay1 (F := Ideal) x0 x1 (ix2 r cc)
      * broadcastTo S1024x256 (shapeCast S1x256 x2 shapeCasts_S1x256_S1x256) broadcasts_S1x256_S1024x256 (ix2 r cc) = _
  rw [shapeCast_self]
  exact congrArg (fun z => k0_pay1 (F := Ideal) x0 x1 (ix2 r cc) * z) (broadcastTo_1b_ab_apply x2 _ r cc)

/-- The block's key logit of row `r`, laid down in a row: the same sum against the other half. -/
theorem keyLogit_apply (x0 : Vec Ideal S1024x512 .f32) (x1 : Vec Ideal S512x256 .f32) (x3 : Vec Ideal S1x256 .f32) (r : Fin 1024) :
    k0_pay4 (F := Ideal) x0 x1 x3 (ix2 (0 : Fin 1) r)
      = ∑ cc : Fin 256, k0_pay1 (F := Ideal) x0 x1 (ix2 r cc) * x3 (ix2 (0 : Fin 1) cc) := by
  unfold k0_pay4
  refine (transpose_ix2_apply (a := 1024) (b := 1) _ transposes_S1024x1_p1_0_S1x1024 (0 : Fin 1) r).trans ?_
  exact queryLogit_apply x0 x1 x3 r

/-! ## Where each window's block sits in its array -/

/-- The printed index maps over the grid: the feature block and the three output blocks move with the point, along the
    node axis; the weights and the two halves of the attention vector stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = t.val :=
  (by decide +kernel : ∀ t : Fin grid0.N, _)

/-- The grid has 8 points. -/
theorem point_lt (t : Fin cfg0.N) : t.val < 8 := by
  have h : t.val < grid0.N := t.isLt
  rw [N_0] at h; exact h

/-- Row `r` of the block at point `t` is node `1024 t + r`. -/
def nodeOf (t : Fin cfg0.N) (r : Fin 1024) : Fin 8192 :=
  ⟨t.val * 1024 + r.val, by have := point_lt t; have := r.isLt; omega⟩

/-- The feature block at point `t` holds the features of the block's nodes. -/
theorem blk0_0_apply (c : Dev nD) (t : Fin cfg0.N) (r : Fin 1024) (k : Fin 512) :
    (iblk0 V c 0 t : Vec Ideal S1024x512 .f32) (ix2 r k) = (V c main_arg0 : S8192x512.Idx → EReal) (ix2 (nodeOf t r) k) := by
  show V c main_arg0 (((cfg0.win 0).blk t).view.emb (ix2 r k)) = _
  refine congrArg (V c main_arg0) (funext fun a => Fin.ext ?_)
  obtain ⟨e0, e1, -⟩ := idx_facts0 t
  match a with
  | ⟨0, _⟩ => show win0_0.index t (0 : Fin 2) * 1024 + 1 * r.val = t.val * 1024 + r.val; omega
  | ⟨1, _⟩ => show win0_0.index t (1 : Fin 2) * 512 + 1 * k.val = k.val; omega

/-- The weights' block is the weights, at every point. -/
theorem blk0_1_apply (c : Dev nD) (t : Fin cfg0.N) (k : Fin 512) (cc : Fin 256) :
    (iblk0 V c 1 t : Vec Ideal S512x256 .f32) (ix2 k cc) = (V c main_arg2 : S512x256.Idx → EReal) (ix2 k cc) := by
  show V c main_arg2 (((cfg0.win 1).blk t).view.emb (ix2 k cc)) = _
  refine congrArg (V c main_arg2) (funext fun a => Fin.ext ?_)
  obtain ⟨-, -, e0, e1, -⟩ := idx_facts0 t
  match a with
  | ⟨0, _⟩ => show win0_1.index t (0 : Fin 2) * 512 + 1 * k.val = k.val; omega
  | ⟨1, _⟩ => show win0_1.index t (1 : Fin 2) * 256 + 1 * cc.val = cc.val; omega

/-- The first half of the attention vector's block is that half, at every point. -/
theorem blk0_2_apply (c : Dev nD) (t : Fin cfg0.N) (cc : Fin 256) :
    (iblk0 V c 2 t : Vec Ideal S1x256 .f32) (ix2 (0 : Fin 1) cc) = (V c main_v1 : S1x256.Idx → EReal) (ix2 (0 : Fin 1) cc) := by
  show V c main_v1 (((cfg0.win 2).blk t).view.emb (ix2 (0 : Fin 1) cc)) = _
  refine congrArg (V c main_v1) (funext fun a => Fin.ext ?_)
  obtain ⟨-, -, -, -, e0, e1, -⟩ := idx_facts0 t
  match a with
  | ⟨0, _⟩ => show win0_2.index t (0 : Fin 2) * 1 + 1 * 0 = 0; omega
  | ⟨1, _⟩ => show win0_2.index t (1 : Fin 2) * 256 + 1 * cc.val = cc.val; omega

/-- The second half's block is that half, at every point. -/
theorem blk0_3_apply (c : Dev nD) (t : Fin cfg0.N) (cc : Fin 256) :
    (iblk0 V c 3 t : Vec Ideal S1x256 .f32) (ix2 (0 : Fin 1) cc) = (V c main_v3 : S1x256.Idx → EReal) (ix2 (0 : Fin 1) cc) := by
  show V c main_v3 (((cfg0.win 3).blk t).view.emb (ix2 (0 : Fin 1) cc)) = _
  refine congrArg (V c main_v3) (funext fun a => Fin.ext ?_)
  obtain ⟨-, -, -, -, -, -, e0, e1, -⟩ := idx_facts0 t
  match a with
  | ⟨0, _⟩ => show win0_3.index t (0 : Fin 2) * 1 + 1 * 0 = 0; omega
  | ⟨1, _⟩ => show win0_3.index t (1 : Fin 2) * 256 + 1 * cc.val = cc.val; omega

/-! ## The three output arrays as functions of the input arrays -/

/-- The projected features of every node. -/
def whArr (h : S8192x512.Idx → EReal) (W : S512x256.Idx → EReal) : S8192x256.Idx → EReal :=
  fun y => Cert.Gat.wh h W (y 0) (y 1)

/-- Every node's projected features against a row of 256 numbers, as a column. -/
def logitCol (h : S8192x512.Idx → EReal) (W : S512x256.Idx → EReal) (a : S1x256.Idx → EReal) : S8192x1.Idx → EReal :=
  fun y => ∑ cc : Fin 256, Cert.Gat.wh h W (y 0) cc * a (ix2 (0 : Fin 1) cc)

/-- The same, as a row. -/
def logitRow (h : S8192x512.Idx → EReal) (W : S512x256.Idx → EReal) (a : S1x256.Idx → EReal) : S1x8192.Idx → EReal :=
  fun y => ∑ cc : Fin 256, Cert.Gat.wh h W (y 1) cc * a (ix2 (0 : Fin 1) cc)

/-! ## A block's stores are the block of those functions -/

/-- A block whose row `r` holds node `i`'s features, against the weights, has node `i`'s projected features in row `r`. -/
theorem proj_block (h : S8192x512.Idx → EReal) (W : S512x256.Idx → EReal)
    (x0 : Vec Ideal S1024x512 .f32) (x1 : Vec Ideal S512x256 .f32) (i : Fin 8192) (r : Fin 1024)
    (hx0 : ∀ k : Fin 512, x0 (ix2 r k) = h (ix2 i k))
    (hx1 : ∀ (k : Fin 512) (cc : Fin 256), x1 (ix2 k cc) = W (ix2 k cc)) (cc : Fin 256) :
    k0_pay1 (F := Ideal) x0 x1 (ix2 r cc) = Cert.Gat.wh h W i cc := by
  refine (proj_apply x0 x1 r cc).trans ?_
  unfold Cert.Gat.wh
  exact Finset.sum_congr rfl fun k _ => by rw [hx0 k, hx1 k cc]

/-- And its logit of row `r`, against a row of 256 numbers, is node `i`'s. -/
theorem logit_block (h : S8192x512.Idx → EReal) (W : S512x256.Idx → EReal) (a : S1x256.Idx → EReal)
    (x0 : Vec Ideal S1024x512 .f32) (x1 : Vec Ideal S512x256 .f32) (x2 : Vec Ideal S1x256 .f32) (i : Fin 8192) (r : Fin 1024)
    (hx0 : ∀ k : Fin 512, x0 (ix2 r k) = h (ix2 i k))
    (hx1 : ∀ (k : Fin 512) (cc : Fin 256), x1 (ix2 k cc) = W (ix2 k cc))
    (hx2 : ∀ cc : Fin 256, x2 (ix2 (0 : Fin 1) cc) = a (ix2 (0 : Fin 1) cc)) :
    ∑ cc : Fin 256, k0_pay1 (F := Ideal) x0 x1 (ix2 r cc) * x2 (ix2 (0 : Fin 1) cc)
      = ∑ cc : Fin 256, Cert.Gat.wh h W i cc * a (ix2 (0 : Fin 1) cc) :=
  Finset.sum_congr rfl fun cc _ => by rw [proj_block h W x0 x1 i r hx0 hx1 cc, hx2 cc]

/-! ## What each point writes back is its block of those functions -/

/-- Where the projected features' block at point `t` sits. -/
theorem emb0_4 (t : Fin cfg0.N) (r : Fin 1024) (cc : Fin 256) :
    ((cfg0.win 4).blk t).view.emb (ix2 r cc) = (ix2 (nodeOf t r) cc : S8192x256.Idx) := by
  funext a; apply Fin.ext
  obtain ⟨-, -, -, -, -, -, -, -, e0, e1, -⟩ := idx_facts0 t
  match a with
  | ⟨0, _⟩ => show win0_4.index t (0 : Fin 2) * 1024 + 1 * r.val = t.val * 1024 + r.val; omega
  | ⟨1, _⟩ => show win0_4.index t (1 : Fin 2) * 256 + 1 * cc.val = cc.val; omega

/-- Where the query logits' block sits. -/
theorem emb0_5 (t : Fin cfg0.N) (r : Fin 1024) :
    ((cfg0.win 5).blk t).view.emb (ix2 r (0 : Fin 1)) = (ix2 (nodeOf t r) (0 : Fin 1) : S8192x1.Idx) := by
  funext a; apply Fin.ext
  obtain ⟨-, -, -, -, -, -, -, -, -, -, e0, e1, -⟩ := idx_facts0 t
  match a with
  | ⟨0, _⟩ => show win0_5.index t (0 : Fin 2) * 1024 + 1 * r.val = t.val * 1024 + r.val; omega
  | ⟨1, _⟩ => show win0_5.index t (1 : Fin 2) * 1 + 1 * 0 = 0; omega

/-- Where the key logits' block sits. -/
theorem emb0_6 (t : Fin cfg0.N) (r : Fin 1024) :
    ((cfg0.win 6).blk t).view.emb (ix2 (0 : Fin 1) r) = (ix2 (0 : Fin 1) (nodeOf t r) : S1x8192.Idx) := by
  funext a; apply Fin.ext
  obtain ⟨-, -, -, -, -, -, -, -, -, -, -, -, e0, e1⟩ := idx_facts0 t
  match a with
  | ⟨0, _⟩ => show win0_6.index t (0 : Fin 2) * 1 + 1 * 0 = 0; omega
  | ⟨1, _⟩ => show win0_6.index t (1 : Fin 2) * 1024 + 1 * r.val = t.val * 1024 + r.val; omega

theorem flushed0_4_eq (c : Dev nD) (t : Fin cfg0.N) :
    (dat0 V c).flushed 4 t = ((cfg0.win 4).blk t).view.read (Elt Ideal) (whArr (V c main_arg0) (V c main_arg2)) := by
  show (cfg0.win 4).cut (grid0.coords t) ((dat0 V c).after 4 t) = _
  rw [after0_4, out0_4_eq]
  funext y
  obtain ⟨r, cc, rfl⟩ : ∃ (r : Fin 1024) (cc : Fin 256), y = ix2 r cc := ⟨y 0, y 1, eq_ix2 (n0 := 1024) (n1 := 256) y⟩
  show k0_pay1 (F := Ideal) (iblk0 V c 0 t) (iblk0 V c 1 t) (ix2 r cc)
    = whArr (V c main_arg0) (V c main_arg2) (((cfg0.win 4).blk t).view.emb (ix2 r cc))
  refine Eq.trans ?_ (congrArg (whArr (V c main_arg0) (V c main_arg2)) (emb0_4 t r cc)).symm
  exact proj_block (V c main_arg0) (V c main_arg2) (iblk0 V c 0 t) (iblk0 V c 1 t) (nodeOf t r) r
    (fun k => blk0_0_apply V c t r k) (fun k cc => blk0_1_apply V c t k cc) cc

theorem flushed0_5_eq (c : Dev nD) (t : Fin cfg0.N) :
    (dat0 V c).flushed 5 t
      = ((cfg0.win 5).blk t).view.read (Elt Ideal) (logitCol (V c main_arg0) (V c main_arg2) (V c main_v1)) := by
  show (cfg0.win 5).cut (grid0.coords t) ((dat0 V c).after 5 t) = _
  rw [after0_5, out0_5_eq]
  funext y
  obtain ⟨r, u, rfl⟩ : ∃ (r : Fin 1024) (u : Fin 1), y = ix2 r u := ⟨y 0, y 1, eq_ix2 (n0 := 1024) (n1 := 1) y⟩
  obtain rfl : u = 0 := Subsingleton.elim _ _
  show k0_pay3 (F := Ideal) (iblk0 V c 0 t) (iblk0 V c 1 t) (iblk0 V c 2 t) (ix2 r (0 : Fin 1))
    = logitCol (V c main_arg0) (V c main_arg2) (V c main_v1) (((cfg0.win 5).blk t).view.emb (ix2 r (0 : Fin 1)))
  refine Eq.trans ?_ (congrArg (logitCol (V c main_arg0) (V c main_arg2) (V c main_v1)) (emb0_5 t r)).symm
  refine (queryLogit_apply (iblk0 V c 0 t) (iblk0 V c 1 t) (iblk0 V c 2 t) r).trans ?_
  exact logit_block (V c main_arg0) (V c main_arg2) (V c main_v1) (iblk0 V c 0 t) (iblk0 V c 1 t) (iblk0 V c 2 t) (nodeOf t r) r
    (fun k => blk0_0_apply V c t r k) (fun k cc => blk0_1_apply V c t k cc) (fun cc => blk0_2_apply V c t cc)

theorem flushed0_6_eq (c : Dev nD) (t : Fin cfg0.N) :
    (dat0 V c).flushed 6 t
      = ((cfg0.win 6).blk t).view.read (Elt Ideal) (logitRow (V c main_arg0) (V c main_arg2) (V c main_v3)) := by
  show (cfg0.win 6).cut (grid0.coords t) ((dat0 V c).after 6 t) = _
  rw [after0_6, out0_6_eq]
  funext y
  obtain ⟨u, r, rfl⟩ : ∃ (u : Fin 1) (r : Fin 1024), y = ix2 u r := ⟨y 0, y 1, eq_ix2 (n0 := 1) (n1 := 1024) y⟩
  obtain rfl : u = 0 := Subsingleton.elim _ _
  show k0_pay4 (F := Ideal) (iblk0 V c 0 t) (iblk0 V c 1 t) (iblk0 V c 3 t) (ix2 (0 : Fin 1) r)
    = logitRow (V c main_arg0) (V c main_arg2) (V c main_v3) (((cfg0.win 6).blk t).view.emb (ix2 (0 : Fin 1) r))
  refine Eq.trans ?_ (congrArg (logitRow (V c main_arg0) (V c main_arg2) (V c main_v3)) (emb0_6 t r)).symm
  refine (keyLogit_apply (iblk0 V c 0 t) (iblk0 V c 1 t) (iblk0 V c 3 t) r).trans ?_
  exact logit_block (V c main_arg0) (V c main_arg2) (V c main_v3) (iblk0 V c 0 t) (iblk0 V c 1 t) (iblk0 V c 3 t) (nodeOf t r) r
    (fun k => blk0_0_apply V c t r k) (fun k cc => blk0_1_apply V c t k cc) (fun cc => blk0_3_apply V c t cc)

/-! ## The blocks tile the arrays -/

/-- An index of the array is in point `t`'s block iff each coordinate is in the block's range on its axis. -/
theorem mem_blk0_4 (t : Fin cfg0.N) (i : S8192x256.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v4_0).slice (win0_4.rect t)).set ↔ _
  rw [View.set_slice_whole, Rect.mem_set_unit]
  exact Iff.rfl

theorem mem_blk0_5 (t : Fin cfg0.N) (i : S8192x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v4_1).slice (win0_5.rect t)).set ↔ _
  rw [View.set_slice_whole, Rect.mem_set_unit]
  exact Iff.rfl

theorem mem_blk0_6 (t : Fin cfg0.N) (i : S1x8192.Idx) :
    i ∈ ((cfg0.win 6).blk t).view.set ↔ ∀ a : Fin 2, win0_6.index t a * S1x1024.size a ≤ (i a).val
      ∧ (i a).val < win0_6.index t a * S1x1024.size a + S1x1024.size a := by
  show i ∈ ((View.whole main_v4_2).slice (win0_6.rect t)).set ↔ _
  rw [View.set_slice_whole, Rect.mem_set_unit]
  exact Iff.rfl

/-- The point whose block holds node `n`. -/
def pointOf (n : ℕ) (hn : n < 8192) : Fin cfg0.N := ⟨n / 1024, by rw [show cfg0.N = 8 from N_0]; omega⟩

/-- Every index of the projected features' array is in the block of the point that holds its node. -/
theorem covered0_4 (i : S8192x256.Idx) :
    ∃ t : Fin cfg0.N, (cfg0.win 4).flush t = true ∧ i ∈ ((cfg0.win 4).blk t).view.set := by
  have hi0 : (i 0).val < 8192 := (i 0).isLt
  have hi1 : (i 1).val < 256 := (i 1).isLt
  obtain ⟨-, -, -, -, -, -, -, -, e0, e1, -⟩ := idx_facts0 (pointOf (i 0).val hi0)
  have ht : (pointOf (i 0).val hi0).val = (i 0).val / 1024 := rfl
  refine ⟨pointOf (i 0).val hi0, flush0_4 _, ?_⟩
  rw [mem_blk0_4]
  intro a
  match a with
  | ⟨0, _⟩ =>
    show win0_4.index (pointOf (i 0).val hi0) (0 : Fin 2) * 1024 ≤ (i 0).val
      ∧ (i 0).val < win0_4.index (pointOf (i 0).val hi0) (0 : Fin 2) * 1024 + 1024
    omega
  | ⟨1, _⟩ =>
    show win0_4.index (pointOf (i 0).val hi0) (1 : Fin 2) * 256 ≤ (i 1).val
      ∧ (i 1).val < win0_4.index (pointOf (i 0).val hi0) (1 : Fin 2) * 256 + 256
    omega

theorem covered0_5 (i : S8192x1.Idx) :
    ∃ t : Fin cfg0.N, (cfg0.win 5).flush t = true ∧ i ∈ ((cfg0.win 5).blk t).view.set := by
  have hi0 : (i 0).val < 8192 := (i 0).isLt
  have hi1 : (i 1).val < 1 := (i 1).isLt
  obtain ⟨-, -, -, -, -, -, -, -, -, -, e0, e1, -⟩ := idx_facts0 (pointOf (i 0).val hi0)
  have ht : (pointOf (i 0).val hi0).val = (i 0).val / 1024 := rfl
  refine ⟨pointOf (i 0).val hi0, flush0_5 _, ?_⟩
  rw [mem_blk0_5]
  intro a
  match a with
  | ⟨0, _⟩ =>
    show win0_5.index (pointOf (i 0).val hi0) (0 : Fin 2) * 1024 ≤ (i 0).val
      ∧ (i 0).val < win0_5.index (pointOf (i 0).val hi0) (0 : Fin 2) * 1024 + 1024
    omega
  | ⟨1, _⟩ =>
    show win0_5.index (pointOf (i 0).val hi0) (1 : Fin 2) * 1 ≤ (i 1).val
      ∧ (i 1).val < win0_5.index (pointOf (i 0).val hi0) (1 : Fin 2) * 1 + 1
    omega

theorem covered0_6 (i : S1x8192.Idx) :
    ∃ t : Fin cfg0.N, (cfg0.win 6).flush t = true ∧ i ∈ ((cfg0.win 6).blk t).view.set := by
  have hi0 : (i 0).val < 1 := (i 0).isLt
  have hi1 : (i 1).val < 8192 := (i 1).isLt
  obtain ⟨-, -, -, -, -, -, -, -, -, -, -, -, e0, e1⟩ := idx_facts0 (pointOf (i 1).val hi1)
  have ht : (pointOf (i 1).val hi1).val = (i 1).val / 1024 := rfl
  refine ⟨pointOf (i 1).val hi1, flush0_6 _, ?_⟩
  rw [mem_blk0_6]
  intro a
  match a with
  | ⟨0, _⟩ =>
    show win0_6.index (pointOf (i 1).val hi1) (0 : Fin 2) * 1 ≤ (i 0).val
      ∧ (i 0).val < win0_6.index (pointOf (i 1).val hi1) (0 : Fin 2) * 1 + 1
    omega
  | ⟨1, _⟩ =>
    show win0_6.index (pointOf (i 1).val hi1) (1 : Fin 2) * 1024 ≤ (i 1).val
      ∧ (i 1).val < win0_6.index (pointOf (i 1).val hi1) (1 : Fin 2) * 1024 + 1024
    omega

/-! ## The arrays after the run of the region -/

/-- The projected features' array holds every node's projected features. -/
theorem final0_4 (c : Dev nD) (i : Fin 8192) (cc : Fin 256) :
    (dat0 V c).arrAt 4 cfg0.N (ix2 i cc) = Cert.Gat.wh (V c main_arg0) (V c main_arg2) i cc :=
  congrFun ((dat0 V c).arrAt_eq_of_cover 4 (whArr (V c main_arg0) (V c main_arg2))
    (fun t _ => flushed0_4_eq V c t) covered0_4) (ix2 i cc)

/-- The query logits' array holds every node's projected features against the first half of the attention vector. -/
theorem final0_5 (c : Dev nD) (i : Fin 8192) :
    (dat0 V c).arrAt 5 cfg0.N (ix2 i (0 : Fin 1))
      = ∑ cc : Fin 256, Cert.Gat.wh (V c main_arg0) (V c main_arg2) i cc * V c main_v1 (ix2 (0 : Fin 1) cc) :=
  congrFun ((dat0 V c).arrAt_eq_of_cover 5 (logitCol (V c main_arg0) (V c main_arg2) (V c main_v1))
    (fun t _ => flushed0_5_eq V c t) covered0_5) (ix2 i (0 : Fin 1))

/-- The key logits' array holds every node's projected features against the second half. -/
theorem final0_6 (c : Dev nD) (j : Fin 8192) :
    (dat0 V c).arrAt 6 cfg0.N (ix2 (0 : Fin 1) j)
      = ∑ cc : Fin 256, Cert.Gat.wh (V c main_arg0) (V c main_arg2) j cc * V c main_v3 (ix2 (0 : Fin 1) cc) :=
  congrFun ((dat0 V c).arrAt_eq_of_cover 6 (logitRow (V c main_arg0) (V c main_arg2) (V c main_v3))
    (fun t _ => flushed0_6_eq V c t) covered0_6) (ix2 (0 : Fin 1) j)

end Cert.KernelIdeal.HandValue

end
-- ==== Proof.Value.HostPrefix.lean ====
/-
  The two halves of the attention vector as the projection kernel is handed them: the vector's first 256 entries and
  its last 256, each cut out as a column and laid down as a row.
-/
import proofs.«151817_j31731218382937_2_alg».proof.Proof.Gen.KernelIdeal
import Idealize.ShloMosaic.Lib.ValueLayout
import Idealize.ShloMosaic.Lib.Pipeline.Value

noncomputable section

namespace Cert.KernelIdeal.HandValue

open Idealize.ShloMosaic Idealize.ShloMosaic.ValueIdx
open Cert.KernelIdeal Cert.KernelIdeal.Gen

/-- Entry `cc` of the first half's row is entry `cc` of the vector. -/
theorem a1_apply (a : S512x1.Idx → EReal) (cc : Fin 256) :
    transpose S1x256 [1, 0] (extractStridedSlice S256x1 ![0, 0] a slices_S512x1_S256x1_0_0) transposes_S256x1_S1x256_1_0
        (ix2 (0 : Fin 1) cc)
      = a (ix2 (⟨cc.val, by have := cc.isLt; omega⟩ : Fin 512) (0 : Fin 1)) := by
  refine (transpose_ix2_apply (a := 256) (b := 1) _ transposes_S256x1_S1x256_1_0 (0 : Fin 1) cc).trans ?_
  exact slice2_axis0_apply (n0 := 512) (n1 := 1) (m := 256) 0 a slices_S512x1_S256x1_0_0 cc (0 : Fin 1) _ (Nat.zero_add _).symm

/-- Entry `cc` of the second half's row is entry `256 + cc` of the vector. -/
theorem a2_apply (a : S512x1.Idx → EReal) (cc : Fin 256) :
    transpose S1x256 [1, 0] (extractStridedSlice S256x1 ![256, 0] a slices_S512x1_S256x1_256_0) transposes_S256x1_S1x256_1_0
        (ix2 (0 : Fin 1) cc)
      = a (ix2 (⟨256 + cc.val, by have := cc.isLt; omega⟩ : Fin 512) (0 : Fin 1)) := by
  refine (transpose_ix2_apply (a := 256) (b := 1) _ transposes_S256x1_S1x256_1_0 (0 : Fin 1) cc).trans ?_
  exact slice2_axis0_apply (n0 := 512) (n1 := 1) (m := 256) 256 a slices_S512x1_S256x1_256_0 cc (0 : Fin 1) _ rfl

end Cert.KernelIdeal.HandValue

end
-- ==== Proof.Value.Finite.lean ====
/-
  Under the precondition every float input is a real number.

  The precondition compares the absolute value of every entry of the three float arrays with plus infinity and
  takes the conjunction of all the comparisons.  An extended real whose absolute value is below plus infinity is
  neither infinity, so it is a real number.
-/
import Idealize.ShloMosaic.Lib.ReduceAll
import Idealize.ShloMosaic.PureOps.Ideal
import Idealize.ShloMosaic.PureOps.Ideal.Laws
import proofs.«151817_j31731218382937_2_alg».proof.Pre_finite_inputs
import proofs.«151817_j31731218382937_2_alg».proof.Proof.LibRealLaw

noncomputable section

namespace Cert.Gat

open Idealize.ShloMosaic
open Cert.Scores Cert.Pre_finite_inputs

instance : Subsingleton S_.Idx := ⟨fun a b => funext fun d => d.elim0⟩

/-- An extended real whose absolute value is below plus infinity is a real number. -/
theorem isReal_of_abs_lt (x : EReal)
    (e : FloatOps.cmpf (F := Ideal) (φ := .f32) .olt (FloatOps.hostAbsf (F := Ideal) (φ := .f32) x)
        (FloatOps.ofBits (F := Ideal) .f32 0x7F800000#32) = 1#1) : IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at e
  rw [htop] at e
  unfold Ideal.cmp at e
  induction x using EReal.rec with
  | bot => simp at e
  | coe r => exact ⟨r, rfl⟩
  | top => simp at e

/-- Under the precondition the node features, the weights and the attention vector are arrays of real numbers. -/
theorem real_of_pre [Cert.Pre_finite_inputs.Facts] (h : S8192x512.Idx → EReal) (adj : S8192x8192.Idx → BitVec 32)
    (W : S512x256.Idx → EReal) (a : S512x1.Idx → EReal)
    (hp : Cert.Pre_finite_inputs.fn (F := Ideal) h adj W a = fun _ => 1#1) :
    (∀ y, Cert.Scores.IsReal (h y)) ∧ (∀ y, Cert.Scores.IsReal (W y)) ∧ (∀ y, Cert.Scores.IsReal (a y)) := by
  have e0 := congrFun hp (fun d => d.elim0)
  dsimp only [Cert.Pre_finite_inputs.fn] at e0
  obtain ⟨e1, e2⟩ := IntOp.andi_eq_one.1 e0
  obtain ⟨e11, e12⟩ := IntOp.andi_eq_one.1 e1
  exact ⟨fun y => isReal_of_abs_lt (h y) (Host.reduce_andi_all _ _ _ _ _ e11 y),
    fun y => isReal_of_abs_lt (W y) (Host.reduce_andi_all _ _ _ _ _ e12 y),
    fun y => isReal_of_abs_lt (a y) (Host.reduce_andi_all _ _ _ _ _ e2 y)⟩

end Cert.Gat

end
-- ==== Proof.Math.GatReal.lean ====
/-
  Every piece of the layer is a real number when the node features, the weights and the attention vector are.

  The four float literals are finite patterns, so real numbers.  A selection between two real numbers is real
  whichever way the comparison falls; finite sums and products of real numbers are real; the maximum of a row
  of real scores is real, the exponentials shifted by it are positive reals, and so is their sum.
-/
import proofs.«151817_j31731218382937_2_alg».proof.Proof.GatSpec
import proofs.«151817_j31731218382937_2_alg».proof.Proof.LibRealLaw
import proofs.«151817_j31731218382937_2_alg».proof.Proof.LibOnlineSoftmax
import proofs.«151817_j31731218382937_2_alg».proof.Proof.Math.Online

noncomputable section

namespace Cert.Gat

open Idealize.ShloMosaic Idealize.ShloMosaic.ValueIdx
open Cert.Scores Cert.SoftRow
open scoped BigOperators

/-! ## The literals -/

theorem zeroE_eq : zeroE = 0 := Ideal.ofBits_zero_f32

theorem isReal_zeroE : IsReal zeroE := by rw [zeroE_eq]; exact isReal_zero

theorem isReal_slope : IsReal slope := by
  unfold slope Ideal.ofBits Ideal.ieee
  simp only []
  rw [if_neg (by decide)]
  split_ifs <;> exact ⟨_, rfl⟩

theorem isReal_negBig : IsReal negBig := by
  unfold negBig Ideal.ofBits Ideal.ieee
  simp only []
  rw [if_neg (by decide)]
  split_ifs <;> exact ⟨_, rfl⟩

theorem oneE_eq : oneE = 1 := by
  unfold oneE
  rw [show (1 : EReal) = ((1 : ℝ) : EReal) by norm_cast]
  simp [Ideal.ofBits, Ideal.ieee, -EReal.coe_mul]; norm_num

theorem isReal_oneE : IsReal oneE := by rw [oneE_eq]; exact isReal_one

/-! ## Selections -/

theorem isReal_select (c : BitVec 1) {a b : EReal} (ha : IsReal a) (hb : IsReal b) : IsReal (Scalar.select c a b) := by
  unfold Scalar.select
  split_ifs
  · exact ha
  · exact hb

theorem isReal_leaky {x : EReal} (hx : IsReal x) : IsReal (leaky x) :=
  isReal_select _ hx (isReal_slope.mul hx)

theorem isReal_score {q k : EReal} (hq : IsReal q) (hk : IsReal k) (e : BitVec 32) : IsReal (score q k e) :=
  isReal_select _ (isReal_leaky (hq.add hk)) isReal_negBig

theorem isReal_elu {x : EReal} (hx : IsReal x) : IsReal (elu x) :=
  isReal_select _ hx (isReal_sub (posReal_exp hx).isReal isReal_oneE)

/-! ## The layer -/

section Layer

variable (h : SH.Idx → EReal) (W : SW.Idx → EReal) (a : SA.Idx → EReal) (adj : SADJ.Idx → BitVec 32)

theorem isReal_wh (hh : ∀ x, IsReal (h x)) (hW : ∀ x, IsReal (W x)) (i : Fin 8192) (c : Fin 256) :
    IsReal (wh h W i c) :=
  IsReal.sum _ fun _ => (hh _).mul (hW _)

theorem isReal_f1 (hh : ∀ x, IsReal (h x)) (hW : ∀ x, IsReal (W x)) (ha : ∀ x, IsReal (a x)) (i : Fin 8192) :
    IsReal (f1 h W a i) :=
  IsReal.sum _ fun _ => (isReal_wh h W hh hW _ _).mul (ha _)

theorem isReal_f2 (hh : ∀ x, IsReal (h x)) (hW : ∀ x, IsReal (W x)) (ha : ∀ x, IsReal (a x)) (j : Fin 8192) :
    IsReal (f2 h W a j) :=
  IsReal.sum _ fun _ => (isReal_wh h W hh hW _ _).mul (ha _)

theorem isReal_sc (hh : ∀ x, IsReal (h x)) (hW : ∀ x, IsReal (W x)) (ha : ∀ x, IsReal (a x)) (i j : Fin 8192) :
    IsReal (sc h W a adj i j) :=
  isReal_score (isReal_f1 h W a hh hW ha i) (isReal_f2 h W a hh hW ha j) _

theorem isReal_rowMax (hh : ∀ x, IsReal (h x)) (hW : ∀ x, IsReal (W x)) (ha : ∀ x, IsReal (a x)) (i : Fin 8192) :
    IsReal (rowMax h W a adj i) :=
  fold_max_isReal (by decide) _ fun j => isReal_sc h W a adj hh hW ha i j

theorem posReal_ex (hh : ∀ x, IsReal (h x)) (hW : ∀ x, IsReal (W x)) (ha : ∀ x, IsReal (a x)) (i j : Fin 8192) :
    PosReal (ex h W a adj i j) :=
  posReal_exp (isReal_sub (isReal_sc h W a adj hh hW ha i j) (isReal_rowMax h W a adj hh hW ha i))

theorem posReal_rowSum (hh : ∀ x, IsReal (h x)) (hW : ∀ x, IsReal (W x)) (ha : ∀ x, IsReal (a x)) (i : Fin 8192) :
    PosReal (rowSum h W a adj i) :=
  posReal_sum (by decide) _ fun j => posReal_ex h W a adj hh hW ha i j

theorem isReal_hprime (hh : ∀ x, IsReal (h x)) (hW : ∀ x, IsReal (W x)) (ha : ∀ x, IsReal (a x)) (i : Fin 8192)
    (c : Fin 256) : IsReal (hprime h W a adj i c) := by
  obtain ⟨L, hL, hpos⟩ := posReal_rowSum h W a adj hh hW ha i
  refine IsReal.sum _ fun j => ?_
  rw [hL, Ideal.div_coe (ne_of_gt hpos)]
  exact ((posReal_ex h W a adj hh hW ha i j).isReal.mul (isReal_coe _)).mul (isReal_wh h W hh hW j c)

theorem isReal_out (hh : ∀ x, IsReal (h x)) (hW : ∀ x, IsReal (W x)) (ha : ∀ x, IsReal (a x)) (i : Fin 8192)
    (c : Fin 256) : IsReal (out h W a adj i c) :=
  isReal_elu (isReal_hprime h W a adj hh hW ha i c)

/-! ## The weighted sum of a row is the quotient the tiled recurrence ends with -/

/-- The flat key index of key `k` of tile `jb`. -/
theorem flat_val (jb : Fin 8) (k : Fin 1024) :
    (finProdFinEquiv (jb, k) : Fin (8 * 1024)).val = k.val + 1024 * jb.val := rfl

theorem flat_eq (jb : Fin 8) (k : Fin 1024) :
    (finProdFinEquiv (jb, k) : Fin (8 * 1024))
      = (⟨1024 * jb.val + k.val, by have := jb.isLt; have := k.isLt; omega⟩ : Fin 8192) :=
  Fin.ext (by rw [flat_val]; exact Nat.add_comm _ _)

theorem hprime_eq_online (hh : ∀ x, IsReal (h x)) (hW : ∀ x, IsReal (W x)) (ha : ∀ x, IsReal (a x)) (i : Fin 8192)
    (c : Fin 256) :
    hprime h W a adj i c
      = Ideal.div
          (online (T := 8) (n := 1024) (fun jb k => sc h W a adj i (finProdFinEquiv (jb, k)))
            (fun jb k => wh h W (finProdFinEquiv (jb, k)) c) 8 le_rfl).a
          (online (T := 8) (n := 1024) (fun jb k => sc h W a adj i (finProdFinEquiv (jb, k)))
            (fun jb k => wh h W (finProdFinEquiv (jb, k)) c) 8 le_rfl).l := by
  have key := online_eq_soft (T := 8) (n := 1024) (by decide) (by decide) (fun q => sc h W a adj i q)
    (fun q => wh h W q c) (fun q => isReal_sc h W a adj hh hW ha i q) (fun q => isReal_wh h W hh hW q c)
  unfold hprime ex rowSum rowMax
  exact key.symm

end Layer

end Cert.Gat

end
-- ==== Proof.Value.Bridge.lean ====
/-
  What the attention region leaves is the layer.

  The region is entered with the projected features, the two logits of every node and the adjacency matrix; the
  projection region and the host operations before it make these the functions `wh`, `f1`, `f2` of the launch
  arrays.  So the scores of node `R` against key tile `jb` are the layer's masked scores at the flat key index,
  the weights the projected features there, and the row recurrence's final quotient is the softmax-weighted sum,
  by the law that joins the recurrence to the whole-row softmax.  The law needs every score and weight to be a real
  number: the precondition makes the launch arrays real, and sums, products and selections keep them so.
-/
import proofs.«151817_j31731218382937_2_alg».proof.Proof.Value.Tiles
import proofs.«151817_j31731218382937_2_alg».proof.Proof.KernelIdeal.MainRun
import proofs.«151817_j31731218382937_2_alg».proof.Proof.Value.Region0
import proofs.«151817_j31731218382937_2_alg».proof.Proof.Value.HostPrefix
import proofs.«151817_j31731218382937_2_alg».proof.Proof.Value.Finite
import proofs.«151817_j31731218382937_2_alg».proof.Proof.Math.GatReal
import proofs.«151817_j31731218382937_2_alg».proof.Proof.Math.Online

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open scoped BigOperators

/-- Under the precondition the output array the attention region leaves is the layer's output. -/
theorem kernelOut_eq [Cert.Pre_finite_inputs.Facts] (m : (ℓ : Loc nD τ sig) → Buf (Elt Ideal) ℓ) (ρ : Dev nD → PrngReg)
    (c : Dev nD)
    (hpre : Cert.Pre_finite_inputs.fn (F := Ideal) (m ((c.tc : Thread nD τ).loc main_arg0))
        (m ((c.tc : Thread nD τ).loc main_arg1)) (m ((c.tc : Thread nD τ).loc main_arg2))
        (m ((c.tc : Thread nD τ).loc main_arg3)) = fun _ => 1#1) :
    kernelOut (V2 m ρ) c
      = Cert.Gat.outArr (m ((c.tc : Thread nD τ).loc main_arg0)) (m ((c.tc : Thread nD τ).loc main_arg2))
          (m ((c.tc : Thread nD τ).loc main_arg3)) (m ((c.tc : Thread nD τ).loc main_arg1)) := by
  obtain ⟨hh, hW, ha⟩ := Cert.Gat.real_of_pre _ _ _ _ hpre
  -- what the region is entered with, as functions of the launch arrays
  have hwh : ∀ (i : Fin 8192) (cc : Fin 256), (V2 m ρ c main_v4_0 : S8192x256.Idx → EReal) (ix2 i cc)
      = Cert.Gat.wh (m ((c.tc : Thread nD τ).loc main_arg0)) (m ((c.tc : Thread nD τ).loc main_arg2)) i cc := by
    intro i cc
    rw [V2_wh]
    refine (final0_4 (V1 m ρ) c i cc).trans ?_
    rw [V1_arg0, V1_arg2]
  have hf1 : ∀ R : Fin 8192, (V2 m ρ c main_v4_1 : S8192x1.Idx → EReal) (ix2 R (0 : Fin 1))
      = Cert.Gat.f1 (m ((c.tc : Thread nD τ).loc main_arg0)) (m ((c.tc : Thread nD τ).loc main_arg2))
          (m ((c.tc : Thread nD τ).loc main_arg3)) R := by
    intro R
    have e : (∑ cc : Fin 256, Cert.Gat.wh (V1 m ρ c main_arg0) (V1 m ρ c main_arg2) R cc
          * V1 m ρ c main_v1 (ix2 (0 : Fin 1) cc) : EReal)
        = Cert.Gat.f1 (m ((c.tc : Thread nD τ).loc main_arg0)) (m ((c.tc : Thread nD τ).loc main_arg2))
            (m ((c.tc : Thread nD τ).loc main_arg3)) R := by
      unfold Cert.Gat.f1
      refine Finset.sum_congr rfl fun cc _ => ?_
      rw [V1_arg0, V1_arg2, V1_a1, a1_apply]
    rw [V2_f1]
    exact (final0_5 (V1 m ρ) c R).trans e
  have hf2 : ∀ j : Fin 8192, (V2 m ρ c main_v4_2 : S1x8192.Idx → EReal) (ix2 (0 : Fin 1) j)
      = Cert.Gat.f2 (m ((c.tc : Thread nD τ).loc main_arg0)) (m ((c.tc : Thread nD τ).loc main_arg2))
          (m ((c.tc : Thread nD τ).loc main_arg3)) j := by
    intro j
    have e : (∑ cc : Fin 256, Cert.Gat.wh (V1 m ρ c main_arg0) (V1 m ρ c main_arg2) j cc
          * V1 m ρ c main_v3 (ix2 (0 : Fin 1) cc) : EReal)
        = Cert.Gat.f2 (m ((c.tc : Thread nD τ).loc main_arg0)) (m ((c.tc : Thread nD τ).loc main_arg2))
            (m ((c.tc : Thread nD τ).loc main_arg3)) j := by
      unfold Cert.Gat.f2
      refine Finset.sum_congr rfl fun cc _ => ?_
      rw [V1_arg0, V1_arg2, V1_a2, a2_apply]
    rw [V2_f2]
    exact (final0_6 (V1 m ρ) c j).trans e
  have hflat : ∀ (jb : Fin 8) (k : Fin 1024), (finProdFinEquiv (jb, k) : Fin (8 * 1024)) = tileIx jb k :=
    fun jb k => Cert.Gat.flat_eq jb k
  have hs : ∀ R : Fin 8192, sAll (V2 m ρ) c R
      = fun jb k => Cert.Gat.sc (m ((c.tc : Thread nD τ).loc main_arg0)) (m ((c.tc : Thread nD τ).loc main_arg2))
          (m ((c.tc : Thread nD τ).loc main_arg3)) (m ((c.tc : Thread nD τ).loc main_arg1)) R
          (finProdFinEquiv (jb, k)) := by
    intro R
    funext jb k
    rw [hflat jb k]
    show Cert.Gat.score _ _ _ = Cert.Gat.score _ _ _
    rw [hf1 R, hf2 (tileIx jb k), V2_adj]
  have hw : ∀ cc : Fin 256, wAll (V2 m ρ) c cc
      = fun jb k => Cert.Gat.wh (m ((c.tc : Thread nD τ).loc main_arg0)) (m ((c.tc : Thread nD τ).loc main_arg2))
          (finProdFinEquiv (jb, k)) cc := by
    intro cc
    funext jb k
    rw [hflat jb k]
    exact hwh (tileIx jb k) cc
  funext y
  obtain ⟨R, cc, rfl⟩ : ∃ (R : Fin 8192) (cc : Fin 256), y = ix2 R cc := ⟨y 0, y 1, eq_ix2 y⟩
  rw [kernelOut_apply, hs R, hw cc]
  show _ = Cert.Gat.elu (Cert.Gat.hprime _ _ _ _ R cc)
  exact congrArg Cert.Gat.elu (Cert.Gat.hprime_eq_online _ _ _ _ hh hW ha R cc).symm

end Cert.KernelIdeal.HandValue

end
-- ==== Proof.lean ====
/-
  A graph-attention layer computed two ways.

  Both programs take node features `h`, an integer adjacency matrix, weights `W` and an attention vector `a`,
  project the features (`h W`), score every ordered pair of nodes by the leaky sum of a query logit and a key
  logit (replaced by a fixed large negative number where the nodes are not adjacent), turn each row of scores into
  softmax weights, average the projected features with them and apply the exponential linear unit.  The reference
  does this with whole 8192 x 8192 matrices.  The kernel first computes the projection and the two logit vectors
  block by block, and then, for each block of 1024 query nodes, walks the keys in 8 tiles of 1024 keeping a
  running maximum, a running sum of exponentials and a running weighted sum, which it rescales whenever the
  maximum grows; the quotient of the two sums after the last tile is the softmax average.

  Over the extended reals, with every float input a real number, the two agree entry by entry: projections and
  logits are the same finite sums; every score is a real number, so the running maximum is real from the first
  tile on, the running sum is a positive real, and the recurrence's quotient equals the softmax average of the
  whole row (rescaling by exp (m - m') multiplies every earlier term exp (s - m) into exp (s - m')).  The exponential
  linear unit is applied to equal arguments; the reference's exp(x) - 1 through its own primitive and its product
  with the float one denote the same extended real.

  Each program's frame (it runs to the end, faults nowhere, leaves its arguments as launched) comes from its run:
  the kernel's two regions, the second of which carries three buffers from grid point to grid point, and the
  reference's straight run of host operations.  The ideal pass rewrote nothing, so the idealized kernel is the
  kernel's own text.
-/
import proofs.«151817_j31731218382937_2_alg».proof.Defs
import proofs.«151817_j31731218382937_2_alg».proof.Proof.Gen.Kernel
import proofs.«151817_j31731218382937_2_alg».proof.Proof.Gen.KernelIdeal
import proofs.«151817_j31731218382937_2_alg».proof.Proof.Gen.ReferenceIdeal
import proofs.«151817_j31731218382937_2_alg».proof.Proof.Gen.Pre_finite_inputs
import proofs.«151817_j31731218382937_2_alg».proof.Proof.Kernel.MainRun
import proofs.«151817_j31731218382937_2_alg».proof.Proof.KernelIdeal.MainRun
import proofs.«151817_j31731218382937_2_alg».proof.Proof.Ref.Value
import proofs.«151817_j31731218382937_2_alg».proof.Proof.Value.Region1
import proofs.«151817_j31731218382937_2_alg».proof.Proof.Value.Bridge

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's run, its result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both idealized programs end with the layer's output: the kernel's output array is the row recurrence's
    quotient at every entry, which is the softmax average when the inputs are real numbers; the reference's result
    term is the layer read entry by entry. -/
theorem algebraic : Cert.algebraic_KernelIdeal_ReferenceIdeal := by
  intro m ρ m' ρ' hpre hagree
  refine ⟨fun c => Cert.Gat.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Hand.run_value (F := Ideal) m ρ)
    rw [Cert.KernelIdeal.HandValue.final1, Cert.KernelIdeal.HandValue.kernelOut_eq m ρ c (hpre c)]
  · refine (θ_run Cert.ReferenceIdeal.defs _ _).mono (fun r h c => ⟨(h c).1.trans ?_, (h c).2⟩)
      (Cert.ReferenceIdeal.Hand.run (F := Ideal) m' ρ')
    rw [Cert.ReferenceIdeal.Hand.refTerm_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
